-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S64 .f32) (main_arg4 : FVec F S64x128 .f32) (main_arg5 : FVec F S128 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1700000 : Shape := ⟨1, ![1700000]⟩
abbrev S100000x64 : Shape := ⟨2, ![100000, 64]⟩
abbrev S5000x128 : Shape := ⟨2, ![5000, 128]⟩
abbrev S5000x64 : Shape := ⟨2, ![5000, 64]⟩
abbrev S1700000x1 : Shape := ⟨2, ![1700000, 1]⟩
abbrev S1700000x64 : Shape := ⟨2, ![1700000, 64]⟩
abbrev S1x64 : Shape := ⟨2, ![1, 64]⟩
abbrev S1x128 : Shape := ⟨2, ![1, 128]⟩

abbrev nBuf : Space → Nat
  | .hbm => 115
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S100000, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S_, .f32⟩
  | .hbm, ⟨23, _⟩ => ⟨S1600000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000, .f32⟩
  | .hbm, ⟨47, _⟩ => ⟨S1600000, .f32⟩
  | .hbm, ⟨48, _⟩ => ⟨S100000, .f32⟩
  | .hbm, ⟨49, _⟩ => ⟨S100000, .i32⟩
  | .hbm, ⟨50, _⟩ => ⟨S1700000, .i32⟩
  | .hbm, ⟨51, _⟩ => ⟨S1700000, .i32⟩
  | .hbm, ⟨52, _⟩ => ⟨S1700000, .f32⟩
  | .hbm, ⟨53, _⟩ => ⟨S100000x64, .f32⟩
  | .hbm, ⟨54, _⟩ => ⟨S100000x64, .bf16⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000x64, .bf16⟩
  | .hbm, ⟨64, _⟩ => ⟨S1700000x64, .f32⟩
  | .hbm, ⟨65, _⟩ => ⟨S1700000x1, .f32⟩
  | .hbm, ⟨66, _⟩ => ⟨S1700000x64, .f32⟩
  | .hbm, ⟨67, _⟩ => ⟨S1700000x64, .f32⟩
  | .hbm, ⟨68, _⟩ => ⟨S_, .f32⟩
  | .hbm, ⟨69, _⟩ => ⟨S100000x64, .f32⟩
  | .hbm, ⟨70, _⟩ => ⟨S1700000x1, .i32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .bf16⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x64, .bf16⟩
  | .hbm, ⟨84, _⟩ => ⟨S1700000x64, .f32⟩
  | .hbm, ⟨85, _⟩ => ⟨S1700000x1, .f32⟩
  | .hbm, ⟨86, _⟩ => ⟨S1700000x64, .f32⟩
  | .hbm, ⟨87, _⟩ => ⟨S1700000x64, .f32⟩
  | .hbm, ⟨88, _⟩ => ⟨S_, .f32⟩
  | .hbm, ⟨89, _⟩ => ⟨S100000x64, .f32⟩
  | .hbm, ⟨90, _⟩ => ⟨S1700000x1, .i32⟩
  | .hbm, ⟨91, _⟩ => ⟨S100000x64, .f32⟩
  | .hbm, ⟨92, _⟩ => ⟨S1x128, .f32⟩
  | .hbm, ⟨93, _⟩ => ⟨S100000x128, .f32⟩
  | .hbm, ⟨94, _⟩ => ⟨S100000x64, .f32⟩
  | .hbm, ⟨95, _⟩ => ⟨S100000x64, .bf16⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000x64, .bf16⟩
  | .hbm, ⟨105, _⟩ => ⟨S1700000x64, .f32⟩
  | .hbm, ⟨106, _⟩ => ⟨S1700000x1, .f32⟩
  | .hbm, ⟨107, _⟩ => ⟨S1700000x64, .f32⟩
  | .hbm, ⟨108, _⟩ => ⟨S1700000x64, .f32⟩
  | .hbm, ⟨109, _⟩ => ⟨S_, .f32⟩
  | .hbm, ⟨110, _⟩ => ⟨S100000x64, .f32⟩
  | .hbm, ⟨111, _⟩ => ⟨S1700000x1, .i32⟩
  | .hbm, ⟨112, _⟩ => ⟨S100000x64, .f32⟩
  | .hbm, ⟨113, _⟩ => ⟨S1x64, .f32⟩
  | .hbm, ⟨114, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_7 : Ref sig .tc := ⟨.hbm, 55, rfl⟩
abbrev main_v38 : Ref sig .tc := ⟨.hbm, 56, rfl⟩
abbrev main_v39 : Ref sig .tc := ⟨.hbm, 57, rfl⟩
abbrev main_c_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c_10 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_12 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_c_13 : Ref sig .tc := ⟨.hbm, 96, rfl⟩
abbrev main_v73 : Ref sig .tc := ⟨.hbm, 97, rfl⟩
abbrev main_v74 : Ref sig .tc := ⟨.hbm, 98, rfl⟩
abbrev main_c_14 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_15 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem2_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000_S100000_S1700000_d0 : Shape.Concatenates [S1600000, S100000] S1700000 0
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S5000x64_S5000x64 : S5000x64.ShapeCasts S5000x64
  shapeCasts_S128_S1x128 : S128.ShapeCasts S1x128
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x128_S5000x128_1_0_0_1_n_n_wf : DotDims.WF S5000x64 S64x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v68) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v69) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v70) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v70) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v71) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v86) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v87) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v88) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S1600000x128 : Shape := ⟨2, ![1600000, 128]⟩
abbrev S1x128 : Shape := ⟨2, ![1, 128]⟩

abbrev nBuf : Space → Nat
  | .hbm => 201
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x128, .f32⟩
  | 5 => ⟨S128, .f32⟩
  | 6 => ⟨S128x64, .f32⟩
  | 7 => ⟨S64, .f32⟩
  | 8 => ⟨S1x1600000, .i32⟩
  | 9 => ⟨S1600000, .i32⟩
  | 10 => ⟨S1x1600000, .i32⟩
  | 11 => ⟨S1600000, .i32⟩
  | 12 => ⟨S100000x64, .f32⟩
  | 13 => ⟨S_, .f32⟩
  | 14 => ⟨S100000, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S_, .f32⟩
  | 24 => ⟨S1600000, .f32⟩
  | 25 => ⟨S100000, .f32⟩
  | 26 => ⟨S_, .f32⟩
  | 27 => ⟨S100000, .f32⟩
  | 28 => ⟨S100000, .f32⟩
  | 29 => ⟨S100000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x64, .f32⟩
  | 58 => ⟨S1600000x1, .f32⟩
  | 59 => ⟨S1600000x64, .f32⟩
  | 60 => ⟨S1600000x64, .f32⟩
  | 61 => ⟨S_, .f32⟩
  | 62 => ⟨S100000x64, .f32⟩
  | 63 => ⟨S1600000x1, .i32⟩
  | 64 => ⟨S100000x64, .f32⟩
  | 65 => ⟨S100000, .f32⟩
  | 66 => ⟨S100000x1, .f32⟩
  | 67 => ⟨S100000x64, .f32⟩
  | 68 => ⟨S100000x64, .f32⟩
  | 69 => ⟨S100000x64, .f32⟩
  | 70 => ⟨S1x64, .f32⟩
  | 71 => ⟨S100000x64, .f32⟩
  | 72 => ⟨S100000x64, .f32⟩
  | 73 => ⟨S_, .f32⟩
  | 74 => ⟨S100000x64, .f32⟩
  | 75 => ⟨S100000x64, .f32⟩
  | 76 => ⟨S100000x128, .f32⟩
  | 77 => ⟨S_, .f32⟩
  | 78 => ⟨S100000, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S_, .f32⟩
  | 88 => ⟨S1600000, .f32⟩
  | 89 => ⟨S100000, .f32⟩
  | 90 => ⟨S_, .f32⟩
  | 91 => ⟨S100000, .f32⟩
  | 92 => ⟨S100000, .f32⟩
  | 93 => ⟨S100000, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000, .f32⟩
  | 112 => ⟨S1600000, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000x128, .f32⟩
  | 122 => ⟨S1600000x1, .f32⟩
  | 123 => ⟨S1600000x128, .f32⟩
  | 124 => ⟨S1600000x128, .f32⟩
  | 125 => ⟨S_, .f32⟩
  | 126 => ⟨S100000x128, .f32⟩
  | 127 => ⟨S1600000x1, .i32⟩
  | _ => ⟨S100000x128, .f32⟩

abbrev hbmTy0_1 (i : Nat) : BufTy := match i % 128 with
  | 0 => ⟨S100000x128, .f32⟩
  | 1 => ⟨S100000, .f32⟩
  | 2 => ⟨S100000x1, .f32⟩
  | 3 => ⟨S100000x128, .f32⟩
  | 4 => ⟨S100000x128, .f32⟩
  | 5 => ⟨S100000x128, .f32⟩
  | 6 => ⟨S1x128, .f32⟩
  | 7 => ⟨S100000x128, .f32⟩
  | 8 => ⟨S100000x128, .f32⟩
  | 9 => ⟨S_, .f32⟩
  | 10 => ⟨S100000x128, .f32⟩
  | 11 => ⟨S100000x128, .f32⟩
  | 12 => ⟨S100000x64, .f32⟩
  | 13 => ⟨S_, .f32⟩
  | 14 => ⟨S100000, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S_, .f32⟩
  | 24 => ⟨S1600000, .f32⟩
  | 25 => ⟨S100000, .f32⟩
  | 26 => ⟨S_, .f32⟩
  | 27 => ⟨S100000, .f32⟩
  | 28 => ⟨S100000, .f32⟩
  | 29 => ⟨S100000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x64, .f32⟩
  | 58 => ⟨S1600000x1, .f32⟩
  | 59 => ⟨S1600000x64, .f32⟩
  | 60 => ⟨S1600000x64, .f32⟩
  | 61 => ⟨S_, .f32⟩
  | 62 => ⟨S100000x64, .f32⟩
  | 63 => ⟨S1600000x1, .i32⟩
  | 64 => ⟨S100000x64, .f32⟩
  | 65 => ⟨S100000, .f32⟩
  | 66 => ⟨S100000x1, .f32⟩
  | 67 => ⟨S100000x64, .f32⟩
  | 68 => ⟨S100000x64, .f32⟩
  | 69 => ⟨S100000x64, .f32⟩
  | 70 => ⟨S1x64, .f32⟩
  | 71 => ⟨S100000x64, .f32⟩
  | 72 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_call0_cst : Ref sig .tc := ⟨.hbm, 73, rfl⟩
abbrev main_call0_v0 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_13 : Ref sig .tc := ⟨.hbm, 87, rfl⟩
abbrev main_v62 : Ref sig .tc := ⟨.hbm, 88, rfl⟩
abbrev main_v63 : Ref sig .tc := ⟨.hbm, 89, rfl⟩
abbrev main_cst_14 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_15 : Ref sig .tc := ⟨.hbm, 94, rfl⟩
abbrev main_v67 : Ref sig .tc := ⟨.hbm, 95, rfl⟩
abbrev main_v68 : Ref sig .tc := ⟨.hbm, 96, rfl⟩
abbrev main_c_16 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_17 : Ref sig .tc := ⟨.hbm, 103, rfl⟩
abbrev main_v74 : Ref sig .tc := ⟨.hbm, 104, rfl⟩
abbrev main_v75 : Ref sig .tc := ⟨.hbm, 105, rfl⟩
abbrev main_c_18 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_c_19 : Ref sig .tc := ⟨.hbm, 113, rfl⟩
abbrev main_v82 : Ref sig .tc := ⟨.hbm, 114, rfl⟩
abbrev main_v83 : Ref sig .tc := ⟨.hbm, 115, rfl⟩
abbrev main_c_20 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_21 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_call1_cst : Ref sig .tc := ⟨.hbm, 137, rfl⟩
abbrev main_call1_v0 : Ref sig .tc := ⟨.hbm, 138, rfl⟩
abbrev main_v103 : Ref sig .tc := ⟨.hbm, 139, rfl⟩
abbrev main_v104 : Ref sig .tc := ⟨.hbm, 140, rfl⟩
abbrev main_cst_22 : Ref sig .tc := ⟨.hbm, 141, rfl⟩
abbrev main_v105 : Ref sig .tc := ⟨.hbm, 142, rfl⟩
abbrev main_c_23 : Ref sig .tc := ⟨.hbm, 143, rfl⟩
abbrev main_v106 : Ref sig .tc := ⟨.hbm, 144, rfl⟩
abbrev main_v107 : Ref sig .tc := ⟨.hbm, 145, rfl⟩
abbrev main_c_24 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_cst_25 : Ref sig .tc := ⟨.hbm, 151, rfl⟩
abbrev main_v112 : Ref sig .tc := ⟨.hbm, 152, rfl⟩
abbrev main_v113 : Ref sig .tc := ⟨.hbm, 153, rfl⟩
abbrev main_cst_26 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_c_27 : Ref sig .tc := ⟨.hbm, 158, rfl⟩
abbrev main_v117 : Ref sig .tc := ⟨.hbm, 159, rfl⟩
abbrev main_v118 : Ref sig .tc := ⟨.hbm, 160, rfl⟩
abbrev main_c_28 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_c_29 : Ref sig .tc := ⟨.hbm, 167, rfl⟩
abbrev main_v124 : Ref sig .tc := ⟨.hbm, 168, rfl⟩
abbrev main_v125 : Ref sig .tc := ⟨.hbm, 169, rfl⟩
abbrev main_c_30 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_c_31 : Ref sig .tc := ⟨.hbm, 177, rfl⟩
abbrev main_v132 : Ref sig .tc := ⟨.hbm, 178, rfl⟩
abbrev main_v133 : Ref sig .tc := ⟨.hbm, 179, rfl⟩
abbrev main_c_32 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_cst_33 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x64_S100000x64_1_0_0_1_n_n_wf : DotDims.WF S100000x128 S128x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Spec.lean ====
import Idealize.ShloMosaic.Lib.ValueIdx
import Idealize.ShloMosaic.PureOps.Ideal
import Mathlib.Data.EReal.Operations

/-!
# A graph-convolution layer on extended reals, index by index

One layer of a graph convolution with symmetric normalisation sends node features `H : [N, C]` to

  `agg H (r, f) = (∑ over edges e whose target is r, H (source e, f) · coef e) + H (r, f) · selfw r`

(the sum over the in-edges of node `r`, each weighted, plus the node's own row with its self-loop weight), followed by a
bias and possibly a rectifier; the features come from a matrix product. Here these are written as plain functions of
indices: a target is an integer (an edge whose target is no node contributes to no row), a source a node.
-/

noncomputable section

namespace Cert.Gcn

open Idealize.ShloMosaic Idealize.ShloMosaic.ValueIdx

/-- An `[N, C]` array of extended reals. -/
abbrev Mat (N C : Nat) : Type := (⟨2, ![N, C]⟩ : Shape).Idx → EReal

/-- The row of an index of an `[N, C]` array. -/
abbrev row {N C : Nat} (i : (⟨2, ![N, C]⟩ : Shape).Idx) : Fin N := ⟨(i 0).val, idx2_lt0 i⟩
/-- The column of an index of an `[N, C]` array. -/
abbrev col {N C : Nat} (i : (⟨2, ![N, C]⟩ : Shape).Idx) : Fin C := ⟨(i 1).val, idx2_lt1 i⟩

/-- The matrix product `[N, K] · [K, C]`: `(r, f) ↦ ∑ k, X (r, k) · W (k, f)`. -/
def mm {N K C : Nat} (X : Mat N K) (W : Mat K C) : Mat N C :=
  fun i => ∑ k : Fin K, X (ix2 (row i) k) * W (ix2 k (col i))

/-- A row `b : [1, C]` added to every row of `A : [N, C]`. -/
def addBias {N C : Nat} (A : Mat N C) (b : Mat 1 C) : Mat N C :=
  fun i => A i + b (ix2 (0 : Fin 1) (col i))

/-- The rectifier, entry by entry: `max a 0`. -/
def relu {N C : Nat} (A : Mat N C) : Mat N C := fun i => max (A i) 0

/-- One normalised aggregation over the edges: row `r` of the result is the weighted sum of the source rows of the edges
    whose target is `r`, plus row `r` itself times its self-loop weight. -/
def agg {N E C : Nat} (tgt : Fin E → Int) (src : Fin E → Fin N) (coef : Fin E → EReal) (selfw : Fin N → EReal)
    (H : Mat N C) : Mat N C :=
  fun i => (∑ e : Fin E, if tgt e = ((row i).val : Int) then H (ix2 (src e) (col i)) * coef e else 0)
    + H i * selfw (row i)

/-- Every entry is a real number (neither infinity). -/
def IsReal {ι : Type} (f : ι → EReal) : Prop := ∀ i, ∃ r : ℝ, f i = (r : EReal)

end Cert.Gcn

end
-- ==== Proof.LibERealScale.lean ====
import Idealize.ShloMosaic.PureOps.Ideal
import Mathlib.Data.EReal.Operations
import Mathlib.Data.EReal.Inv

/-!
# Scaling sums of extended reals by a finite non-negative factor; inverse square roots of degrees

The extended reals `[-∞, +∞]` are not a semiring: `c * (x + y) = c * x + c * y` can fail (for instance at
`x = ⊤`, `y = ⊥` with a negative `c`, or at `c = ⊤` with `x`, `y` of opposite sign). It does hold when the factor
`c` is non-negative and not `⊤`, and then it passes to finite sums. The factors that occur when a sum over the
in-edges of a graph node is normalised by its degree are of that kind: the inverse square root of a real `t ≥ 1` is a
non-negative real.
-/

open Idealize.ShloMosaic

namespace Cert.Lib

/-- A non-negative extended real `c` other than `⊤` multiplies a finite sum termwise:
    `c * ∑ j ∈ s, a j = ∑ j ∈ s, c * a j`. (Induction on `s`; each step is distributivity of such a `c` over one
    addition, which holds whatever the two summands are — for `c = 0` both sides are `0`, and a positive real `c`
    preserves the sign and the infiniteness of each summand, hence also the junk value of `⊤ + ⊥`.) -/
theorem mul_sum_of_nonneg_of_ne_top {ι : Type*} (s : Finset ι) (c : EReal) (hc : 0 ≤ c) (hc' : c ≠ ⊤)
    (a : ι → EReal) : c * ∑ j ∈ s, a j = ∑ j ∈ s, c * a j := by
  classical
  induction s using Finset.induction_on with
  | empty => simp
  | insert i s hi ih =>
    rw [Finset.sum_insert hi, Finset.sum_insert hi, EReal.left_distrib_of_nonneg_of_ne_top hc hc', ih]

/-- The same with the factor on the right: `(∑ j ∈ s, a j) * c = ∑ j ∈ s, a j * c`. -/
theorem sum_mul_of_nonneg_of_ne_top {ι : Type*} (s : Finset ι) (c : EReal) (hc : 0 ≤ c) (hc' : c ≠ ⊤)
    (a : ι → EReal) : (∑ j ∈ s, a j) * c = ∑ j ∈ s, a j * c := by
  rw [mul_comm, mul_sum_of_nonneg_of_ne_top s c hc hc']
  exact Finset.sum_congr rfl fun j _ => mul_comm _ _

/-- A finite sum of real numbers, each read as an extended real, is the real sum read as an extended real. -/
theorem sum_coe {ι : Type*} (s : Finset ι) (a : ι → ℝ) :
    (∑ j ∈ s, ((a j : ℝ) : EReal)) = ((∑ j ∈ s, a j : ℝ) : EReal) := by
  classical
  induction s using Finset.induction_on with
  | empty => simp
  | insert i s hi ih => rw [Finset.sum_insert hi, Finset.sum_insert hi, ih, EReal.coe_add]

/-- Summing the same real `r` over a finite set `s` gives `|s| * r`, as an extended real. -/
theorem sum_const_coe {ι : Type*} (s : Finset ι) (r : ℝ) :
    (∑ _j ∈ s, ((r : ℝ) : EReal)) = (((s.card : ℝ) * r : ℝ) : EReal) := by
  rw [sum_coe, Finset.sum_const, nsmul_eq_mul]

/-- The inverse square root of a positive real `t` is the real `(√t)⁻¹`. -/
theorem rsqrt_coe_of_pos (t : ℝ) (ht : 0 < t) :
    Ideal.rsqrt (t : EReal) = (((Real.sqrt t)⁻¹ : ℝ) : EReal) := by
  rw [Ideal.rsqrt_coe, if_neg (not_lt.mpr ht.le), if_neg ht.ne']

/-- The inverse square root of a real `t ≥ 1` is a non-negative extended real that is not `⊤`: it is the real
    `(√t)⁻¹ ≥ 0`. -/
theorem rsqrt_nonneg_ne_top_of_one_le (t : ℝ) (ht : 1 ≤ t) :
    0 ≤ Ideal.rsqrt (t : EReal) ∧ Ideal.rsqrt (t : EReal) ≠ ⊤ := by
  rw [rsqrt_coe_of_pos t (lt_of_lt_of_le one_pos ht)]
  exact ⟨EReal.coe_nonneg.mpr (inv_nonneg.mpr (Real.sqrt_nonneg t)), EReal.coe_ne_top _⟩

/-- The degree `1 + (0 + n · 1)` of a node with `n` in-edges (one for the node itself, then a sum of `n` ones
    started from `0`) is the real `1 + n`, and its inverse square root is a positive real. -/
theorem rsqrt_one_add_count_pos (n : ℕ) :
    ∃ r : ℝ, 0 < r ∧
      Ideal.rsqrt (((1 : ℝ) : EReal) + (0 + (((n : ℝ) * 1 : ℝ) : EReal))) = ((r : ℝ) : EReal) := by
  have hpos : (0 : ℝ) < 1 + (n : ℝ) := by positivity
  refine ⟨(Real.sqrt (1 + (n : ℝ)))⁻¹, inv_pos.mpr (Real.sqrt_pos.mpr hpos), ?_⟩
  rw [zero_add, mul_one, ← EReal.coe_add, rsqrt_coe_of_pos _ hpos]

/-- The binary32 word `0x3F800000` (sign `0`, biased exponent `127`, significand field `0`) denotes the real
    `1 = 2^23 · 2^(127 - 127 - 23)`. -/
theorem ofBits_one_f32 : Ideal.ofBits .f32 0x3F800000#32 = ((1 : ℝ) : EReal) := by
  have hneg : ((0x3F800000#32).extractLsb' (8 + 23) 1 == 1#1) = false := by decide
  have hex : ((0x3F800000#32).extractLsb' 23 8).toNat = 127 := by decide
  have hfr : ((0x3F800000#32).extractLsb' 0 23).toNat = 0 := by decide
  simp only [Ideal.ofBits, Ideal.ieee, hneg, hex, hfr]
  norm_num

end Cert.Lib
-- ==== Proof.AggAlgebra.lean ====
import proofs.«152042_j21002390077477_2_alg».proof.Proof.Spec
import proofs.«152042_j21002390077477_2_alg».proof.Proof.LibERealScale
import Idealize.ShloMosaic.PureOps.Ideal
import Mathlib.Algebra.BigOperators.Ring.Finset
import Mathlib.Data.EReal.Operations

/-!
# Aggregation over edges is linear on real-valued data

On the extended reals multiplication does not distribute over addition (at the infinities), so "aggregate, then multiply
by a matrix" and "multiply by the matrix, then aggregate" need not agree in general. When every entry involved is a real
number both sides are the images of real numbers, and the identity is the usual one over the reals: exchange the two
finite sums and distribute. This file proves that the layer's operations keep entries real, and the exchange law.
-/

noncomputable section

namespace Cert.Gcn

open Idealize.ShloMosaic Idealize.ShloMosaic.ValueIdx

/-- The row of the index with coordinates `(r, k)` is `r`. -/
theorem row_ix2 {N C : Nat} (r : Fin N) (k : Fin C) : row (ix2 r k) = r := rfl

/-- The column of the index with coordinates `(r, k)` is `k`. -/
theorem col_ix2 {N C : Nat} (r : Fin N) (k : Fin C) : col (ix2 r k) = k := rfl

/-- A conditional whose branches are a real and zero is the image of the real conditional. -/
theorem ite_coe_zero (p : Prop) [Decidable p] (a : ℝ) :
    (if p then ((a : ℝ) : EReal) else 0) = (((if p then a else 0 : ℝ)) : EReal) := by
  split
  · rfl
  · exact EReal.coe_zero.symm

theorem IsReal.mm {N K C : Nat} {X : Mat N K} {W : Mat K C} (hX : IsReal X) (hW : IsReal W) : IsReal (mm X W) := by
  choose x hx using hX
  choose w hw using hW
  intro i
  refine ⟨∑ k : Fin K, x (ix2 (row i) k) * w (ix2 k (col i)), ?_⟩
  simp only [Cert.Gcn.mm, hx, hw, ← EReal.coe_mul]
  exact Cert.Lib.sum_coe _ _

theorem IsReal.addBias {N C : Nat} {A : Mat N C} {b : Mat 1 C} (hA : IsReal A) (hb : IsReal b) :
    IsReal (addBias A b) := by
  intro i
  obtain ⟨a, ha⟩ := hA i
  obtain ⟨c, hc⟩ := hb (ix2 (0 : Fin 1) (col i))
  exact ⟨a + c, by simp only [Cert.Gcn.addBias, ha, hc, EReal.coe_add]⟩

theorem IsReal.relu {N C : Nat} {A : Mat N C} (hA : IsReal A) : IsReal (relu A) := by
  intro i
  obtain ⟨a, ha⟩ := hA i
  refine ⟨max a 0, ?_⟩
  simp only [Cert.Gcn.relu, ha]
  rw [← EReal.coe_zero]
  exact (EReal.coe_strictMono.monotone.map_max).symm

theorem IsReal.agg {N E C : Nat} (tgt : Fin E → Int) (src : Fin E → Fin N) {coef : Fin E → EReal}
    {selfw : Fin N → EReal} {H : Mat N C}
    (hH : IsReal H) (hc : IsReal coef) (hs : IsReal selfw) : IsReal (agg tgt src coef selfw H) := by
  choose h hh using hH
  choose c hcr using hc
  choose s hsr using hs
  intro i
  refine ⟨(∑ e : Fin E, if tgt e = ((row i).val : Int) then h (ix2 (src e) (col i)) * c e else 0)
    + h i * s (row i), ?_⟩
  simp only [Cert.Gcn.agg, hh, hcr, hsr, ← EReal.coe_mul, ite_coe_zero, Cert.Lib.sum_coe, ← EReal.coe_add]

/-- Aggregation commutes with right multiplication by a matrix, for real-valued data. -/
theorem mm_agg {N E K C : Nat} (tgt : Fin E → Int) (src : Fin E → Fin N) (coef : Fin E → EReal) (selfw : Fin N → EReal)
    (Y : Mat N K) (W : Mat K C) (hY : IsReal Y) (hW : IsReal W) (hc : IsReal coef) (hs : IsReal selfw) :
    mm (agg tgt src coef selfw Y) W = agg tgt src coef selfw (mm Y W) := by
  choose y hy using hY
  choose w hw using hW
  choose c hcr using hc
  choose s hsr using hs
  funext i
  -- Entry `(r, f)` of the two sides, with the coordinates of the inner indices read off.
  show (∑ k : Fin K, ((∑ e : Fin E, if tgt e = ((row i).val : Int) then Y (ix2 (src e) k) * coef e else 0)
        + Y (ix2 (row i) k) * selfw (row i)) * W (ix2 k (col i)))
      = (∑ e : Fin E, if tgt e = ((row i).val : Int) then (∑ k : Fin K, Y (ix2 (src e) k) * W (ix2 k (col i))) * coef e
          else 0)
        + (∑ k : Fin K, Y (ix2 (row i) k) * W (ix2 k (col i))) * selfw (row i)
  -- Both sides are images of reals; over the reals, exchange the sum over `k` with the sum over edges and distribute.
  simp only [hy, hw, hcr, hsr, ← EReal.coe_mul, ite_coe_zero,
    Cert.Lib.sum_coe, ← EReal.coe_add]
  congr 1
  simp only [add_mul, Finset.sum_add_distrib, Finset.sum_mul, ite_mul, zero_mul]
  congr 1
  · rw [Finset.sum_comm]
    refine Finset.sum_congr rfl fun e _ => ?_
    split
    · exact Finset.sum_congr rfl fun k _ => by ring
    · exact Finset.sum_const_zero
  · exact Finset.sum_congr rfl fun k _ => by ring

/-- The inverse square root of (a count of ones accumulated by a scatter into zeros) + 1 is a non-negative real, whatever
    the scatter's dimension numbers and indices: the scatter's value at `i` is `0` plus one `1` for each update landing on
    `i`, that is a natural number `n`, and `(√(n + 1))⁻¹` is a non-negative real. -/
theorem rsqrt_count_real {s si su : Shape} (d : ScatterDims s si su) {w : Nat} (X : s.Idx → EReal) (idx : IVec si w)
    (U : su.Idx → EReal) (hX : ∀ i, X i = 0) (hU : ∀ j, U j = 1) (i : s.Idx) :
    ∃ r : ℝ, 0 ≤ r ∧ Ideal.rsqrt (Ideal.hostScatterAdd d X idx U i + 1) = (r : EReal) := by
  have hval : ∃ n : ℕ, Ideal.hostScatterAdd d X idx U i + 1 = (((n : ℝ) + 1 : ℝ) : EReal) := by
    refine ⟨(Finset.univ.filter (fun j => d.resultIdx? j idx = some i)).card, ?_⟩
    simp only [Ideal.hostScatterAdd, hX, hU, zero_add]
    rw [← EReal.coe_one, Cert.Lib.sum_const_coe, mul_one, EReal.coe_add]
  obtain ⟨n, hn⟩ := hval
  have hpos : (0 : ℝ) < (n : ℝ) + 1 := by positivity
  exact ⟨(Real.sqrt ((n : ℝ) + 1))⁻¹, inv_nonneg.mpr (Real.sqrt_nonneg _), by
    rw [hn, Cert.Lib.rsqrt_coe_of_pos _ hpos]⟩

end Cert.Gcn

end
-- ==== Proof.Model.lean ====
import proofs.«152042_j21002390077477_2_alg».proof.Proof.Spec
import proofs.«152042_j21002390077477_2_alg».proof.Proof.AggAlgebra

/-!
# The three layers, in the two orders of operations

Both programs compute three graph-convolution layers `128 → 64 → 128 → 64`; layers 1 and 2 end with a rectifier. The
reference multiplies by the layer's matrix and then aggregates (`gcnRef`). The kernel does the same in layers 1 and 3,
but in layer 2 aggregates the 64-wide features first and multiplies afterwards (`gcnKer`). Aggregation is linear in
the features, so the two agree — on the extended reals only where everything in sight is a real number, which is why
the bridge `gcnKer_eq_gcnRef` asks for real inputs and real weights.
-/

noncomputable section

namespace Cert.Gcn

open Idealize.ShloMosaic Idealize.ShloMosaic.ValueIdx

/-- A vector of `C` entries as the one row of a `[1, C]` array. -/
def rowVec {C : Nat} (b : (⟨1, ![C]⟩ : Shape).Idx → EReal) : Mat 1 C := fun i => b (ix1 (col i))

theorem IsReal.rowVec {C : Nat} {b : (⟨1, ![C]⟩ : Shape).Idx → EReal} (hb : IsReal b) : IsReal (rowVec b) :=
  fun i => hb (ix1 (col i))

section
variable {N E : Nat} (tgt : Fin E → Int) (src : Fin E → Fin N) (coef : Fin E → EReal) (selfw : Fin N → EReal)
  (x : Mat N 128) (W1 : Mat 128 64) (b1 : (⟨1, ![64]⟩ : Shape).Idx → EReal)
  (W2 : Mat 64 128) (b2 : (⟨1, ![128]⟩ : Shape).Idx → EReal)
  (W3 : Mat 128 64) (b3 : (⟨1, ![64]⟩ : Shape).Idx → EReal)

/-- The first layer's output: `relu (agg (x · W1) + b1)` (the same in both programs). -/
def layer1 : Mat N 64 := relu (addBias (agg tgt src coef selfw (mm x W1)) (rowVec b1))

/-- The reference's order: multiply, then aggregate, in every layer. -/
def gcnRef : Mat N 64 :=
  addBias (agg tgt src coef selfw (mm
    (relu (addBias (agg tgt src coef selfw (mm (layer1 tgt src coef selfw x W1 b1) W2)) (rowVec b2))) W3)) (rowVec b3)

/-- The kernel's order: in layer 2, aggregate first and multiply afterwards. -/
def gcnKer : Mat N 64 :=
  addBias (agg tgt src coef selfw (mm
    (relu (addBias (mm (agg tgt src coef selfw (layer1 tgt src coef selfw x W1 b1)) W2) (rowVec b2))) W3)) (rowVec b3)

/-- With real inputs and real weights the first layer's output is real, so in layer 2 the aggregation passes through
    the product with `W2`, and the two orders give the same array. -/
theorem gcnKer_eq_gcnRef (hx : IsReal x) (hW1 : IsReal W1) (hb1 : IsReal b1) (hW2 : IsReal W2)
    (hc : IsReal coef) (hs : IsReal selfw) :
    gcnKer tgt src coef selfw x W1 b1 W2 b2 W3 b3 = gcnRef tgt src coef selfw x W1 b1 W2 b2 W3 b3 := by
  have hy : IsReal (layer1 tgt src coef selfw x W1 b1) :=
    ((IsReal.agg tgt src (hx.mm hW1) hc hs).addBias hb1.rowVec).relu
  unfold gcnKer gcnRef
  rw [mm_agg tgt src coef selfw _ W2 hy hW2 hc hs]

end

end Cert.Gcn

end
-- ==== Proof.Layers.lean ====
import proofs.«152042_j21002390077477_2_alg».proof.KernelIdeal
import proofs.«152042_j21002390077477_2_alg».proof.ReferenceIdeal
import proofs.«152042_j21002390077477_2_alg».proof.Proof.Spec
import Idealize.ShloMosaic.PureOps.Ideal

/-!
# The host side of one layer, in both programs, as named terms

Both programs compute from the edge list `ei : [2, E]` (row 0 the sources, row 1 the targets, `E = 1600000` edges over
`N = 100000` nodes) the in-degree of every node plus one, its inverse square root `dinv`, the edge weight
`coef e = dinv (source e) · dinv (target e)` and the self-loop weight `dinv r · dinv r`. A negative node number
wraps round (`v + N`) where the program indexes with it (the degree count and the reads of `dinv` and of the
feature rows); the accumulation of the weighted rows uses the target as it stands.

The reference aggregates over the `E` edges and adds the self-loop term separately (`aggR64`, `aggR128`); the
kernel appends the `N` self-loops `(r, r)` with weight `dinv r · dinv r` to the edge list and aggregates over
`E + N` edges (`aggK`). The terms below are the programs' own operations, named.
-/

noncomputable section

namespace Cert.Gcn

open Idealize.ShloMosaic

/-! ## The kernel program's terms -/

section Kernel
open Cert.KernelIdeal
variable [Cert.KernelIdeal.Facts]
open Cert.KernelIdeal.Facts₀ Cert.KernelIdeal.Facts

/-- The sources: row 0 of the edge list. -/
def srcK (ei : IVec S2x1600000 32) : IVec S1600000 32 :=
  shapeCast _ (extractStridedSlice S1x1600000 ![0, 0] ei slices_S2x1600000_S1x1600000_0_0) shapeCasts_S1x1600000_S1600000
/-- The targets: row 1 of the edge list. -/
def dstK (ei : IVec S2x1600000 32) : IVec S1600000 32 :=
  shapeCast _ (extractStridedSlice S1x1600000 ![1, 0] ei slices_S2x1600000_S1x1600000_1_0) shapeCasts_S1x1600000_S1600000
/-- A negative node number wraps round: `v < 0 ? v + N : v`, entry by entry. -/
def wrapK (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v
/-- A vector of `E` integers as a column `[E, 1]`. -/
def colK (v : IVec S1600000 32) : IVec S1600000x1 32 :=
  broadcastInDim S1600000x1 ![0] bcast_S1600000_S1600000x1_0 v
/-- The in-degree of every node, plus one. -/
def degK (ei : IVec S2x1600000 32) : FVec Ideal S100000 .f32 :=
  addf (Host.scatterAdd (F := Ideal) scatter_S100000_S1600000x1_S1600000_n_0_0_1
      (broadcastInDim S100000 ![] bcast_S_S100000 (constant (F := Ideal) S_ .f32 0x00000000#32))
      (colK (wrapK (dstK ei)))
      (broadcastInDim S1600000 ![] bcast_S_S1600000 (constant (F := Ideal) S_ .f32 0x3F800000#32)))
    (broadcastInDim S100000 ![] bcast_S_S100000 (constant (F := Ideal) S_ .f32 0x3F800000#32))
/-- Its inverse square root. -/
def dinvK (ei : IVec S2x1600000 32) : FVec Ideal S100000 .f32 :=
  Host.rsqrt (F := Ideal) (φ := .f32) (degK ei)
/-- The weight of edge `e`: `dinv (source e) · dinv (target e)`. -/
def coefK (ei : IVec S2x1600000 32) : FVec Ideal S1600000 .f32 :=
  mulf (Host.gather gather_S100000_S1600000x1_S1600000_n_0_n_n_0_1_1 (dinvK ei) (colK (wrapK (srcK ei))))
    (Host.gather gather_S100000_S1600000x1_S1600000_n_0_n_n_0_1_1 (dinvK ei) (colK (wrapK (dstK ei))))
/-- The self-loop weight of node `r`: `dinv r · dinv r`. -/
def selfK (ei : IVec S2x1600000 32) : FVec Ideal S100000 .f32 :=
  mulf (dinvK ei) (dinvK ei)
/-- The node numbers `0, 1, …, N - 1`. -/
def iotaK : IVec S100000 32 := iotaInDim S100000 32 0
/-- `E` entries followed by `N` entries. -/
def catI (a : IVec S1600000 32) (b : IVec S100000 32) : IVec S1700000 32 :=
  concatenate S1700000 0 [⟨S1600000, a⟩, ⟨S100000, b⟩] concatenates_S1600000_S100000_S1700000_d0
/-- The same for extended reals. -/
def catF (a : FVec Ideal S1600000 .f32) (b : FVec Ideal S100000 .f32) : FVec Ideal S1700000 .f32 :=
  concatenate S1700000 0 [⟨S1600000, a⟩, ⟨S100000, b⟩] concatenates_S1600000_S100000_S1700000_d0
/-- Wrapping over the augmented list. -/
def wrapAugK (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v
/-- The kernel's aggregation of `H : [N, 64]`: over the edges followed by the self-loops. -/
def aggK (ei : IVec S2x1600000 32) (H : FVec Ideal S100000x64 .f32) :
    FVec Ideal S100000x64 .f32 :=
  Host.scatterAdd (F := Ideal) scatter_S100000x64_S1700000x1_S1700000x64_1_0_0_1
    (broadcastInDim S100000x64 ![] bcast_S_S100000x64 (constant (F := Ideal) S_ .f32 0x00000000#32))
    (broadcastInDim S1700000x1 ![0] bcast_S1700000_S1700000x1_0 (catI (dstK ei) iotaK))
    (mulf
      (extf .f32 (Host.gather gather_S100000x64_S1700000x1_S1700000x64_1_0_n_n_0_1_164 (truncf .bf16 H bitsLt_bf16_f32)
        (broadcastInDim S1700000x1 ![0] bcast_S1700000_S1700000x1_0 (wrapAugK (catI (srcK ei) iotaK)))) bitsLt_bf16_f32)
      (broadcastInDim S1700000x64 ![0, 1] bcast_S1700000x1_S1700000x64_0_1
        (broadcastInDim S1700000x1 ![0] bcast_S1700000_S1700000x1_0 (catF (coefK ei) (selfK ei)))))

/-! ### The same data read at indices -/

/-- The target of edge `e`, as a signed integer. -/
def tgt (ei : IVec S2x1600000 32) (e : Fin 1600000) : Int := (dstK ei (ValueIdx.ix1 e)).toInt
/-- The node whose row edge `e` reads: its source, wrapped, then clamped into `[0, N - 1]`. -/
def srcN (ei : IVec S2x1600000 32) (e : Fin 1600000) : Fin 100000 :=
  ⟨min (wrapK (srcK ei) (ValueIdx.ix1 e)).toInt.toNat (100000 - 1), by omega⟩
/-- The weight of edge `e`. -/
def coefV (ei : IVec S2x1600000 32) (e : Fin 1600000) : EReal := coefK ei (ValueIdx.ix1 e)
/-- The self-loop weight of node `r`. -/
def selfV (ei : IVec S2x1600000 32) (r : Fin 100000) : EReal := selfK ei (ValueIdx.ix1 r)

end Kernel

/-! ## The reference program's terms -/

section Reference
open Cert.ReferenceIdeal
variable [Cert.ReferenceIdeal.Facts]
open Cert.ReferenceIdeal.Facts₀ Cert.ReferenceIdeal.Facts

def srcR (ei : IVec S2x1600000 32) : IVec S1600000 32 :=
  shapeCast _ (extractStridedSlice S1x1600000 ![0, 0] ei slices_S2x1600000_S1x1600000_0_0) shapeCasts_S1x1600000_S1600000
def dstR (ei : IVec S2x1600000 32) : IVec S1600000 32 :=
  shapeCast _ (extractStridedSlice S1x1600000 ![1, 0] ei slices_S2x1600000_S1x1600000_1_0) shapeCasts_S1x1600000_S1600000
def wrapR (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v
def colR (v : IVec S1600000 32) : IVec S1600000x1 32 :=
  broadcastInDim S1600000x1 ![0] bcast_S1600000_S1600000x1_0 v
def degR (ei : IVec S2x1600000 32) : FVec Ideal S100000 .f32 :=
  addf (Host.scatterAdd (F := Ideal) scatter_S100000_S1600000x1_S1600000_n_0_0_1
      (broadcastInDim S100000 ![] bcast_S_S100000 (constant (F := Ideal) S_ .f32 0x00000000#32))
      (colR (wrapR (dstR ei)))
      (broadcastInDim S1600000 ![] bcast_S_S1600000 (constant (F := Ideal) S_ .f32 0x3F800000#32)))
    (broadcastInDim S100000 ![] bcast_S_S100000 (constant (F := Ideal) S_ .f32 0x3F800000#32))
def dinvR (ei : IVec S2x1600000 32) : FVec Ideal S100000 .f32 :=
  Host.rsqrt (F := Ideal) (φ := .f32) (degR ei)
def coefR (ei : IVec S2x1600000 32) : FVec Ideal S1600000 .f32 :=
  mulf (Host.gather gather_S100000_S1600000x1_S1600000_n_0_n_n_0_1_1 (dinvR ei) (colR (wrapR (srcR ei))))
    (Host.gather gather_S100000_S1600000x1_S1600000_n_0_n_n_0_1_1 (dinvR ei) (colR (wrapR (dstR ei))))
def selfR (ei : IVec S2x1600000 32) : FVec Ideal S100000 .f32 :=
  mulf (dinvR ei) (dinvR ei)
/-- The reference's aggregation of `H : [N, 64]`: over the edges, plus the self-loop term. -/
def aggR64 (ei : IVec S2x1600000 32) (H : FVec Ideal S100000x64 .f32) :
    FVec Ideal S100000x64 .f32 :=
  addf
    (Host.scatterAdd (F := Ideal) scatter_S100000x64_S1600000x1_S1600000x64_1_0_0_1
      (broadcastInDim S100000x64 ![] bcast_S_S100000x64 (constant (F := Ideal) S_ .f32 0x00000000#32))
      (colR (dstR ei))
      (mulf (Host.gather gather_S100000x64_S1600000x1_S1600000x64_1_0_n_n_0_1_164 H (colR (wrapR (srcR ei))))
        (broadcastInDim S1600000x64 ![0, 1] bcast_S1600000x1_S1600000x64_0_1
          (broadcastInDim S1600000x1 ![0] bcast_S1600000_S1600000x1_0 (coefR ei)))))
    (mulf H (broadcastInDim S100000x64 ![0, 1] bcast_S100000x1_S100000x64_0_1
      (broadcastInDim S100000x1 ![0] bcast_S100000_S100000x1_0 (selfR ei))))
/-- The same over `H : [N, 128]`. -/
def aggR128 (ei : IVec S2x1600000 32) (H : FVec Ideal S100000x128 .f32) :
    FVec Ideal S100000x128 .f32 :=
  addf
    (Host.scatterAdd (F := Ideal) scatter_S100000x128_S1600000x1_S1600000x128_1_0_0_1
      (broadcastInDim S100000x128 ![] bcast_S_S100000x128 (constant (F := Ideal) S_ .f32 0x00000000#32))
      (colR (dstR ei))
      (mulf (Host.gather gather_S100000x128_S1600000x1_S1600000x128_1_0_n_n_0_1_1128 H (colR (wrapR (srcR ei))))
        (broadcastInDim S1600000x128 ![0, 1] bcast_S1600000x1_S1600000x128_0_1
          (broadcastInDim S1600000x1 ![0] bcast_S1600000_S1600000x1_0 (coefR ei)))))
    (mulf H (broadcastInDim S100000x128 ![0, 1] bcast_S100000x1_S100000x128_0_1
      (broadcastInDim S100000x1 ![0] bcast_S100000_S100000x1_0 (selfR ei))))

end Reference

end Cert.Gcn

end
-- ==== Proof.FiniteInputs.lean ====
import proofs.«152042_j21002390077477_2_alg».proof.Pre_finite_inputs
import proofs.«152042_j21002390077477_2_alg».proof.Proof.Spec
import Idealize.ShloMosaic.Lib.ReduceAll
import Idealize.ShloMosaic.PureOps.Ideal

/-!
# The precondition on the inputs, decoded

The precondition is, for each of the seven real-valued inputs (the node features, the three weight matrices, the
three bias vectors), the statement "for every entry `a`, `|a| < +∞`", and the conjunction of the seven. On the
extended reals `|a|` is `max a (-a)`, which is `+∞` exactly when `a` is `+∞` or `-∞`; so the precondition says that
every entry of every one of the seven arrays is a real number. This is what the laws of the proof that move a factor
across a sum need.
-/

noncomputable section
namespace Cert.Gcn
open Idealize.ShloMosaic Idealize.ShloMosaic.ValueIdx

/-- The word `0x7F800000` is the single-precision pattern of plus infinity. -/
theorem inf_word : Ideal.ofBits .f32 0x7F800000#32 = (⊤ : EReal) := by
  simp [Ideal.ofBits, Ideal.ieee]

/-- An extended real whose absolute value `max x (-x)` is strictly below plus infinity is a real number: plus
    infinity is its own absolute value, and minus infinity's is plus infinity. -/
theorem real_of_abs_lt_inf (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [inf_word] at h
  have h' : max x (-x) < (⊤ : EReal) := by
    by_contra hn
    have e : FloatOps.cmpf (F := Ideal) (φ := .f32) .olt (FloatOps.hostAbsf (F := Ideal) (φ := .f32) x) (⊤ : EReal) = 0#1 := by
      show BitVec.ofBool (decide (max x (-x) < ⊤)) = 0#1
      rw [decide_eq_false hn]; rfl
    rw [e] at h; exact absurd h (by decide)
  induction x using EReal.rec with
  | bot => simp at h'
  | coe r => exact ⟨r, rfl⟩
  | top => simp at h'

/-- One conjunct of the precondition, read back: if "every entry's absolute value is below plus infinity", taken as
    the conjunction over all entries of the array, holds, then every entry of the array is a real number. -/
theorem isReal_of_all {s : Shape} {axes : List (Fin s.rank)} (a : FVec Ideal s .f32)
    (hb : Pre_finite_inputs.S_.BroadcastsInDim s (![] : Fin 0 → Fin s.rank)) (hr : s.ReducesTo axes Pre_finite_inputs.S_)
    (hu : 0 < Pre_finite_inputs.S_.numel) (init : IVec Pre_finite_inputs.S_ 1)
    (e : Host.reduce IntOp.andi (cmpf .olt (Host.absf a) (broadcastInDim s ![] hb (constant (F := Ideal) Pre_finite_inputs.S_ .f32 0x7F800000#32))) init hr hu ix0 = 1#1) :
    IsReal a := by
  haveI : Subsingleton Pre_finite_inputs.S_.Idx := ⟨fun a b => funext fun d => d.elim0⟩
  intro i
  exact real_of_abs_lt_inf (a i) (Host.reduce_andi_all _ init hr hu ix0 e i)

/-- The precondition, decoded: it is the conjunction, over the seven real-valued inputs, of "every entry's absolute
    value is below plus infinity"; when it holds, every entry of each of the seven is a real number. (The edge list is
    an integer array and the precondition says nothing of it.) -/
theorem isReal_of_pre [Cert.Pre_finite_inputs.Facts]
    (x : (⟨Cert.Pre_finite_inputs.S100000x128, .f32⟩ : BufTy).Contents (Elt Ideal)) (ei : (⟨Cert.Pre_finite_inputs.S2x1600000, .i32⟩ : BufTy).Contents (Elt Ideal))
    (W1 : (⟨Cert.Pre_finite_inputs.S128x64, .f32⟩ : BufTy).Contents (Elt Ideal)) (b1 : (⟨Cert.Pre_finite_inputs.S64, .f32⟩ : BufTy).Contents (Elt Ideal))
    (W2 : (⟨Cert.Pre_finite_inputs.S64x128, .f32⟩ : BufTy).Contents (Elt Ideal)) (b2 : (⟨Cert.Pre_finite_inputs.S128, .f32⟩ : BufTy).Contents (Elt Ideal))
    (W3 : (⟨Cert.Pre_finite_inputs.S128x64, .f32⟩ : BufTy).Contents (Elt Ideal)) (b3 : (⟨Cert.Pre_finite_inputs.S64, .f32⟩ : BufTy).Contents (Elt Ideal))
    (h : Cert.Pre_finite_inputs.fn (F := Ideal) x ei W1 b1 W2 b2 W3 b3 = (fun _ => 1#1)) :
    IsReal x ∧ IsReal W1 ∧ IsReal b1 ∧ IsReal W2 ∧ IsReal b2 ∧ IsReal W3 ∧ IsReal b3 := by
  have h0 : Cert.Pre_finite_inputs.fn (F := Ideal) x ei W1 b1 W2 b2 W3 b3 ix0 = 1#1 := congrFun h ix0
  dsimp only [Cert.Pre_finite_inputs.fn, Cert.Pre_finite_inputs.fn_part1] at h0
  obtain ⟨h1, e7⟩ := IntOp.andi_eq_one.1 (show IntOp.andi _ _ = 1#1 from h0)
  obtain ⟨h2, e6⟩ := IntOp.andi_eq_one.1 (show IntOp.andi _ _ = 1#1 from h1)
  obtain ⟨h3, e5⟩ := IntOp.andi_eq_one.1 (show IntOp.andi _ _ = 1#1 from h2)
  obtain ⟨h4, e4⟩ := IntOp.andi_eq_one.1 (show IntOp.andi _ _ = 1#1 from h3)
  obtain ⟨h5, e3⟩ := IntOp.andi_eq_one.1 (show IntOp.andi _ _ = 1#1 from h4)
  obtain ⟨e1, e2⟩ := IntOp.andi_eq_one.1 (show IntOp.andi _ _ = 1#1 from h5)
  exact ⟨isReal_of_all x _ _ _ _ e1, isReal_of_all W1 _ _ _ _ e2, isReal_of_all b1 _ _ _ _ e3, isReal_of_all W2 _ _ _ _ e4,
    isReal_of_all b2 _ _ _ _ e5, isReal_of_all W3 _ _ _ _ e6, isReal_of_all b3 _ _ _ _ e7⟩

end Cert.Gcn

end
-- ==== Proof.KernelHost.lean ====
import proofs.«152042_j21002390077477_2_alg».proof.Proof.Gen.KernelIdeal.Frame
import proofs.«152042_j21002390077477_2_alg».proof.Proof.Layers
import Idealize.ShloMosaic.Lib.StableHlo.Run

/-!
# What the kernel program's host stretches compute

Between its five pallas_calls the kernel program runs four stretches of host operations. The first computes, from the
edge list alone, the augmented sources, targets and weights (the `E` edges followed by the `N` self-loops). Each of
the other three takes the features the previous call left, aggregates them over the augmented edge list, and reshapes
the next bias vector `[C]` to a row `[1, C]`. Here each written buffer is read as a function of the contents the
stretch starts from.
-/

set_option maxRecDepth 16384

noncomputable section

namespace Cert.KernelIdeal.HostValue

open Idealize.ShloMosaic Idealize.ShloMosaic.TcCoe Idealize.SL.Sem Idealize.ShloMosaic.StableHlo
open Cert.KernelIdeal Cert.Gcn
open Cert.KernelIdeal.Facts₀ Cert.KernelIdeal.Facts

/-- The aggregation over the augmented edge list, as a function of the features and of the augmented sources, targets
    and weights. -/
def aggTerm (H : FVec Ideal S100000x64 .f32) (s d : IVec S1700000 32) (cf : FVec Ideal S1700000 .f32) :
    FVec Ideal S100000x64 .f32 :=
  Host.scatterAdd (F := Ideal) scatter_S100000x64_S1700000x1_S1700000x64_1_0_0_1
    (broadcastInDim S100000x64 ![] bcast_S_S100000x64 (constant (F := Ideal) S_ .f32 0x00000000#32))
    (broadcastInDim S1700000x1 ![0] bcast_S1700000_S1700000x1_0 d)
    (mulf
      (extf .f32 (Host.gather gather_S100000x64_S1700000x1_S1700000x64_1_0_n_n_0_1_164 (truncf .bf16 H bitsLt_bf16_f32)
        (broadcastInDim S1700000x1 ![0] bcast_S1700000_S1700000x1_0 (wrapAugK s))) bitsLt_bf16_f32)
      (broadcastInDim S1700000x64 ![0, 1] bcast_S1700000x1_S1700000x64_0_1
        (broadcastInDim S1700000x1 ![0] bcast_S1700000_S1700000x1_0 cf)))

/-- The kernel's aggregation is that function at the augmented lists of the edge list. -/
theorem aggK_eq_aggTerm (ei : IVec S2x1600000 32) (H : FVec Ideal S100000x64 .f32) :
    aggK ei H = aggTerm H (catI (srcK ei) iotaK) (catI (dstK ei) iotaK) (catF (coefK ei) (selfK ei)) := rfl

/-- A buffer that no operation of a stretch writes holds after the stretch what it held before: the stretch's
    operations are listed and each one's result buffer is another one. -/
macro "host_unwritten" ops:ident : tactic => `(tactic| exact StableHlo.after_of_forall_not_mem _ _ (List.forall_iff_forall_mem.mp (by
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide))))

variable (W : Valuation τ sig (Elt Ideal))

set_option maxHeartbeats 4000000 in
/-- After the second stretch the aggregate of the first call's output. -/
theorem host1_v51 : StableHlo.after (Gen.hostOps1 (F := Ideal)) W (Proc.devRef .tc main_v51)
    = aggTerm (W (Proc.devRef .tc main_v36)) (W (Proc.devRef .tc main_v33)) (W (Proc.devRef .tc main_v34)) (W (Proc.devRef .tc main_v35)) := by
  after_results_simp <;> rfl

set_option maxHeartbeats 4000000 in
/-- … and the first bias as a row. -/
theorem host1_v52 : StableHlo.after (Gen.hostOps1 (F := Ideal)) W (Proc.devRef .tc main_v52)
    = shapeCast S1x64 (W (Proc.devRef .tc main_arg3)) shapeCasts_S64_S1x64 := by
  after_results_simp <;> rfl

set_option maxHeartbeats 4000000 in
/-- After the third stretch the aggregate of the second call's output … -/
theorem host2_v68 : StableHlo.after (Gen.hostOps2 (F := Ideal)) W (Proc.devRef .tc main_v68)
    = aggTerm (W (Proc.devRef .tc main_v53)) (W (Proc.devRef .tc main_v33)) (W (Proc.devRef .tc main_v34)) (W (Proc.devRef .tc main_v35)) := by
  after_results_simp <;> rfl

set_option maxHeartbeats 4000000 in
/-- … and the second bias as a row. -/
theorem host2_v69 : StableHlo.after (Gen.hostOps2 (F := Ideal)) W (Proc.devRef .tc main_v69)
    = shapeCast S1x128 (W (Proc.devRef .tc main_arg5)) shapeCasts_S128_S1x128 := by
  after_results_simp <;> rfl

set_option maxHeartbeats 4000000 in
/-- After the last stretch the aggregate of the fourth call's output … -/
theorem host4_v86 : StableHlo.after (Gen.hostOps4 (F := Ideal)) W (Proc.devRef .tc main_v86)
    = aggTerm (W (Proc.devRef .tc main_v71)) (W (Proc.devRef .tc main_v33)) (W (Proc.devRef .tc main_v34)) (W (Proc.devRef .tc main_v35)) := by
  after_results_simp <;> rfl

set_option maxHeartbeats 4000000 in
/-- … and the third bias as a row. -/
theorem host4_v87 : StableHlo.after (Gen.hostOps4 (F := Ideal)) W (Proc.devRef .tc main_v87)
    = shapeCast S1x64 (W (Proc.devRef .tc main_arg7)) shapeCasts_S64_S1x64 := by
  after_results_simp <;> rfl

/-! ## Buffers a stretch leaves alone -/

open Cert.KernelIdeal.Gen in
theorem host0_arg0 : StableHlo.after (Gen.hostOps0 (F := Ideal)) W (Proc.devRef .tc main_arg0) = W (Proc.devRef .tc main_arg0) := by host_unwritten hostOps0
open Cert.KernelIdeal.Gen in
theorem host0_arg2 : StableHlo.after (Gen.hostOps0 (F := Ideal)) W (Proc.devRef .tc main_arg2) = W (Proc.devRef .tc main_arg2) := by host_unwritten hostOps0
open Cert.KernelIdeal.Gen in
theorem host0_arg3 : StableHlo.after (Gen.hostOps0 (F := Ideal)) W (Proc.devRef .tc main_arg3) = W (Proc.devRef .tc main_arg3) := by host_unwritten hostOps0
open Cert.KernelIdeal.Gen in
theorem host0_arg4 : StableHlo.after (Gen.hostOps0 (F := Ideal)) W (Proc.devRef .tc main_arg4) = W (Proc.devRef .tc main_arg4) := by host_unwritten hostOps0
open Cert.KernelIdeal.Gen in
theorem host0_arg5 : StableHlo.after (Gen.hostOps0 (F := Ideal)) W (Proc.devRef .tc main_arg5) = W (Proc.devRef .tc main_arg5) := by host_unwritten hostOps0
open Cert.KernelIdeal.Gen in
theorem host0_arg6 : StableHlo.after (Gen.hostOps0 (F := Ideal)) W (Proc.devRef .tc main_arg6) = W (Proc.devRef .tc main_arg6) := by host_unwritten hostOps0
open Cert.KernelIdeal.Gen in
theorem host0_arg7 : StableHlo.after (Gen.hostOps0 (F := Ideal)) W (Proc.devRef .tc main_arg7) = W (Proc.devRef .tc main_arg7) := by host_unwritten hostOps0

open Cert.KernelIdeal.Gen in
theorem host1_v33 : StableHlo.after (Gen.hostOps1 (F := Ideal)) W (Proc.devRef .tc main_v33) = W (Proc.devRef .tc main_v33) := by host_unwritten hostOps1
open Cert.KernelIdeal.Gen in
theorem host1_v34 : StableHlo.after (Gen.hostOps1 (F := Ideal)) W (Proc.devRef .tc main_v34) = W (Proc.devRef .tc main_v34) := by host_unwritten hostOps1
open Cert.KernelIdeal.Gen in
theorem host1_v35 : StableHlo.after (Gen.hostOps1 (F := Ideal)) W (Proc.devRef .tc main_v35) = W (Proc.devRef .tc main_v35) := by host_unwritten hostOps1
open Cert.KernelIdeal.Gen in
theorem host1_arg4 : StableHlo.after (Gen.hostOps1 (F := Ideal)) W (Proc.devRef .tc main_arg4) = W (Proc.devRef .tc main_arg4) := by host_unwritten hostOps1
open Cert.KernelIdeal.Gen in
theorem host1_arg5 : StableHlo.after (Gen.hostOps1 (F := Ideal)) W (Proc.devRef .tc main_arg5) = W (Proc.devRef .tc main_arg5) := by host_unwritten hostOps1
open Cert.KernelIdeal.Gen in
theorem host1_arg6 : StableHlo.after (Gen.hostOps1 (F := Ideal)) W (Proc.devRef .tc main_arg6) = W (Proc.devRef .tc main_arg6) := by host_unwritten hostOps1
open Cert.KernelIdeal.Gen in
theorem host1_arg7 : StableHlo.after (Gen.hostOps1 (F := Ideal)) W (Proc.devRef .tc main_arg7) = W (Proc.devRef .tc main_arg7) := by host_unwritten hostOps1

open Cert.KernelIdeal.Gen in
theorem host2_v33 : StableHlo.after (Gen.hostOps2 (F := Ideal)) W (Proc.devRef .tc main_v33) = W (Proc.devRef .tc main_v33) := by host_unwritten hostOps2
open Cert.KernelIdeal.Gen in
theorem host2_v34 : StableHlo.after (Gen.hostOps2 (F := Ideal)) W (Proc.devRef .tc main_v34) = W (Proc.devRef .tc main_v34) := by host_unwritten hostOps2
open Cert.KernelIdeal.Gen in
theorem host2_v35 : StableHlo.after (Gen.hostOps2 (F := Ideal)) W (Proc.devRef .tc main_v35) = W (Proc.devRef .tc main_v35) := by host_unwritten hostOps2
open Cert.KernelIdeal.Gen in
theorem host2_arg4 : StableHlo.after (Gen.hostOps2 (F := Ideal)) W (Proc.devRef .tc main_arg4) = W (Proc.devRef .tc main_arg4) := by host_unwritten hostOps2
open Cert.KernelIdeal.Gen in
theorem host2_arg6 : StableHlo.after (Gen.hostOps2 (F := Ideal)) W (Proc.devRef .tc main_arg6) = W (Proc.devRef .tc main_arg6) := by host_unwritten hostOps2
open Cert.KernelIdeal.Gen in
theorem host2_arg7 : StableHlo.after (Gen.hostOps2 (F := Ideal)) W (Proc.devRef .tc main_arg7) = W (Proc.devRef .tc main_arg7) := by host_unwritten hostOps2

end Cert.KernelIdeal.HostValue

end
-- ==== Proof.KernelHost0.lean ====
import proofs.«152042_j21002390077477_2_alg».proof.Proof.Gen.KernelIdeal.Frame
import proofs.«152042_j21002390077477_2_alg».proof.Proof.Layers
import Idealize.ShloMosaic.Lib.StableHlo.Run

/-!
# What the kernel program's first host stretch computes

From the edge list alone: the sources followed by the node numbers, the targets followed by the node numbers, and the
edge weights followed by the self-loop weights — the augmented lists the three aggregations read.
-/

set_option maxRecDepth 16384

noncomputable section

namespace Cert.KernelIdeal.HostValue

open Idealize.ShloMosaic Idealize.ShloMosaic.TcCoe Idealize.SL.Sem Idealize.ShloMosaic.StableHlo
open Cert.KernelIdeal Cert.Gcn
open Cert.KernelIdeal.Facts₀ Cert.KernelIdeal.Facts

variable (W : Valuation τ sig (Elt Ideal))

set_option maxHeartbeats 8000000 in
/-- The sources followed by the node numbers. -/
theorem host0_v33 : StableHlo.after (Gen.hostOps0 (F := Ideal)) W (Proc.devRef .tc main_v33)
    = catI (srcK (W (Proc.devRef .tc main_arg1))) iotaK := by
  after_results_simp <;> rfl

set_option maxHeartbeats 8000000 in
/-- The targets followed by the node numbers. -/
theorem host0_v34 : StableHlo.after (Gen.hostOps0 (F := Ideal)) W (Proc.devRef .tc main_v34)
    = catI (dstK (W (Proc.devRef .tc main_arg1))) iotaK := by
  after_results_simp <;> rfl

/-! The weights are read in two steps. Each of the two lists is computed by a chain of entrywise operations, gathers and
one scatter-add over the edge list, in which the inverse square root of the degree occurs four times; each is first read
off on its own, and the pair is then put end to end. -/

set_option maxHeartbeats 8000000 in
/-- The edge weights: the inverse square root of the degree at the source times the one at the target. -/
theorem host0_v30 : StableHlo.after (Gen.hostOps0 (F := Ideal)) W (Proc.devRef .tc main_v30)
    = coefK (W (Proc.devRef .tc main_arg1)) := by
  after_results_simp <;> rfl

set_option maxHeartbeats 8000000 in
/-- The self-loop weights: the inverse square root of the degree, squared. -/
theorem host0_v31 : StableHlo.after (Gen.hostOps0 (F := Ideal)) W (Proc.devRef .tc main_v31)
    = selfK (W (Proc.devRef .tc main_arg1)) := by
  after_results_simp <;> rfl

set_option maxHeartbeats 8000000 in
/-- The edge weights followed by the self-loop weights: the two lists above, end to end. -/
theorem host0_v35 : StableHlo.after (Gen.hostOps0 (F := Ideal)) W (Proc.devRef .tc main_v35)
    = catF (coefK (W (Proc.devRef .tc main_arg1))) (selfK (W (Proc.devRef .tc main_arg1))) := by
  have h30 := host0_v30 W
  have h31 := host0_v31 W
  simp only [after_cons, after_nil] at h30 h31 ⊢
  rw [binary_result_ne (h := by decide)] at h30 h31
  rw [binary_result, h30, h31]
  rfl

end Cert.KernelIdeal.HostValue

end
-- ==== Proof.KernelWalk.lean ====
import proofs.«152042_j21002390077477_2_alg».proof.Proof.KernelHost
import proofs.«152042_j21002390077477_2_alg».proof.Proof.KernelHost0

/-!
# Carrying a buffer through the kernel program's run

The kernel program's run is a fold over nine segments (four host stretches and five pallas_calls); the contents at the
boundaries are the generated `W0 … W9`. A pallas_call changes only its output array, a host stretch only the buffers
its operations write. So an argument array is still the launch memory's wherever it is read, and the augmented sources,
targets and weights computed by the first stretch are unchanged when the later stretches read them.
-/

set_option maxRecDepth 16384

noncomputable section

namespace Cert.KernelIdeal.Walk

open Idealize.ShloMosaic Idealize.ShloMosaic.TcCoe Idealize.SL.Sem Idealize.ShloMosaic.StableHlo
open Cert.KernelIdeal Cert.KernelIdeal.Gen Cert.Gcn Cert.KernelIdeal.HostValue

variable (m : (ℓ : Loc nD τ sig) → Buf (Elt Ideal) ℓ) (ρ : Dev nD → PrngReg) (c : Dev nD)

/-! ## The arguments, where they are read -/

/-- The features `x` as the first call finds them. -/
theorem W1_arg0 : W1 m ρ c (Proc.devRef .tc main_arg0) = m ((c : Thread nD τ).loc main_arg0) := host0_arg0 (W0 m ρ c)
/-- The first layer's matrix as the first call finds it. -/
theorem W1_arg2 : W1 m ρ c (Proc.devRef .tc main_arg2) = m ((c : Thread nD τ).loc main_arg2) := host0_arg2 (W0 m ρ c)
/-- The first bias when the second stretch reshapes it. -/
theorem W2_arg3 : W2 m ρ c (Proc.devRef .tc main_arg3) = m ((c : Thread nD τ).loc main_arg3) :=
  (W2_of_ne m ρ c main_arg3 (by decide)).trans (host0_arg3 (W0 m ρ c))
/-- The second bias when the third stretch reshapes it. -/
theorem W4_arg5 : W4 m ρ c (Proc.devRef .tc main_arg5) = m ((c : Thread nD τ).loc main_arg5) :=
  (W4_of_ne m ρ c main_arg5 (by decide)).trans ((host1_arg5 (W2 m ρ c)).trans
    ((W2_of_ne m ρ c main_arg5 (by decide)).trans (host0_arg5 (W0 m ρ c))))
/-- The second layer's matrix as the third call finds it. -/
theorem W5_arg4 : W5 m ρ c (Proc.devRef .tc main_arg4) = m ((c : Thread nD τ).loc main_arg4) :=
  (host2_arg4 (W4 m ρ c)).trans ((W4_of_ne m ρ c main_arg4 (by decide)).trans ((host1_arg4 (W2 m ρ c)).trans
    ((W2_of_ne m ρ c main_arg4 (by decide)).trans (host0_arg4 (W0 m ρ c)))))
/-- The third layer's matrix as the fourth call finds it. -/
theorem W6_arg6 : W6 m ρ c (Proc.devRef .tc main_arg6) = m ((c : Thread nD τ).loc main_arg6) :=
  (W6_of_ne m ρ c main_arg6 (by decide)).trans ((host2_arg6 (W4 m ρ c)).trans ((W4_of_ne m ρ c main_arg6 (by decide)).trans
    ((host1_arg6 (W2 m ρ c)).trans ((W2_of_ne m ρ c main_arg6 (by decide)).trans (host0_arg6 (W0 m ρ c))))))
/-- The third bias when the last stretch reshapes it. -/
theorem W7_arg7 : W7 m ρ c (Proc.devRef .tc main_arg7) = m ((c : Thread nD τ).loc main_arg7) :=
  (W7_of_ne m ρ c main_arg7 (by decide)).trans ((W6_of_ne m ρ c main_arg7 (by decide)).trans ((host2_arg7 (W4 m ρ c)).trans
    ((W4_of_ne m ρ c main_arg7 (by decide)).trans ((host1_arg7 (W2 m ρ c)).trans
      ((W2_of_ne m ρ c main_arg7 (by decide)).trans (host0_arg7 (W0 m ρ c)))))))

/-! ## The augmented sources, targets and weights, where the three aggregations read them -/

/-- The augmented sources after the first call. -/
theorem W2_v33 : W2 m ρ c (Proc.devRef .tc main_v33) = catI (srcK (m ((c : Thread nD τ).loc main_arg1))) iotaK :=
  (W2_of_ne m ρ c main_v33 (by decide)).trans (host0_v33 (W0 m ρ c))
theorem W2_v34 : W2 m ρ c (Proc.devRef .tc main_v34) = catI (dstK (m ((c : Thread nD τ).loc main_arg1))) iotaK :=
  (W2_of_ne m ρ c main_v34 (by decide)).trans (host0_v34 (W0 m ρ c))
theorem W2_v35 : W2 m ρ c (Proc.devRef .tc main_v35)
    = catF (coefK (m ((c : Thread nD τ).loc main_arg1))) (selfK (m ((c : Thread nD τ).loc main_arg1))) :=
  (W2_of_ne m ρ c main_v35 (by decide)).trans (host0_v35 (W0 m ρ c))
/-- … after the second call. -/
theorem W4_v33 : W4 m ρ c (Proc.devRef .tc main_v33) = catI (srcK (m ((c : Thread nD τ).loc main_arg1))) iotaK :=
  (W4_of_ne m ρ c main_v33 (by decide)).trans ((host1_v33 (W2 m ρ c)).trans (W2_v33 m ρ c))
theorem W4_v34 : W4 m ρ c (Proc.devRef .tc main_v34) = catI (dstK (m ((c : Thread nD τ).loc main_arg1))) iotaK :=
  (W4_of_ne m ρ c main_v34 (by decide)).trans ((host1_v34 (W2 m ρ c)).trans (W2_v34 m ρ c))
theorem W4_v35 : W4 m ρ c (Proc.devRef .tc main_v35)
    = catF (coefK (m ((c : Thread nD τ).loc main_arg1))) (selfK (m ((c : Thread nD τ).loc main_arg1))) :=
  (W4_of_ne m ρ c main_v35 (by decide)).trans ((host1_v35 (W2 m ρ c)).trans (W2_v35 m ρ c))
/-- … after the fourth call. -/
theorem W7_v33 : W7 m ρ c (Proc.devRef .tc main_v33) = catI (srcK (m ((c : Thread nD τ).loc main_arg1))) iotaK :=
  (W7_of_ne m ρ c main_v33 (by decide)).trans ((W6_of_ne m ρ c main_v33 (by decide)).trans
    ((host2_v33 (W4 m ρ c)).trans (W4_v33 m ρ c)))
theorem W7_v34 : W7 m ρ c (Proc.devRef .tc main_v34) = catI (dstK (m ((c : Thread nD τ).loc main_arg1))) iotaK :=
  (W7_of_ne m ρ c main_v34 (by decide)).trans ((W6_of_ne m ρ c main_v34 (by decide)).trans
    ((host2_v34 (W4 m ρ c)).trans (W4_v34 m ρ c)))
theorem W7_v35 : W7 m ρ c (Proc.devRef .tc main_v35)
    = catF (coefK (m ((c : Thread nD τ).loc main_arg1))) (selfK (m ((c : Thread nD τ).loc main_arg1))) :=
  (W7_of_ne m ρ c main_v35 (by decide)).trans ((W6_of_ne m ρ c main_v35 (by decide)).trans
    ((host2_v35 (W4 m ρ c)).trans (W4_v35 m ρ c)))

end Cert.KernelIdeal.Walk

end
-- ==== Proof.LibMatProduct.lean ====
import Idealize.ShloMosaic.Lib.ValueIdx
import Idealize.ShloMosaic.PureOps.Ideal.Laws

/-!
# The matrix product `[N, K] · [K, C]` on the host, read at an index

At the exact (extended-real) values a host `dot_general` that contracts axis 1 of its left operand with axis 0 of its
right operand, with no batch axes, is the textbook matrix product: element `(r, c)` of the result is
`∑ k, X[r, k] * W[k, c]`, a sum over the one contraction coordinate `k < K` in which no rounding and no order of
summation is left.
-/

open Idealize.ShloMosaic Idealize.ShloMosaic.ValueIdx

namespace Cert.Lib

/-- The dimension numbers of the matrix product `[N, K] · [K, C] → [N, C]`: the left operand's axis 1 contracts with the
    right operand's axis 0; the left operand's axis 0 and the right operand's axis 1 are the result's two axes, in that
    order; no batch axes. The conditions `wf` are decided once the extents are literals. -/
abbrev matDims (N K C : Nat)
    (wf : DotDims.WF ⟨2, ![N, K]⟩ ⟨2, ![K, C]⟩ ⟨2, ![N, C]⟩ [1] [0] [0] [1] [] []) :
    DotDims ⟨2, ![N, K]⟩ ⟨2, ![K, C]⟩ ⟨2, ![N, C]⟩ where
  lhsContracting := [1]
  rhsContracting := [0]
  lhsNonContracting := [0]
  rhsNonContracting := [1]
  lhsBatch := []
  rhsBatch := []
  wf := wf

section
variable {N K C : Nat} (wf : DotDims.WF ⟨2, ![N, K]⟩ ⟨2, ![K, C]⟩ ⟨2, ![N, C]⟩ [1] [0] [0] [1] [] [])

/-- The left operand is read at the result's row: its axis 0 is non-contracting, the first of the result's axes. -/
theorem matDims_lhsIdx_zero (i : (⟨2, ![N, C]⟩ : Shape).Idx) (q : (matDims N K C wf).contr.Idx) :
    ((matDims N K C wf).lhsIdx i q 0).val = (i 0).val := by
  unfold DotDims.lhsIdx
  rw [dif_neg (show ¬(0 : Fin 2) ∈ (matDims N K C wf).lhsBatch from List.not_mem_nil),
    dif_pos (show (0 : Fin 2) ∈ (matDims N K C wf).lhsNonContracting from List.mem_singleton.mpr rfl)]
  rfl

/-- … and, on its contracting axis 1, at the contraction coordinate. -/
theorem matDims_lhsIdx_one (i : (⟨2, ![N, C]⟩ : Shape).Idx) (q : (matDims N K C wf).contr.Idx) :
    ((matDims N K C wf).lhsIdx i q 1).val = (q ⟨0, Nat.one_pos⟩).val :=
  (matDims N K C wf).lhsIdx_val_of_single rfl i q

/-- The right operand is read, on its contracting axis 0, at the contraction coordinate … -/
theorem matDims_rhsIdx_zero (i : (⟨2, ![N, C]⟩ : Shape).Idx) (q : (matDims N K C wf).contr.Idx) :
    ((matDims N K C wf).rhsIdx i q 0).val = (q ⟨0, Nat.one_pos⟩).val :=
  (matDims N K C wf).rhsIdx_val_of_single rfl i q

/-- … and at the result's column: its axis 1 is non-contracting, the second of the result's axes. -/
theorem matDims_rhsIdx_one (i : (⟨2, ![N, C]⟩ : Shape).Idx) (q : (matDims N K C wf).contr.Idx) :
    ((matDims N K C wf).rhsIdx i q 1).val = (i 1).val := by
  unfold DotDims.rhsIdx
  rw [dif_neg (show ¬(1 : Fin 2) ∈ (matDims N K C wf).rhsBatch from List.not_mem_nil),
    dif_pos (show (1 : Fin 2) ∈ (matDims N K C wf).rhsNonContracting from List.mem_singleton.mpr rfl)]
  rfl

set_option maxHeartbeats 400000 in
/-- THE HOST'S MATRIX PRODUCT READ AT `(r, c)`: `∑ k < K, X[r, k] * W[k, c]`. The contraction index set has one axis of
    extent `K`; the sum over it is re-indexed by its one coordinate, and the two operand indices at `(r, c)` and `k`
    are `(r, k)` and `(k, c)`. -/
theorem dotGeneral_matDims_apply (p : Option ContractPrecision)
    (X : FVec Ideal ⟨2, ![N, K]⟩ .f32) (W : FVec Ideal ⟨2, ![K, C]⟩ .f32) (i : (⟨2, ![N, C]⟩ : Shape).Idx) :
    Host.dotGeneral (F := Ideal) (matDims N K C wf) p X W i
      = ∑ k : Fin K, X (ix2 (⟨(i 0).val, idx2_lt0 i⟩ : Fin N) k) * W (ix2 k (⟨(i 1).val, idx2_lt1 i⟩ : Fin C)) := by
  simp only [Host.dotGeneral]
  rw [Ideal.dotGeneral_apply, ← Equiv.sum_comp (contrEquiv1 (matDims N K C wf) K rfl rfl).symm]
  refine Finset.sum_congr rfl fun k _ => ?_
  have hk := contrEquiv1_symm_val (matDims N K C wf) K rfl rfl k
  have el : (matDims N K C wf).lhsIdx i ((contrEquiv1 (matDims N K C wf) K rfl rfl).symm k)
      = ix2 (⟨(i 0).val, idx2_lt0 i⟩ : Fin N) k := funext fun a => Fin.ext (by
    match a with
    | ⟨0, _⟩ => exact matDims_lhsIdx_zero wf _ _
    | ⟨1, _⟩ => exact (matDims_lhsIdx_one wf _ _).trans hk)
  have er : (matDims N K C wf).rhsIdx i ((contrEquiv1 (matDims N K C wf) K rfl rfl).symm k)
      = ix2 k (⟨(i 1).val, idx2_lt1 i⟩ : Fin C) := funext fun a => Fin.ext (by
    match a with
    | ⟨0, _⟩ => exact (matDims_rhsIdx_zero wf _ _).trans hk
    | ⟨1, _⟩ => exact matDims_rhsIdx_one wf _ _)
  rw [el, er]

end

end Cert.Lib
-- ==== Proof.BlockMatmul.lean ====
import proofs.«152042_j21002390077477_2_alg».proof.Proof.Gen.KernelIdeal.Skeleton
import proofs.«152042_j21002390077477_2_alg».proof.Proof.LibMatProduct
import Idealize.ShloMosaic.Lib.Pipeline.Value
import Idealize.ShloMosaic.Lib.ValueIdx
import Idealize.ShloMosaic.PureOps.Ideal.Laws

/-!
# One block of rows through a dense layer

Each dense layer of the graph convolution multiplies a block of 5000 rows of its left matrix by the whole of its right
matrix, starting from a zero accumulator; one of the layers then adds a bias row to every row and takes the maximum with
zero. On extended reals a change of float format is the identity and a product accumulated into zero is the exact sum
of products, so entry `(p, q)` of a block's result is `∑ k, x (p, k) · w (k, q)`, possibly plus `b (0, q)` and clipped
below at zero: it depends on row `p` of the block, column `q` of the right matrix and entry `q` of the bias row, and on
nothing else.
-/

noncomputable section

namespace Cert.KernelIdeal.RegionValue

open Idealize.ShloMosaic Idealize.ShloMosaic.ValueIdx Cert.KernelIdeal Cert.KernelIdeal.Gen

/-- The offset `(0, 0)` of an access to a whole buffer is the zero offset. -/
theorem zero_offset : (![0, 0] : Fin 2 → Nat) = fun _ => 0 := funext fun a => by fin_cases a <;> rfl

section
variable {N K C : Nat} (wf : DotDims.WF ⟨2, ![N, K]⟩ ⟨2, ![K, C]⟩ ⟨2, ![N, C]⟩ [1] [0] [0] [1] [] [])

set_option maxHeartbeats 400000 in
/-- The product `[N, K] · [K, C]` accumulated into zero, read at `(p, q)`: the contraction has one axis of extent `K`,
    the sum over it is re-indexed by its one coordinate `k`, and the two operands are then read at `(p, k)` and
    `(k, q)`. The operands' float formats play no part. -/
theorem matmul_zero_apply {φ₁ φ₂ : FTy} (x : FVec Ideal ⟨2, ![N, K]⟩ φ₁) (w : FVec Ideal ⟨2, ![K, C]⟩ φ₂)
    (p : Fin N) (q : Fin C) :
    matmul (Cert.Lib.matDims N K C wf) none x w (constant ⟨2, ![N, C]⟩ .f32 0x00000000#32) (ix2 p q)
      = ∑ k : Fin K, x (ix2 p k) * w (ix2 k q) := by
  show FloatOps.matmul (Cert.Lib.matDims N K C wf) none x w (constant ⟨2, ![N, C]⟩ .f32 0x00000000#32) (ix2 p q) = _
  rw [Ideal.matmul_constant_zero_apply, ← Equiv.sum_comp (contrEquiv1 (Cert.Lib.matDims N K C wf) K rfl rfl).symm]
  refine Finset.sum_congr rfl fun k _ => ?_
  have hk := contrEquiv1_symm_val (Cert.Lib.matDims N K C wf) K rfl rfl k
  have el : (Cert.Lib.matDims N K C wf).lhsIdx (ix2 p q) ((contrEquiv1 (Cert.Lib.matDims N K C wf) K rfl rfl).symm k)
      = ix2 p k := funext fun a => Fin.ext (by
    match a with
    | ⟨0, _⟩ => exact Cert.Lib.matDims_lhsIdx_zero wf _ _
    | ⟨1, _⟩ => exact (Cert.Lib.matDims_lhsIdx_one wf _ _).trans hk)
  have er : (Cert.Lib.matDims N K C wf).rhsIdx (ix2 p q) ((contrEquiv1 (Cert.Lib.matDims N K C wf) K rfl rfl).symm k)
      = ix2 k q := funext fun a => Fin.ext (by
    match a with
    | ⟨0, _⟩ => exact (Cert.Lib.matDims_rhsIdx_zero wf _ _).trans hk
    | ⟨1, _⟩ => exact Cert.Lib.matDims_rhsIdx_one wf _ _)
  rw [el, er]

end

/-- A row `[1, C]` laid along `N` rows holds, at `(p, q)`, the row's entry `q`. -/
theorem rowBroadcast_apply {α : Type} {N C : Nat} (h : (⟨2, ![1, C]⟩ : Shape).Broadcasts ⟨2, ![N, C]⟩)
    (b : (⟨2, ![1, C]⟩ : Shape).Idx → α) (p : Fin N) (q : Fin C) :
    broadcastTo ⟨2, ![N, C]⟩ b h (ix2 p q) = b (ix2 (0 : Fin 1) q) := by
  refine broadcastTo_apply b h (ix2 p q) _ (fun a => ?_)
  match a with
  | ⟨0, _⟩ => exact (if_pos rfl).symm
  | ⟨1, _⟩ =>
    show q.val = if C = 1 then 0 else q.val
    split
    · have := q.isLt; omega
    · rfl

/-- THE FIRST FEATURE TRANSFORM ON A BLOCK: 5000 rows of 128 features times the `[128, 64]` weights; entry `(p, q)` is
    row `p` of the block against column `q` of the weights. (The printed dimension numbers are the matrix product's,
    field by field.) -/
theorem featureBlock_apply (x : Vec Ideal S5000x128 .f32) (w : Vec Ideal S128x64 .f32) (p : Fin 5000) (q : Fin 64) :
    k0_pay1 (F := Ideal) x w (ix2 p q) = ∑ k : Fin 128, x (ix2 p k) * w (ix2 k q) := by
  unfold k0_pay1
  exact matmul_zero_apply Facts₀.dot_S5000x128_S128x64_S5000x64_1_0_0_1_n_n_wf
    (truncf (F := Ideal) .bf16 (x : FVec Ideal S5000x128 .f32) Facts₀.bitsLt_bf16_f32)
    (truncf (F := Ideal) .bf16 (w : FVec Ideal S128x64 .f32) Facts₀.bitsLt_bf16_f32) p q

/-- THE LAST FEATURE TRANSFORM ON A BLOCK is the same product: its body re-lays the block to its own shape first, which
    changes nothing. -/
theorem lastFeatureBlock_apply (x : Vec Ideal S5000x128 .f32) (w : Vec Ideal S128x64 .f32) (p : Fin 5000) (q : Fin 64) :
    k3_pay1 (F := Ideal) x w (ix2 p q) = ∑ k : Fin 128, x (ix2 p k) * w (ix2 k q) := by
  have e : k3_pay1 (F := Ideal) x w = k0_pay1 (F := Ideal) x w := by
    unfold k3_pay1 k0_pay1
    simp only [shapeCast_self]
  rw [e]
  exact featureBlock_apply x w p q

/-- THE MIDDLE LAYER ON A BLOCK: 5000 rows of 64 features times the `[64, 128]` weights, plus the bias row, clipped below
    at zero; entry `(p, q)` is `max (∑ k, x (p, k) · w (k, q) + b (0, q)) 0`. -/
theorem denseReluBlock_apply (x : Vec Ideal S5000x64 .f32) (w : Vec Ideal S64x128 .f32) (b : Vec Ideal S1x128 .f32)
    (p : Fin 5000) (q : Fin 128) :
    k2_pay1 (F := Ideal) x w b (ix2 p q)
      = max ((∑ k : Fin 64, x (ix2 p k) * w (ix2 k q)) + b (ix2 (0 : Fin 1) q)) 0 := by
  unfold k2_pay1
  simp only [shapeCast_self]
  refine (maximumf_apply _ _ _).trans (congrArg₂ max ((addf_apply _ _ _).trans (congrArg₂ (· + ·) ?_ ?_)) ?_)
  · exact matmul_zero_apply Facts₀.dot_S5000x64_S64x128_S5000x128_1_0_0_1_n_n_wf
      (truncf (F := Ideal) .bf16 (x : FVec Ideal S5000x64 .f32) Facts₀.bitsLt_bf16_f32)
      (truncf (F := Ideal) .bf16 (w : FVec Ideal S64x128 .f32) Facts₀.bitsLt_bf16_f32) p q
  · exact rowBroadcast_apply _ b p q
  · exact Ideal.ofBits_zero_f32

end Cert.KernelIdeal.RegionValue

end
-- ==== Proof.Region0.lean ====
import proofs.«152042_j21002390077477_2_alg».proof.Proof.Gen.KernelIdeal.Frame
import proofs.«152042_j21002390077477_2_alg».proof.Proof.Spec
import proofs.«152042_j21002390077477_2_alg».proof.Proof.BlockMatmul
import Idealize.ShloMosaic.Lib.Pipeline.Value
import Idealize.ShloMosaic.Lib.ValueIdx

/-!
# The first feature transform, all rows

The first dense region computes `h = x · W1` for `x : [100000, 128]` and `W1 : [128, 64]`, twenty blocks of 5000 rows at a
time: grid point `t` reads rows `5000 t … 5000 t + 4999` of `x` and all of `W1`, and writes the same rows of `h`. Row `r`
of `h` depends on row `r` of `x` only, so the block that point `t` writes back is the restriction of the whole product to
its rows; the twenty blocks cover every row (row `r` is in block `r / 5000`), so after the last point the array holds
the whole product.
-/

noncomputable section

namespace Cert.KernelIdeal.RegionValue

open Idealize.ShloMosaic Idealize.ShloMosaic.TcCoe Idealize.SL.Sem Cert.KernelIdeal Cert.KernelIdeal.Gen Cert.Gcn
open Idealize.ShloMosaic.ValueIdx
open Idealize.ShloMosaic.Pipeline (Dat Cfg Window)

variable (V : (c : Dev nD) → (b : Ref sig .tc) → Buf (Elt Ideal) ((c : Thread nD τ).loc b))

namespace FirstTransform

/-- The block indices at grid point `t`: the left matrix and the result move down one block of rows per point and have
    one block of columns; the weights are one block. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- There are twenty grid points. -/
theorem point_lt (t : Fin cfg0.N) : t.val < 20 := Nat.lt_of_lt_of_eq t.isLt N_0

/-- Row `p` of the left matrix's block at point `t` is row `5000 t + p` of the matrix. -/
theorem left_block (c : Dev nD) (t : Fin cfg0.N) (p : Fin 5000) (k : Fin 128) (r : Fin 100000)
    (hr : r.val = t.val * 5000 + p.val) :
    (iblk0 (F := Ideal) V c 0 t : Vec Ideal S5000x128 .f32) (ix2 p k) = (V c main_arg0 : Mat 100000 128) (ix2 r k) := by
  obtain ⟨e0, e1, -⟩ := block_indices t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The weights' block at any point is the weights. -/
theorem weight_block (c : Dev nD) (t : Fin cfg0.N) (k : Fin 128) (q : Fin 64) :
    (iblk0 (F := Ideal) V c 1 t : Vec Ideal S128x64 .f32) (ix2 k q) = (V c main_arg2 : Mat 128 64) (ix2 k q) := by
  obtain ⟨-, -, e2, e3, -⟩ := block_indices t
  show V c main_arg2 (((cfg0.win 1).blk t).view.emb (ix2 k q)) = V c main_arg2 (ix2 k q)
  refine congrArg (V c main_arg2) (funext fun a => Fin.ext ?_)
  match a with
  | ⟨0, _⟩ => show win0_1.index t (0 : Fin 2) * 128 + 1 * k.val = k.val; omega
  | ⟨1, _⟩ => show win0_1.index t (1 : Fin 2) * 64 + 1 * q.val = q.val; omega

/-- Row `p` of the result's block at point `t`, read off a whole array `G`, is row `5000 t + p` of `G`. -/
theorem result_block (t : Fin cfg0.N) (G : Mat 100000 64) (p : Fin 5000) (q : Fin 64) (r : Fin 100000)
    (hr : r.val = t.val * 5000 + p.val) :
    (((cfg0.win 2).blk t).view.read (Elt Ideal) G : Vec Ideal S5000x64 .f32) (ix2 p q) = G (ix2 r q) := by
  obtain ⟨-, -, -, -, e4, e5⟩ := block_indices t
  show G (((cfg0.win 2).blk t).view.emb (ix2 p q)) = G (ix2 r q)
  refine congrArg G (funext fun a => Fin.ext ?_)
  match a with
  | ⟨0, _⟩ => show win0_2.index t (0 : Fin 2) * 5000 + 1 * p.val = r.val; omega
  | ⟨1, _⟩ => show win0_2.index t (1 : Fin 2) * 64 + 1 * q.val = q.val; omega

/-- An entry of a product `X · W` in row `r`, written over a block `x` whose row `p` is row `r` of `X` and a block `w` that
    is `W`. -/
theorem product_entry (X : Mat 100000 128) (W : Mat 128 64) (x : Vec Ideal S5000x128 .f32) (w : Vec Ideal S128x64 .f32)
    (p : Fin 5000) (q : Fin 64) (r : Fin 100000) (hx : ∀ k : Fin 128, x (ix2 p k) = X (ix2 r k))
    (hw : ∀ k : Fin 128, w (ix2 k q) = W (ix2 k q)) :
    mm X W (ix2 r q) = ∑ k : Fin 128, x (ix2 p k) * w (ix2 k q) :=
  Finset.sum_congr rfl fun k _ => congrArg₂ (· * ·) (hx k).symm (hw k).symm

/-- A block of the product is the body's result once it agrees with it entry by entry. -/
theorem block_ext (x : Vec Ideal S5000x128 .f32) (w : Vec Ideal S128x64 .f32) (g : Vec Ideal S5000x64 .f32)
    (h : ∀ (p : Fin 5000) (q : Fin 64), g (ix2 p q) = ∑ k : Fin 128, x (ix2 p k) * w (ix2 k q)) :
    k0_pay1 (F := Ideal) x w = g :=
  funext fun j => by
    obtain ⟨p, q, rfl⟩ : ∃ (p : Fin 5000) (q : Fin 64), j = ix2 p q := ⟨j 0, j 1, eq_ix2 j⟩
    rw [h]
    exact featureBlock_apply x w p q

/-- The rows that grid point `t` writes back are rows `5000 t … 5000 t + 4999` of the whole product `x · W1`, computed from
    the arrays as the region finds them. -/
theorem written_block (c : Dev nD) (t : Fin cfg0.N) :
    (dat0 (F := Ideal) V c).flushed 2 t
      = ((cfg0.win 2).blk t).view.read (Elt Ideal) (mm (V c main_arg0) (V c main_arg2)) := by
  show (cfg0.win 2).cut (grid0.coords t) ((dat0 (F := Ideal) V c).after 2 t) = _
  rw [after0_2]
  unfold out0_2
  rw [View.canon_unit_zero zero_offset]
  simp only [View.ld_unit_zero (S := S5000x128) zero_offset, View.ld_unit_zero (S := S128x64) zero_offset]
  refine block_ext (iblk0 V c 0 t) (iblk0 V c 1 t)
    (((cfg0.win 2).blk t).view.read (Elt Ideal) (mm (V c main_arg0) (V c main_arg2))) (fun p q => ?_)
  have ht := point_lt t
  exact (result_block t (mm (V c main_arg0) (V c main_arg2)) p q ⟨t.val * 5000 + p.val, by omega⟩ rfl).trans
    (product_entry (V c main_arg0) (V c main_arg2) (iblk0 V c 0 t) (iblk0 V c 1 t) p q ⟨t.val * 5000 + p.val, by omega⟩
      (fun k => left_block V c t p k ⟨t.val * 5000 + p.val, by omega⟩ rfl) (fun k => weight_block V c t k q))

/-- Membership in the rows that point `t` writes back, axis by axis: a coordinate lies between the block's first index on
    that axis and its last. -/
theorem mem_block (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v36).slice (win0_2.rect t)).set ↔ _
  rw [View.set_slice_whole, Rect.mem_set_unit]
  exact Iff.rfl

/-- The twenty blocks leave no row out: row `r` is written back by point `r / 5000`. -/
theorem covered (i : S100000x64.Idx) :
    ∃ t : Fin cfg0.N, (cfg0.win 2).flush t = true ∧ i ∈ ((cfg0.win 2).blk t).view.set := by
  have h0 : (i 0).val < 100000 := idx2_lt0 i
  have h1 : (i 1).val < 64 := idx2_lt1 i
  obtain ⟨t, ht⟩ : ∃ t : Fin cfg0.N, t.val = (i 0).val / 5000 :=
    ⟨⟨(i 0).val / 5000, Nat.lt_of_lt_of_eq (by omega : (i 0).val / 5000 < 20) N_0.symm⟩, rfl⟩
  obtain ⟨-, -, -, -, e4, e5⟩ := block_indices t
  refine ⟨t, flush0_2 t, ?_⟩
  rw [mem_block]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 64 ≤ (i 1).val ∧ (i 1).val < win0_2.index t (1 : Fin 2) * 64 + 64
    omega

end FirstTransform

/-- region 0: h = x · W1, rows in blocks of 5000 -/
theorem region0 (c : Dev nD) : (dat0 (F := Ideal) V c).arrAt 2 cfg0.N = mm (V c main_arg0) (V c main_arg2) :=
  (dat0 (F := Ideal) V c).arrAt_eq_of_cover 2 (mm (V c main_arg0) (V c main_arg2))
    (fun t _ => FirstTransform.written_block V c t) FirstTransform.covered

end Cert.KernelIdeal.RegionValue

end
-- ==== Proof.Region1.lean ====
import proofs.«152042_j21002390077477_2_alg».proof.Proof.Gen.KernelIdeal.Frame
import proofs.«152042_j21002390077477_2_alg».proof.Proof.Spec
import Idealize.ShloMosaic.Lib.Pipeline.Value
import Idealize.ShloMosaic.Lib.ValueIdx
import Idealize.ShloMosaic.PureOps.Ideal.Laws

/-!
# The second call: a bias row added to the aggregate, then the rectifier

The call walks the `[100000, 64]` aggregate in twenty steps. At step `t` it holds rows `5000 t … 5000 t + 4999` of the
aggregate (all 64 columns) and the whole `[1, 64]` bias row, and writes, into the same rows of the result,

  `out (5000 t + p, q) = max (agg (5000 t + p, q) + bias (0, q)) 0`.

An entry of the result depends on the entry of the aggregate at the same place and on the bias entry of its column,
on nothing else; in particular not on the step. The twenty row blocks are disjoint and together are all 100000 rows,
the row `r` lying in block `r / 5000`. Hence, after the last step, the result array is, entry by entry,
`relu (addBias agg bias)`.
-/

noncomputable section
namespace Cert.KernelIdeal.RegionValue
open Idealize.ShloMosaic Idealize.ShloMosaic.TcCoe Idealize.SL.Sem Cert.KernelIdeal Cert.KernelIdeal.Gen Cert.Gcn
open Idealize.ShloMosaic.Pipeline (Dat Cfg Window)
open Idealize.ShloMosaic.ValueIdx
variable (V : (c : Dev nD) → (b : Ref sig .tc) → Buf (Elt Ideal) ((c : Thread nD τ).loc b))

namespace Region1

/-- A whole-buffer access starts at row 0, column 0. -/
theorem zeroOffsets : (![0, 0] : Fin 2 → Nat) = fun _ => 0 := funext fun a => by fin_cases a <;> rfl

/-- What one step computes, at entry `(p, q)` of its block: the block's entry plus the bias of column `q`, cut off
    below at zero. The two reshapes of the bias row and the one of the block are to their own shapes, hence the
    identity; the bias row spread over 5000 rows reads, in every row, its one row; the constant is the zero word. -/
theorem biasRelu_apply (b : Vec Ideal S1x64 .f32) (a : Vec Ideal S5000x64 .f32) (p : Fin 5000) (q : Fin 64) :
    k1_pay1 (F := Ideal) b a (ix2 p q) = max (a (ix2 p q) + b (ix2 (0 : Fin 1) q)) 0 := by
  unfold k1_pay1
  simp only [shapeCast_self]
  show max (a (ix2 p q) + broadcastTo S5000x64 b broadcasts_S1x64_S5000x64 (ix2 p q)) (Ideal.ofBits .f32 0x00000000#32) = _
  rw [Ideal.ofBits_zero_f32]
  refine congrArg (fun z => max (a (ix2 p q) + z) 0) ?_
  refine broadcastTo_apply b broadcasts_S1x64_S5000x64 (ix2 p q) (ix2 (0 : Fin 1) q) (fun d => ?_)
  match d with
  | ⟨0, _⟩ => rfl
  | ⟨1, _⟩ => rfl

/-- Which block each operand holds at step `t`: the aggregate's and the result's row block `t` (their one column
    block), the bias row's one block. -/
theorem blockIndex : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The step's arithmetic on the entries its blocks hold is the whole-array function at the place of the result the
    entry is written to: the aggregate's block sits over the same rows and columns as the result's, and the bias
    block's entry `(0, q)` is the bias of the result's column. A block's coordinate is its index times its extent plus
    the coordinate inside. -/
theorem blockReads (A : Mat 100000 64) (b : Mat 1 64) (t : Fin cfg1.N) (p : Fin 5000) (q : Fin 64) :
    max (A (((cfg1.win 0).blk t).view.emb (ix2 p q)) + b (((cfg1.win 1).blk t).view.emb (ix2 (0 : Fin 1) q))) 0
      = relu (addBias A b) (((cfg1.win 2).blk t).view.emb (ix2 p q)) := by
  obtain ⟨e00, e01, e10, e11, e20, e21⟩ := blockIndex t
  show _ = max (A (((cfg1.win 2).blk t).view.emb (ix2 p q)) + b (ix2 (0 : Fin 1) (col (((cfg1.win 2).blk t).view.emb (ix2 p q))))) 0
  have h0 : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 64 + 1 * q.val = win1_2.index t (1 : Fin 2) * 64 + 1 * q.val; omega
  have h1 : ((cfg1.win 1).blk t).view.emb (ix2 (0 : Fin 1) q) = ix2 (0 : Fin 1) (col (((cfg1.win 2).blk t).view.emb (ix2 p q))) := by
    funext a; apply Fin.ext
    match a with
    | ⟨0, _⟩ => show win1_1.index t (0 : Fin 2) * 1 + 1 * 0 = 0; omega
    | ⟨1, _⟩ => show win1_1.index t (1 : Fin 2) * 64 + 1 * q.val = win1_2.index t (1 : Fin 2) * 64 + 1 * q.val; omega
  rw [h0, h1]

/-- What step `t` writes back is block `t` of `relu (addBias agg bias)`, the two arrays as the call finds them. -/
theorem writtenBack (c : Dev nD) (t : Fin cfg1.N) :
    (dat1 (F := Ideal) V c).flushed 2 t
      = ((cfg1.win 2).blk t).view.read (Elt Ideal) (relu (addBias (V c main_v51) (V c main_v52))) := by
  show (cfg1.win 2).cut (grid1.coords t) ((dat1 (F := Ideal) V c).after 2 t) = _
  rw [after1_2]
  unfold out1_2
  rw [View.canon_unit_zero zeroOffsets]
  simp only [View.ld_unit_zero (S := S5000x64) zeroOffsets, View.ld_unit_zero (S := S1x64) zeroOffsets]
  funext j
  obtain ⟨p, q, rfl⟩ : ∃ (p : Fin 5000) (q : Fin 64), j = ix2 p q := ⟨j 0, j 1, eq_ix2 j⟩
  refine (biasRelu_apply (iblk1 V c 1 t) (iblk1 V c 0 t) p q).trans ?_
  exact blockReads (V c main_v51) (V c main_v52) t p q

/-- An entry of the result lies in step `t`'s block iff, on each axis, its coordinate lies in the block's range. -/
theorem mem_block (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v53).slice (win1_2.rect t)).set ↔ _
  rw [View.set_slice_whole, Rect.mem_set_unit]
  exact Iff.rfl

/-- Every entry of the result is written by some step: row `r` by step `r / 5000`. -/
theorem covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  let t : Fin cfg1.N := ⟨(i 0).val / 5000, by omega⟩
  obtain ⟨e00, e01, e10, e11, e20, e21⟩ := blockIndex t
  refine ⟨t, flush1_2 t, ?_⟩
  rw [mem_block]
  intro a
  match a with
  | ⟨0, _⟩ =>
    show win1_2.index t (0 : Fin 2) * 5000 ≤ (i 0).val ∧ (i 0).val < win1_2.index t (0 : Fin 2) * 5000 + 5000
    rw [e20]
    show (i 0).val / 5000 * 5000 ≤ (i 0).val ∧ (i 0).val < (i 0).val / 5000 * 5000 + 5000
    omega
  | ⟨1, _⟩ =>
    show win1_2.index t (1 : Fin 2) * 64 ≤ (i 1).val ∧ (i 1).val < win1_2.index t (1 : Fin 2) * 64 + 64
    omega

end Region1

/-- The result array after the twenty steps of the second call: the aggregate plus the bias row, cut off below at
    zero, entry by entry; the two arrays as the call finds them. -/
theorem region1 (c : Dev nD) : (dat1 (F := Ideal) V c).arrAt 2 cfg1.N = relu (addBias (V c main_v51) (V c main_v52)) :=
  (dat1 (F := Ideal) V c).arrAt_eq_of_cover 2 (relu (addBias (V c main_v51) (V c main_v52)))
    (fun t _ => Region1.writtenBack V c t) Region1.covered

end Cert.KernelIdeal.RegionValue

end
-- ==== Proof.Region2.lean ====
import proofs.«152042_j21002390077477_2_alg».proof.Proof.Gen.KernelIdeal.Frame
import proofs.«152042_j21002390077477_2_alg».proof.Proof.Spec
import proofs.«152042_j21002390077477_2_alg».proof.Proof.BlockMatmul
import Idealize.ShloMosaic.Lib.Pipeline.Value
import Idealize.ShloMosaic.Lib.ValueIdx

/-!
# The middle layer, all rows

The middle dense region computes `relu (a · W2 + b2)` for `a : [100000, 64]`, `W2 : [64, 128]` and the bias row
`b2 : [1, 128]`, twenty blocks of 5000 rows at a time: grid point `t` reads rows `5000 t … 5000 t + 4999` of `a`, all of
`W2` and all of `b2`, and writes the same rows of the result. Entry `(r, f)` of the result is
`max (∑ k, a (r, k) · W2 (k, f) + b2 (0, f)) 0`: it depends on row `r` of `a` only, so each block written back is the
restriction of the whole layer to its rows, and the twenty blocks cover every row (row `r` is in block `r / 5000`):
after the last point the array holds the whole layer.
-/

noncomputable section

namespace Cert.KernelIdeal.RegionValue

open Idealize.ShloMosaic Idealize.ShloMosaic.TcCoe Idealize.SL.Sem Cert.KernelIdeal Cert.KernelIdeal.Gen Cert.Gcn
open Idealize.ShloMosaic.ValueIdx
open Idealize.ShloMosaic.Pipeline (Dat Cfg Window)

variable (V : (c : Dev nD) → (b : Ref sig .tc) → Buf (Elt Ideal) ((c : Thread nD τ).loc b))

namespace MiddleLayer

/-- The block indices at grid point `t`: the left matrix and the result move down one block of rows per point and have
    one block of columns; the weights and the bias row are one block each. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- There are twenty grid points. -/
theorem point_lt (t : Fin cfg2.N) : t.val < 20 := Nat.lt_of_lt_of_eq t.isLt N_2

/-- Row `p` of the left matrix's block at point `t` is row `5000 t + p` of the matrix. -/
theorem left_block (c : Dev nD) (t : Fin cfg2.N) (p : Fin 5000) (k : Fin 64) (r : Fin 100000)
    (hr : r.val = t.val * 5000 + p.val) :
    (iblk2 (F := Ideal) V c 0 t : Vec Ideal S5000x64 .f32) (ix2 p k) = (V c main_v68 : Mat 100000 64) (ix2 r k) := by
  obtain ⟨e0, e1, -⟩ := block_indices t
  show V c main_v68 (((cfg2.win 0).blk t).view.emb (ix2 p k)) = V c main_v68 (ix2 r k)
  refine congrArg (V c main_v68) (funext fun a => Fin.ext ?_)
  match a with
  | ⟨0, _⟩ => show win2_0.index t (0 : Fin 2) * 5000 + 1 * p.val = r.val; omega
  | ⟨1, _⟩ => show win2_0.index t (1 : Fin 2) * 64 + 1 * k.val = k.val; omega

/-- The weights' block at any point is the weights. -/
theorem weight_block (c : Dev nD) (t : Fin cfg2.N) (k : Fin 64) (q : Fin 128) :
    (iblk2 (F := Ideal) V c 1 t : Vec Ideal S64x128 .f32) (ix2 k q) = (V c main_arg4 : Mat 64 128) (ix2 k q) := by
  obtain ⟨-, -, e2, e3, -⟩ := block_indices t
  show V c main_arg4 (((cfg2.win 1).blk t).view.emb (ix2 k q)) = V c main_arg4 (ix2 k q)
  refine congrArg (V c main_arg4) (funext fun a => Fin.ext ?_)
  match a with
  | ⟨0, _⟩ => show win2_1.index t (0 : Fin 2) * 64 + 1 * k.val = k.val; omega
  | ⟨1, _⟩ => show win2_1.index t (1 : Fin 2) * 128 + 1 * q.val = q.val; omega

/-- The bias row's block at any point is the bias row. -/
theorem bias_block (c : Dev nD) (t : Fin cfg2.N) (q : Fin 128) :
    (iblk2 (F := Ideal) V c 2 t : Vec Ideal S1x128 .f32) (ix2 (0 : Fin 1) q)
      = (V c main_v69 : Mat 1 128) (ix2 (0 : Fin 1) q) := by
  obtain ⟨-, -, -, -, e4, e5, -⟩ := block_indices t
  show V c main_v69 (((cfg2.win 2).blk t).view.emb (ix2 (0 : Fin 1) q)) = V c main_v69 (ix2 (0 : Fin 1) q)
  refine congrArg (V c main_v69) (funext fun a => Fin.ext ?_)
  match a with
  | ⟨0, _⟩ => show win2_2.index t (0 : Fin 2) * 1 + 1 * 0 = 0; omega
  | ⟨1, _⟩ => show win2_2.index t (1 : Fin 2) * 128 + 1 * q.val = q.val; omega

/-- Row `p` of the result's block at point `t`, read off a whole array `G`, is row `5000 t + p` of `G`. -/
theorem result_block (t : Fin cfg2.N) (G : Mat 100000 128) (p : Fin 5000) (q : Fin 128) (r : Fin 100000)
    (hr : r.val = t.val * 5000 + p.val) :
    (((cfg2.win 3).blk t).view.read (Elt Ideal) G : Vec Ideal S5000x128 .f32) (ix2 p q) = G (ix2 r q) := by
  obtain ⟨-, -, -, -, -, -, e6, e7⟩ := block_indices t
  show G (((cfg2.win 3).blk t).view.emb (ix2 p q)) = G (ix2 r q)
  refine congrArg G (funext fun a => Fin.ext ?_)
  match a with
  | ⟨0, _⟩ => show win2_3.index t (0 : Fin 2) * 5000 + 1 * p.val = r.val; omega
  | ⟨1, _⟩ => show win2_3.index t (1 : Fin 2) * 128 + 1 * q.val = q.val; omega

/-- An entry of the layer `relu (X · W + B)` in row `r`, written over a block `x` whose row `p` is row `r` of `X`, a block
    `w` that is `W` and a block `b` that is `B`. -/
theorem layer_entry (X : Mat 100000 64) (W : Mat 64 128) (B : Mat 1 128) (x : Vec Ideal S5000x64 .f32)
    (w : Vec Ideal S64x128 .f32) (b : Vec Ideal S1x128 .f32) (p : Fin 5000) (q : Fin 128) (r : Fin 100000)
    (hx : ∀ k : Fin 64, x (ix2 p k) = X (ix2 r k)) (hw : ∀ k : Fin 64, w (ix2 k q) = W (ix2 k q))
    (hb : b (ix2 (0 : Fin 1) q) = B (ix2 (0 : Fin 1) q)) :
    relu (addBias (mm X W) B) (ix2 r q) = max ((∑ k : Fin 64, x (ix2 p k) * w (ix2 k q)) + b (ix2 (0 : Fin 1) q)) 0 := by
  show max ((∑ k : Fin 64, X (ix2 r k) * W (ix2 k q)) + B (ix2 (0 : Fin 1) q)) 0 = _
  exact congrArg₂ max (congrArg₂ (· + ·)
    (Finset.sum_congr rfl fun k _ => congrArg₂ (· * ·) (hx k).symm (hw k).symm) hb.symm) rfl

/-- A block of the layer is the body's result once it agrees with it entry by entry. -/
theorem block_ext (x : Vec Ideal S5000x64 .f32) (w : Vec Ideal S64x128 .f32) (b : Vec Ideal S1x128 .f32)
    (g : Vec Ideal S5000x128 .f32)
    (h : ∀ (p : Fin 5000) (q : Fin 128),
      g (ix2 p q) = max ((∑ k : Fin 64, x (ix2 p k) * w (ix2 k q)) + b (ix2 (0 : Fin 1) q)) 0) :
    k2_pay1 (F := Ideal) x w b = g :=
  funext fun j => by
    obtain ⟨p, q, rfl⟩ : ∃ (p : Fin 5000) (q : Fin 128), j = ix2 p q := ⟨j 0, j 1, eq_ix2 j⟩
    rw [h]
    exact denseReluBlock_apply x w b p q

/-- The rows that grid point `t` writes back are rows `5000 t … 5000 t + 4999` of the whole layer `relu (a · W2 + b2)`, computed from
    the arrays as the region finds them. -/
theorem written_block (c : Dev nD) (t : Fin cfg2.N) :
    (dat2 (F := Ideal) V c).flushed 3 t = ((cfg2.win 3).blk t).view.read (Elt Ideal)
      (relu (addBias (mm (V c main_v68) (V c main_arg4)) (V c main_v69))) := by
  show (cfg2.win 3).cut (grid2.coords t) ((dat2 (F := Ideal) V c).after 3 t) = _
  rw [after2_3]
  unfold out2_3
  rw [View.canon_unit_zero zero_offset]
  simp only [View.ld_unit_zero (S := S5000x64) zero_offset, View.ld_unit_zero (S := S64x128) zero_offset,
    View.ld_unit_zero (S := S1x128) zero_offset]
  refine block_ext (iblk2 V c 0 t) (iblk2 V c 1 t) (iblk2 V c 2 t)
    (((cfg2.win 3).blk t).view.read (Elt Ideal) (relu (addBias (mm (V c main_v68) (V c main_arg4)) (V c main_v69))))
    (fun p q => ?_)
  have ht := point_lt t
  exact (result_block t (relu (addBias (mm (V c main_v68) (V c main_arg4)) (V c main_v69))) p q
      ⟨t.val * 5000 + p.val, by omega⟩ rfl).trans
    (layer_entry (V c main_v68) (V c main_arg4) (V c main_v69) (iblk2 V c 0 t) (iblk2 V c 1 t) (iblk2 V c 2 t) p q
      ⟨t.val * 5000 + p.val, by omega⟩ (fun k => left_block V c t p k ⟨t.val * 5000 + p.val, by omega⟩ rfl)
      (fun k => weight_block V c t k q) (bias_block V c t q))

/-- Membership in the rows that point `t` writes back, axis by axis: a coordinate lies between the block's first index on
    that axis and its last. -/
theorem mem_block (t : Fin cfg2.N) (i : S100000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v70).slice (win2_3.rect t)).set ↔ _
  rw [View.set_slice_whole, Rect.mem_set_unit]
  exact Iff.rfl

/-- The twenty blocks leave no row out: row `r` is written back by point `r / 5000`. -/
theorem covered (i : S100000x128.Idx) :
    ∃ t : Fin cfg2.N, (cfg2.win 3).flush t = true ∧ i ∈ ((cfg2.win 3).blk t).view.set := by
  have h0 : (i 0).val < 100000 := idx2_lt0 i
  have h1 : (i 1).val < 128 := idx2_lt1 i
  obtain ⟨t, ht⟩ : ∃ t : Fin cfg2.N, t.val = (i 0).val / 5000 :=
    ⟨⟨(i 0).val / 5000, Nat.lt_of_lt_of_eq (by omega : (i 0).val / 5000 < 20) N_2.symm⟩, rfl⟩
  obtain ⟨-, -, -, -, -, -, e6, e7⟩ := block_indices t
  refine ⟨t, flush2_3 t, ?_⟩
  rw [mem_block]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 128 ≤ (i 1).val ∧ (i 1).val < win2_3.index t (1 : Fin 2) * 128 + 128
    omega

end MiddleLayer

/-- region 2: relu (a · W2 + b2) -/
theorem region2 (c : Dev nD) : (dat2 (F := Ideal) V c).arrAt 3 cfg2.N
    = relu (addBias (mm (V c main_v68) (V c main_arg4)) (V c main_v69)) :=
  (dat2 (F := Ideal) V c).arrAt_eq_of_cover 3 (relu (addBias (mm (V c main_v68) (V c main_arg4)) (V c main_v69)))
    (fun t _ => MiddleLayer.written_block V c t) MiddleLayer.covered

end Cert.KernelIdeal.RegionValue

end
-- ==== Proof.Region3.lean ====
import proofs.«152042_j21002390077477_2_alg».proof.Proof.Gen.KernelIdeal.Frame
import proofs.«152042_j21002390077477_2_alg».proof.Proof.Spec
import proofs.«152042_j21002390077477_2_alg».proof.Proof.BlockMatmul
import Idealize.ShloMosaic.Lib.Pipeline.Value
import Idealize.ShloMosaic.Lib.ValueIdx

/-!
# The last feature transform, all rows

The last dense region computes `a · W3` for the middle layer's output `a : [100000, 128]` and `W3 : [128, 64]`, again
twenty blocks of 5000 rows at a time: grid point `t` reads rows `5000 t … 5000 t + 4999` of `a` and all of `W3` and writes
the same rows of the result. A row of the result depends on the same row of `a` only, so each block written back is the
restriction of the whole product to its rows, and the twenty blocks cover every row (row `r` is in block `r / 5000`):
after the last point the array holds the whole product.
-/

noncomputable section

namespace Cert.KernelIdeal.RegionValue

open Idealize.ShloMosaic Idealize.ShloMosaic.TcCoe Idealize.SL.Sem Cert.KernelIdeal Cert.KernelIdeal.Gen Cert.Gcn
open Idealize.ShloMosaic.ValueIdx
open Idealize.ShloMosaic.Pipeline (Dat Cfg Window)

variable (V : (c : Dev nD) → (b : Ref sig .tc) → Buf (Elt Ideal) ((c : Thread nD τ).loc b))

namespace LastTransform

/-- The block indices at grid point `t`: the left matrix and the result move down one block of rows per point and have
    one block of columns; the weights are one block. -/
theorem block_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- There are twenty grid points. -/
theorem point_lt (t : Fin cfg3.N) : t.val < 20 := Nat.lt_of_lt_of_eq t.isLt N_3

/-- Row `p` of the left matrix's block at point `t` is row `5000 t + p` of the matrix. -/
theorem left_block (c : Dev nD) (t : Fin cfg3.N) (p : Fin 5000) (k : Fin 128) (r : Fin 100000)
    (hr : r.val = t.val * 5000 + p.val) :
    (iblk3 (F := Ideal) V c 0 t : Vec Ideal S5000x128 .f32) (ix2 p k) = (V c main_v70 : Mat 100000 128) (ix2 r k) := by
  obtain ⟨e0, e1, -⟩ := block_indices t
  show V c main_v70 (((cfg3.win 0).blk t).view.emb (ix2 p k)) = V c main_v70 (ix2 r k)
  refine congrArg (V c main_v70) (funext fun a => Fin.ext ?_)
  match a with
  | ⟨0, _⟩ => show win3_0.index t (0 : Fin 2) * 5000 + 1 * p.val = r.val; omega
  | ⟨1, _⟩ => show win3_0.index t (1 : Fin 2) * 128 + 1 * k.val = k.val; omega

/-- The weights' block at any point is the weights. -/
theorem weight_block (c : Dev nD) (t : Fin cfg3.N) (k : Fin 128) (q : Fin 64) :
    (iblk3 (F := Ideal) V c 1 t : Vec Ideal S128x64 .f32) (ix2 k q) = (V c main_arg6 : Mat 128 64) (ix2 k q) := by
  obtain ⟨-, -, e2, e3, -⟩ := block_indices t
  show V c main_arg6 (((cfg3.win 1).blk t).view.emb (ix2 k q)) = V c main_arg6 (ix2 k q)
  refine congrArg (V c main_arg6) (funext fun a => Fin.ext ?_)
  match a with
  | ⟨0, _⟩ => show win3_1.index t (0 : Fin 2) * 128 + 1 * k.val = k.val; omega
  | ⟨1, _⟩ => show win3_1.index t (1 : Fin 2) * 64 + 1 * q.val = q.val; omega

/-- Row `p` of the result's block at point `t`, read off a whole array `G`, is row `5000 t + p` of `G`. -/
theorem result_block (t : Fin cfg3.N) (G : Mat 100000 64) (p : Fin 5000) (q : Fin 64) (r : Fin 100000)
    (hr : r.val = t.val * 5000 + p.val) :
    (((cfg3.win 2).blk t).view.read (Elt Ideal) G : Vec Ideal S5000x64 .f32) (ix2 p q) = G (ix2 r q) := by
  obtain ⟨-, -, -, -, e4, e5⟩ := block_indices t
  show G (((cfg3.win 2).blk t).view.emb (ix2 p q)) = G (ix2 r q)
  refine congrArg G (funext fun a => Fin.ext ?_)
  match a with
  | ⟨0, _⟩ => show win3_2.index t (0 : Fin 2) * 5000 + 1 * p.val = r.val; omega
  | ⟨1, _⟩ => show win3_2.index t (1 : Fin 2) * 64 + 1 * q.val = q.val; omega

/-- An entry of a product `X · W` in row `r`, written over a block `x` whose row `p` is row `r` of `X` and a block `w` that
    is `W`. -/
theorem product_entry (X : Mat 100000 128) (W : Mat 128 64) (x : Vec Ideal S5000x128 .f32) (w : Vec Ideal S128x64 .f32)
    (p : Fin 5000) (q : Fin 64) (r : Fin 100000) (hx : ∀ k : Fin 128, x (ix2 p k) = X (ix2 r k))
    (hw : ∀ k : Fin 128, w (ix2 k q) = W (ix2 k q)) :
    mm X W (ix2 r q) = ∑ k : Fin 128, x (ix2 p k) * w (ix2 k q) :=
  Finset.sum_congr rfl fun k _ => congrArg₂ (· * ·) (hx k).symm (hw k).symm

/-- A block of the product is the body's result once it agrees with it entry by entry. -/
theorem block_ext (x : Vec Ideal S5000x128 .f32) (w : Vec Ideal S128x64 .f32) (g : Vec Ideal S5000x64 .f32)
    (h : ∀ (p : Fin 5000) (q : Fin 64), g (ix2 p q) = ∑ k : Fin 128, x (ix2 p k) * w (ix2 k q)) :
    k3_pay1 (F := Ideal) x w = g :=
  funext fun j => by
    obtain ⟨p, q, rfl⟩ : ∃ (p : Fin 5000) (q : Fin 64), j = ix2 p q := ⟨j 0, j 1, eq_ix2 j⟩
    rw [h]
    exact lastFeatureBlock_apply x w p q

/-- The rows that grid point `t` writes back are rows `5000 t … 5000 t + 4999` of the whole product `a · W3`, computed from
    the arrays as the region finds them. -/
theorem written_block (c : Dev nD) (t : Fin cfg3.N) :
    (dat3 (F := Ideal) V c).flushed 2 t
      = ((cfg3.win 2).blk t).view.read (Elt Ideal) (mm (V c main_v70) (V c main_arg6)) := by
  show (cfg3.win 2).cut (grid3.coords t) ((dat3 (F := Ideal) V c).after 2 t) = _
  rw [after3_2]
  unfold out3_2
  rw [View.canon_unit_zero zero_offset]
  simp only [View.ld_unit_zero (S := S5000x128) zero_offset, View.ld_unit_zero (S := S128x64) zero_offset]
  refine block_ext (iblk3 V c 0 t) (iblk3 V c 1 t)
    (((cfg3.win 2).blk t).view.read (Elt Ideal) (mm (V c main_v70) (V c main_arg6))) (fun p q => ?_)
  have ht := point_lt t
  exact (result_block t (mm (V c main_v70) (V c main_arg6)) p q ⟨t.val * 5000 + p.val, by omega⟩ rfl).trans
    (product_entry (V c main_v70) (V c main_arg6) (iblk3 V c 0 t) (iblk3 V c 1 t) p q ⟨t.val * 5000 + p.val, by omega⟩
      (fun k => left_block V c t p k ⟨t.val * 5000 + p.val, by omega⟩ rfl) (fun k => weight_block V c t k q))

/-- Membership in the rows that point `t` writes back, axis by axis: a coordinate lies between the block's first index on
    that axis and its last. -/
theorem mem_block (t : Fin cfg3.N) (i : S100000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v71).slice (win3_2.rect t)).set ↔ _
  rw [View.set_slice_whole, Rect.mem_set_unit]
  exact Iff.rfl

/-- The twenty blocks leave no row out: row `r` is written back by point `r / 5000`. -/
theorem covered (i : S100000x64.Idx) :
    ∃ t : Fin cfg3.N, (cfg3.win 2).flush t = true ∧ i ∈ ((cfg3.win 2).blk t).view.set := by
  have h0 : (i 0).val < 100000 := idx2_lt0 i
  have h1 : (i 1).val < 64 := idx2_lt1 i
  obtain ⟨t, ht⟩ : ∃ t : Fin cfg3.N, t.val = (i 0).val / 5000 :=
    ⟨⟨(i 0).val / 5000, Nat.lt_of_lt_of_eq (by omega : (i 0).val / 5000 < 20) N_3.symm⟩, rfl⟩
  obtain ⟨-, -, -, -, e4, e5⟩ := block_indices t
  refine ⟨t, flush3_2 t, ?_⟩
  rw [mem_block]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 64 ≤ (i 1).val ∧ (i 1).val < win3_2.index t (1 : Fin 2) * 64 + 64
    omega

end LastTransform

/-- region 3: the last feature transform `a · W3`, rows in blocks of 5000 -/
theorem region3 (c : Dev nD) : (dat3 (F := Ideal) V c).arrAt 2 cfg3.N = mm (V c main_v70) (V c main_arg6) :=
  (dat3 (F := Ideal) V c).arrAt_eq_of_cover 2 (mm (V c main_v70) (V c main_arg6))
    (fun t _ => LastTransform.written_block V c t) LastTransform.covered

end Cert.KernelIdeal.RegionValue

end
-- ==== Proof.Region4.lean ====
import proofs.«152042_j21002390077477_2_alg».proof.Proof.Gen.KernelIdeal.Frame
import proofs.«152042_j21002390077477_2_alg».proof.Proof.Spec
import Idealize.ShloMosaic.Lib.Pipeline.Value
import Idealize.ShloMosaic.Lib.ValueIdx
import Idealize.ShloMosaic.PureOps.Ideal.Laws

/-!
# The fifth call: a bias row added to the aggregate, no rectifier

The call walks the `[100000, 64]` aggregate of the last layer in twenty steps. At step `t` it holds rows
`5000 t … 5000 t + 4999` of the aggregate (all 64 columns) and the whole `[1, 64]` bias row, and writes, into the same
rows of the result,

  `out (5000 t + p, q) = agg (5000 t + p, q) + bias (0, q)`.

An entry of the result depends on the entry of the aggregate at the same place and on the bias entry of its column,
on nothing else. The twenty row blocks are disjoint and together are all 100000 rows, the row `r` lying in block
`r / 5000`. Hence, after the last step, the result array is, entry by entry, `addBias agg bias`.
-/

noncomputable section
namespace Cert.KernelIdeal.RegionValue
open Idealize.ShloMosaic Idealize.ShloMosaic.TcCoe Idealize.SL.Sem Cert.KernelIdeal Cert.KernelIdeal.Gen Cert.Gcn
open Idealize.ShloMosaic.Pipeline (Dat Cfg Window)
open Idealize.ShloMosaic.ValueIdx
variable (V : (c : Dev nD) → (b : Ref sig .tc) → Buf (Elt Ideal) ((c : Thread nD τ).loc b))

namespace Region4

/-- A whole-buffer access starts at row 0, column 0. -/
theorem zeroOffsets : (![0, 0] : Fin 2 → Nat) = fun _ => 0 := funext fun a => by fin_cases a <;> rfl

/-- What one step computes, at entry `(p, q)` of its block: the block's entry plus the bias of column `q`. The two
    reshapes of the bias row and the one of the block are to their own shapes, hence the identity; the bias row
    spread over 5000 rows reads, in every row, its one row. -/
theorem bias_apply (b : Vec Ideal S1x64 .f32) (a : Vec Ideal S5000x64 .f32) (p : Fin 5000) (q : Fin 64) :
    k4_pay1 (F := Ideal) b a (ix2 p q) = a (ix2 p q) + b (ix2 (0 : Fin 1) q) := by
  unfold k4_pay1
  simp only [shapeCast_self]
  show a (ix2 p q) + broadcastTo S5000x64 b broadcasts_S1x64_S5000x64 (ix2 p q) = _
  refine congrArg (fun z => a (ix2 p q) + z) ?_
  refine broadcastTo_apply b broadcasts_S1x64_S5000x64 (ix2 p q) (ix2 (0 : Fin 1) q) (fun d => ?_)
  match d with
  | ⟨0, _⟩ => rfl
  | ⟨1, _⟩ => rfl

/-- Which block each operand holds at step `t`: the aggregate's and the result's row block `t` (their one column
    block), the bias row's one block. -/
theorem blockIndex : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The step's arithmetic on the entries its blocks hold is the whole-array function at the place of the result the
    entry is written to: the aggregate's block sits over the same rows and columns as the result's, and the bias
    block's entry `(0, q)` is the bias of the result's column. A block's coordinate is its index times its extent plus
    the coordinate inside. -/
theorem blockReads (A : Mat 100000 64) (b : Mat 1 64) (t : Fin cfg4.N) (p : Fin 5000) (q : Fin 64) :
    A (((cfg4.win 0).blk t).view.emb (ix2 p q)) + b (((cfg4.win 1).blk t).view.emb (ix2 (0 : Fin 1) q))
      = addBias A b (((cfg4.win 2).blk t).view.emb (ix2 p q)) := by
  obtain ⟨e00, e01, e10, e11, e20, e21⟩ := blockIndex t
  show _ = A (((cfg4.win 2).blk t).view.emb (ix2 p q)) + b (ix2 (0 : Fin 1) (col (((cfg4.win 2).blk t).view.emb (ix2 p q))))
  have h0 : ((cfg4.win 0).blk t).view.emb (ix2 p q) = ((cfg4.win 2).blk t).view.emb (ix2 p q) := by
    funext a; apply Fin.ext
    match a with
    | ⟨0, _⟩ => show win4_0.index t (0 : Fin 2) * 5000 + 1 * p.val = win4_2.index t (0 : Fin 2) * 5000 + 1 * p.val; omega
    | ⟨1, _⟩ => show win4_0.index t (1 : Fin 2) * 64 + 1 * q.val = win4_2.index t (1 : Fin 2) * 64 + 1 * q.val; omega
  have h1 : ((cfg4.win 1).blk t).view.emb (ix2 (0 : Fin 1) q) = ix2 (0 : Fin 1) (col (((cfg4.win 2).blk t).view.emb (ix2 p q))) := by
    funext a; apply Fin.ext
    match a with
    | ⟨0, _⟩ => show win4_1.index t (0 : Fin 2) * 1 + 1 * 0 = 0; omega
    | ⟨1, _⟩ => show win4_1.index t (1 : Fin 2) * 64 + 1 * q.val = win4_2.index t (1 : Fin 2) * 64 + 1 * q.val; omega
  rw [h0, h1]

/-- What step `t` writes back is block `t` of `addBias agg bias`, the two arrays as the call finds them. -/
theorem writtenBack (c : Dev nD) (t : Fin cfg4.N) :
    (dat4 (F := Ideal) V c).flushed 2 t
      = ((cfg4.win 2).blk t).view.read (Elt Ideal) (addBias (V c main_v86) (V c main_v87)) := by
  show (cfg4.win 2).cut (grid4.coords t) ((dat4 (F := Ideal) V c).after 2 t) = _
  rw [after4_2]
  unfold out4_2
  rw [View.canon_unit_zero zeroOffsets]
  simp only [View.ld_unit_zero (S := S5000x64) zeroOffsets, View.ld_unit_zero (S := S1x64) zeroOffsets]
  funext j
  obtain ⟨p, q, rfl⟩ : ∃ (p : Fin 5000) (q : Fin 64), j = ix2 p q := ⟨j 0, j 1, eq_ix2 j⟩
  refine (bias_apply (iblk4 V c 1 t) (iblk4 V c 0 t) p q).trans ?_
  exact blockReads (V c main_v86) (V c main_v87) t p q

/-- An entry of the result lies in step `t`'s block iff, on each axis, its coordinate lies in the block's range. -/
theorem mem_block (t : Fin cfg4.N) (i : S100000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v88).slice (win4_2.rect t)).set ↔ _
  rw [View.set_slice_whole, Rect.mem_set_unit]
  exact Iff.rfl

/-- Every entry of the result is written by some step: row `r` by step `r / 5000`. -/
theorem covered (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 20 := N_4
  let t : Fin cfg4.N := ⟨(i 0).val / 5000, by omega⟩
  obtain ⟨e00, e01, e10, e11, e20, e21⟩ := blockIndex t
  refine ⟨t, flush4_2 t, ?_⟩
  rw [mem_block]
  intro a
  match a with
  | ⟨0, _⟩ =>
    show win4_2.index t (0 : Fin 2) * 5000 ≤ (i 0).val ∧ (i 0).val < win4_2.index t (0 : Fin 2) * 5000 + 5000
    rw [e20]
    show (i 0).val / 5000 * 5000 ≤ (i 0).val ∧ (i 0).val < (i 0).val / 5000 * 5000 + 5000
    omega
  | ⟨1, _⟩ =>
    show win4_2.index t (1 : Fin 2) * 64 ≤ (i 1).val ∧ (i 1).val < win4_2.index t (1 : Fin 2) * 64 + 64
    omega

end Region4

/-- The result array after the twenty steps of the fifth call: the aggregate plus the bias row, entry by entry; the
    two arrays as the call finds them. -/
theorem region4 (c : Dev nD) : (dat4 (F := Ideal) V c).arrAt 2 cfg4.N = addBias (V c main_v86) (V c main_v87) :=
  (dat4 (F := Ideal) V c).arrAt_eq_of_cover 2 (addBias (V c main_v86) (V c main_v87))
    (fun t _ => Region4.writtenBack V c t) Region4.covered

end Cert.KernelIdeal.RegionValue

end
-- ==== Proof.LibRowGatherScatter.lean ====
import Idealize.ShloMosaic.Lib.ValueIdx

/-!
# Row gathers and row scatters of a two-dimensional array along its first axis

What `h[src]` (rows of `h : [N, C]` picked by an integer vector `src : [E]`), `v[src]` (entries of `v : [N]`) and
`out.at[dst].add(m)` (rows of `m : [E, C]` accumulated into rows of `out : [N, C]`) mean as a gather and a scatter
whose start indices have been given a trailing axis of size one, `[E, 1]`, the index vector's axis.

* A gather CLAMPS its start index: result row `e` is operand row `min (max src[e] 0) (N - 1)`, the start index being
  read as a signed integer (the `toNat` of a negative integer is `0`).
* A scatter does NOT clamp: update row `e` lands on operand row `dst[e]` (read signed) when `0 ≤ dst[e] < N`, and is
  dropped otherwise. So an update that lands on row `r` has `dst[e] = r` exactly.
-/

open Idealize.ShloMosaic Idealize.ShloMosaic.ValueIdx

namespace Cert.Lib

/-! ## Gathering rows of `[N, C]` at start indices `[E, 1]` -/

section RowGather
variable {α : Type}

/-- The dimension numbers of a row gather: operand `[N, C]`, start indices `[E, 1]` (axis 1 the index vector's, of
    size one), result `[E, C]`. The one component of a start index addresses operand axis 0, which is collapsed (the
    slice has one row); operand axis 1 is taken whole (slice size `C`) and becomes result axis 1, the offset axis. The
    conditions `wf` on these numbers are decided once the extents are literals. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

set_option maxHeartbeats 400000 in
/-- THE ROW GATHER READ AT `(e, f)`: the operand at row `min (idx[e, 0] read signed, negatives to 0) (N − 1)` and
    column `f`. On axis 0 the operand coordinate is the clamped start index alone (that axis is collapsed, so it has
    no offset coordinate); on axis 1 the start is `0` (the start index has no component for it) and the offset
    coordinate is the result's column `f`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowGatherDims N E C wf) x idx (ix2 e f) =
      x (ix2 (⟨min (idx (ix2 e (0 : Fin 1))).toInt.toNat (N - 1), by omega⟩ : Fin N) f) := by
  unfold Host.gather
  congr 1
  funext a
  refine Fin.ext ?_
  show (rowGatherDims N E C wf).start (ix2 e f) idx a + (rowGatherDims N E C wf).batchCoord (ix2 e f) a
    + (rowGatherDims N E C wf).offCoord (ix2 e f) a = _
  rw [GatherDims.batchCoord_eq_zero _ _ _ List.not_mem_nil, Nat.add_zero]
  -- the start indices are read at `[e, 0]`: the result's batch coordinate `e`, and the only place on the index vector's axis
  have hsi : ∀ c, (rowGatherDims N E C wf).siIdx (ix2 e f) c = ix2 e (0 : Fin 1) := by
    intro c; funext b; refine Fin.ext ?_
    match b with
    | ⟨0, _⟩ => rfl
    | ⟨1, _⟩ => exact Nat.lt_one_iff.mp c.isLt
  match a with
  | ⟨0, h0⟩ =>
    have hm : (⟨0, h0⟩ : Fin 2) ∈ (rowGatherDims N E C wf).startIndexMap := List.mem_singleton.mpr rfl
    rw [GatherDims.offCoord_eq_zero _ _ _ (fun h => ((GatherDims.mem_sKept _ _).mp h).1 (List.mem_singleton.mpr rfl)),
      Nat.add_zero]
    unfold GatherDims.start
    rw [dif_pos hm, hsi]
    rfl
  | ⟨1, h1⟩ =>
    have hs : (rowGatherDims N E C wf).start (ix2 e f) idx ⟨1, h1⟩ = 0 := by
      unfold GatherDims.start
      rw [dif_neg (fun h => Nat.one_ne_zero (congrArg Fin.val (List.mem_singleton.mp h)))]
    have hm : (⟨1, h1⟩ : Fin 2) ∈ (rowGatherDims N E C wf).sKept :=
      (GatherDims.mem_sKept _ _).mpr
        ⟨fun h => Nat.one_ne_zero (congrArg Fin.val (List.mem_singleton.mp h)), List.not_mem_nil⟩
    rw [hs, Nat.zero_add]
    unfold GatherDims.offCoord
    rw [dif_pos hm]
    rfl

end RowGather

/-! ## Gathering entries of `[N]` at start indices `[E, 1]` -/

section VecGather
variable {α : Type}

/-- The dimension numbers of an entry gather: operand `[N]`, start indices `[E, 1]` (axis 1 the index vector's),
    result `[E]`. The one component of a start index addresses operand axis 0, which is collapsed; there is no offset
    axis. The conditions `wf` are decided once the extents are literals. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

set_option maxHeartbeats 400000 in
/-- THE ENTRY GATHER READ AT `e`: the operand at `min (idx[e, 0] read signed, negatives to 0) (N − 1)`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) =
      x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  have hsi : ∀ c, (vecGatherDims N E wf).siIdx (ix1 e) c = ix2 e (0 : Fin 1) := by
    intro c; funext b; refine Fin.ext ?_
    match b with
    | ⟨0, _⟩ => rfl
    | ⟨1, _⟩ => exact Nat.lt_one_iff.mp c.isLt
  unfold GatherDims.start
  rw [dif_pos (show (0 : Fin 1) ∈ (vecGatherDims N E wf).startIndexMap from List.mem_singleton.mpr rfl), hsi]
  rfl

end VecGather

/-! ## Scattering rows `[E, C]` into `[N, C]` at scatter indices `[E, 1]` -/

section RowScatter

/-- The dimension numbers of a row scatter: operand `[N, C]`, scatter indices `[E, 1]` (axis 1 the index vector's),
    updates `[E, C]`. The one component of a scatter index addresses operand axis 0, which is an inserted window axis
    (an update row covers one operand row); update axis 1 is the window axis and goes to operand axis 1. The conditions
    `wf` are decided once the extents are literals. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The scatter indices are read at `[e, 0]` for update `(e, f)`: the update's scatter coordinate `e`, and the only
    place on the index vector's axis. -/
theorem rowScatter_siIdx {N E C : Nat}
    (wf : ScatterDims.WF ⟨2, ![N, C]⟩ ⟨2, ![E, 1]⟩ ⟨2, ![E, C]⟩ [1] [0] [0] 1)
    (j : (⟨2, ![E, C]⟩ : Shape).Idx) (c : Fin (rowScatterDims N E C wf).scatterDimsToOperandDims.length) :
    (rowScatterDims N E C wf).siIdx j c = ix2 (⟨(j 0).val, idx2_lt0 j⟩ : Fin E) (0 : Fin 1) := by
  funext b; refine Fin.ext ?_
  match b with
  | ⟨0, _⟩ => rfl
  | ⟨1, _⟩ => exact Nat.lt_one_iff.mp c.isLt

/-- On operand axis 0 the window of update `(e, f)` starts at the scatter index `idx[e, 0]`, read signed and not
    clamped. -/
theorem rowScatter_start_zero {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (rowScatterDims N E C wf).start j idx (0 : Fin 2)
      = (idx (ix2 (⟨(j 0).val, idx2_lt0 j⟩ : Fin E) (0 : Fin 1))).toInt := by
  unfold ScatterDims.start
  rw [dif_pos (show (0 : Fin 2) ∈ (rowScatterDims N E C wf).scatterDimsToOperandDims from List.mem_singleton.mpr rfl),
    rowScatter_siIdx]

/-- On operand axis 1 the window starts at `0`: a scatter index has no component for that axis. -/
theorem rowScatter_start_one {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (rowScatterDims N E C wf).start j idx (1 : Fin 2) = 0 := by
  unfold ScatterDims.start
  rw [dif_neg (fun h => Nat.one_ne_zero (congrArg Fin.val (List.mem_singleton.mp h)))]

/-- The window coordinate on operand axis 0 is `0` (the axis is inserted: an update row is one operand row). -/
theorem rowScatter_window_zero {N E C : Nat}
    (wf : ScatterDims.WF ⟨2, ![N, C]⟩ ⟨2, ![E, 1]⟩ ⟨2, ![E, C]⟩ [1] [0] [0] 1)
    (j : (⟨2, ![E, C]⟩ : Shape).Idx) : (rowScatterDims N E C wf).window j (0 : Fin 2) = 0 := by
  unfold ScatterDims.window
  rw [dif_neg]
  intro hm
  have := (List.mem_filter.mp hm).2
  simp at this

/-- The window coordinate on operand axis 1 is the update's column. -/
theorem rowScatter_window_one {N E C : Nat}
    (wf : ScatterDims.WF ⟨2, ![N, C]⟩ ⟨2, ![E, 1]⟩ ⟨2, ![E, C]⟩ [1] [0] [0] 1)
    (j : (⟨2, ![E, C]⟩ : Shape).Idx) : (rowScatterDims N E C wf).window j (1 : Fin 2) = (j 1).val := by
  have hm : (1 : Fin 2) ∈ (rowScatterDims N E C wf).sKept := by
    refine List.mem_filter.mpr ⟨List.mem_finRange _, ?_⟩
    simp
  unfold ScatterDims.window
  rw [dif_pos hm]
  rfl

set_option maxHeartbeats 400000 in
/-- WHERE A ROW SCATTER'S UPDATE LANDS: if update `(e, f)` lands on operand element `(r, f')`, then the scatter index
    `idx[e, 0]`, read signed, is exactly `r` (no clamping: an index outside `[0, N)` drops the update instead), and
    `f = f'`. The landing row is `start + window = idx[e, 0] + 0` on axis 0, known to be non-negative, and the landing
    column is `0 + f` on axis 1. -/
theorem rowScatter_lands {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : (⟨2, ![N, C]⟩ : Shape).Idx)
    (h : (rowScatterDims N E C wf).resultIdx? j idx = some i) :
    (idx (ix2 (⟨(j 0).val, idx2_lt0 j⟩ : Fin E) (0 : Fin 1))).toInt = ((i 0).val : Int) ∧ (j 1).val = (i 1).val := by
  unfold ScatterDims.resultIdx? at h
  split at h
  · rename_i hb
    have hi := Option.some.inj h
    subst hi
    have hb0 := hb (0 : Fin 2)
    refine ⟨?_, ?_⟩
    · show _ = (((rowScatterDims N E C wf).start j idx (0 : Fin 2)
        + ((rowScatterDims N E C wf).window j (0 : Fin 2) : Int)).toNat : Int)
      rw [rowScatter_start_zero, rowScatter_window_zero] at hb0 ⊢
      omega
    · show _ = ((rowScatterDims N E C wf).start j idx (1 : Fin 2)
        + ((rowScatterDims N E C wf).window j (1 : Fin 2) : Int)).toNat
      rw [rowScatter_start_one, rowScatter_window_one]
      omega
  · exact absurd h (by simp)

/-- The converse: an update `(e, f)` whose scatter index `idx[e, 0]`, read signed, is the row `r < N` lands on
    `(r, f)` (here `C` columns on both sides, so the column is always inside). -/
theorem rowScatter_lands_of_eq {N E C w : Nat}
    (wf : ScatterDims.WF ⟨2, ![N, C]⟩ ⟨2, ![E, 1]⟩ ⟨2, ![E, C]⟩ [1] [0] [0] 1)
    (idx : IVec ⟨2, ![E, 1]⟩ w) (e : Fin E) (f : Fin C) (r : Fin N)
    (h : (idx (ix2 e (0 : Fin 1))).toInt = (r.val : Int)) :
    (rowScatterDims N E C wf).resultIdx? (ix2 e f) idx = some (ix2 r f) := by
  have hs0 : (rowScatterDims N E C wf).start (ix2 e f) idx (0 : Fin 2) = (r.val : Int) := by
    rw [rowScatter_start_zero]; exact h
  have hb : ∀ a : Fin 2, 0 ≤ (rowScatterDims N E C wf).start (ix2 e f) idx a + ((rowScatterDims N E C wf).window (ix2 e f) a : Int)
      ∧ (rowScatterDims N E C wf).start (ix2 e f) idx a + ((rowScatterDims N E C wf).window (ix2 e f) a : Int)
        < (((⟨2, ![N, C]⟩ : Shape).size a : Nat) : Int) := by
    intro a
    match a with
    | ⟨0, _⟩ =>
      show 0 ≤ (rowScatterDims N E C wf).start (ix2 e f) idx (0 : Fin 2) + ((rowScatterDims N E C wf).window (ix2 e f) (0 : Fin 2) : Int)
        ∧ (rowScatterDims N E C wf).start (ix2 e f) idx (0 : Fin 2) + ((rowScatterDims N E C wf).window (ix2 e f) (0 : Fin 2) : Int) < (N : Int)
      rw [hs0, rowScatter_window_zero]
      have := r.isLt
      omega
    | ⟨1, _⟩ =>
      show 0 ≤ (rowScatterDims N E C wf).start (ix2 e f) idx (1 : Fin 2) + ((rowScatterDims N E C wf).window (ix2 e f) (1 : Fin 2) : Int)
        ∧ (rowScatterDims N E C wf).start (ix2 e f) idx (1 : Fin 2) + ((rowScatterDims N E C wf).window (ix2 e f) (1 : Fin 2) : Int) < (C : Int)
      rw [rowScatter_start_one, rowScatter_window_one]
      have : ((ix2 e f) 1).val = f.val := rfl
      have := f.isLt
      omega
  unfold ScatterDims.resultIdx?
  rw [dif_pos hb]
  congr 1
  funext a; refine Fin.ext ?_
  match a with
  | ⟨0, _⟩ =>
    show ((rowScatterDims N E C wf).start (ix2 e f) idx (0 : Fin 2) + ((rowScatterDims N E C wf).window (ix2 e f) (0 : Fin 2) : Int)).toNat = r.val
    rw [hs0, rowScatter_window_zero]; omega
  | ⟨1, _⟩ =>
    show ((rowScatterDims N E C wf).start (ix2 e f) idx (1 : Fin 2) + ((rowScatterDims N E C wf).window (ix2 e f) (1 : Fin 2) : Int)).toNat = f.val
    rw [rowScatter_start_one, rowScatter_window_one]
    have : ((ix2 e f) 1).val = f.val := rfl
    omega

end RowScatter

end Cert.Lib
-- ==== Proof.LibBroadcastRead.lean ====
/-
  Three broadcasts read at an index, over extents that are natural-number variables: a vector made a
  one-column array, a one-column array spread along the lanes, and a scalar spread over any shape.
-/
import Idealize.ShloMosaic.Lib.Pipeline.Value
import Idealize.ShloMosaic.Lib.ValueIdx

noncomputable section

namespace Cert.Lib

open Idealize.ShloMosaic Idealize.ShloMosaic.ValueIdx

variable {α : Type}

/-- A vector of `N` entries made an `[N, 1]` array holds, in row `r`, the vector's entry `r`. -/
theorem bcastCol_apply {N : Nat} (h : (⟨1, ![N]⟩ : Shape).BroadcastsInDim ⟨2, ![N, 1]⟩ (![0] : Fin 1 → Fin 2))
    (x : (⟨1, ![N]⟩ : Shape).Idx → α) (i : (⟨2, ![N, 1]⟩ : Shape).Idx) :
    broadcastInDim ⟨2, ![N, 1]⟩ ![0] h x i = x (ix1 (⟨(i 0).val, idx2_lt0 i⟩ : Fin N)) := by
  refine broadcastInDim_apply _ h x i _ (fun a => ?_)
  match a with
  | ⟨0, _⟩ =>
    show (i 0).val = if N = 1 then 0 else (i 0).val
    split
    · have := idx2_lt0 i; omega
    · rfl

/-- An `[N, 1]` array spread along `C` lanes holds, at `(r, f)`, the column's entry for row `r`. -/
theorem bcastLanes_apply {N C : Nat} (h : (⟨2, ![N, 1]⟩ : Shape).BroadcastsInDim ⟨2, ![N, C]⟩ (![0, 1] : Fin 2 → Fin 2))
    (x : (⟨2, ![N, 1]⟩ : Shape).Idx → α) (i : (⟨2, ![N, C]⟩ : Shape).Idx) :
    broadcastInDim ⟨2, ![N, C]⟩ ![0, 1] h x i = x (ix2 (⟨(i 0).val, idx2_lt0 i⟩ : Fin N) (0 : Fin 1)) := by
  refine broadcastInDim_apply _ h x i _ (fun a => ?_)
  match a with
  | ⟨0, _⟩ =>
    show (i 0).val = if N = 1 then 0 else (i 0).val
    split
    · have := idx2_lt0 i; omega
    · rfl
  | ⟨1, _⟩ =>
    show 0 = if (1 : Nat) = 1 then 0 else (i 1).val
    rw [if_pos rfl]

/-- A scalar spread over a shape holds the scalar everywhere. -/
theorem bcastScalar_apply {t : Shape} (h : (⟨0, ![]⟩ : Shape).BroadcastsInDim t (![] : Fin 0 → Fin t.rank))
    (x : (⟨0, ![]⟩ : Shape).Idx → α) (i : t.Idx) :
    broadcastInDim t ![] h x i = x ix0 :=
  broadcastInDim_apply _ h x i _ (fun a => a.elim0)

end Cert.Lib

end
-- ==== Proof.LibScatterSum.lean ====
import Idealize.ShloMosaic.Lib.ValueIdx
import Idealize.ShloMosaic.Lib.Pipeline.Value
import Idealize.ShloMosaic.Lib.IdealHost
import Idealize.ShloMosaic.PureOps.Ideal
import Mathlib.Data.EReal.Operations
import proofs.«152042_j21002390077477_2_alg».proof.Proof.LibRowGatherScatter
import proofs.«152042_j21002390077477_2_alg».proof.Proof.LibBroadcastRead

/-!
# A row scatter-add read at an index, two vectors laid end to end, and the node numbers as signed words

* Accumulating the rows of `U : [E, C]` into the rows of `X : [N, C]` named by an integer column `idx : [E, 1]` gives,
  at `(r, f)`, the entry `X (r, f)` plus the sum over `e` of `U (e, f)` for those `e` whose index, read signed, is `r`:
  an update `(e, f')` lands on `(r, f)` exactly when its index is `r` and `f' = f`, so the sum over the pairs `(e, f')`
  that land there is a sum over `e` alone.
* A vector of `n` entries followed by one of `m` entries reads, at a position below `n`, the first vector there, and at a
  position `n + r` the second vector at `r`; a sum over the `n + m` positions is the sum over the first `n` plus the sum
  over the last `m`.
* The word that holds a natural number below `2 ^ 31` reads, signed, as that number; a non-negative word is left alone by
  "add `N` if negative".
-/

open Idealize.ShloMosaic Idealize.ShloMosaic.ValueIdx

namespace Cert.Lib

/-! ## The row scatter-add at `(r, f)` -/

/-- THE ROW SCATTER-ADD READ AT `(r, f)`: the operand's entry plus the sum, over the update rows `e` whose scatter index
    read signed is `r`, of the update's entry `(e, f)`. -/
theorem rowScatterAdd_apply {N E C w : Nat}
    (wf : ScatterDims.WF ⟨2, ![N, C]⟩ ⟨2, ![E, 1]⟩ ⟨2, ![E, C]⟩ [1] [0] [0] 1)
    (X : (⟨2, ![N, C]⟩ : Shape).Idx → EReal) (idx : IVec ⟨2, ![E, 1]⟩ w)
    (U : (⟨2, ![E, C]⟩ : Shape).Idx → EReal) (r : Fin N) (f : Fin C) :
    Ideal.hostScatterAdd (rowScatterDims N E C wf) X idx U (ix2 r f)
      = X (ix2 r f) + ∑ e : Fin E, if (idx (ix2 e (0 : Fin 1))).toInt = (r.val : Int) then U (ix2 e f) else 0 := by
  unfold Ideal.hostScatterAdd
  refine congrArg (X (ix2 r f) + ·) ?_
  rw [Finset.sum_filter, sum_idx2]
  refine Finset.sum_congr rfl (fun e _ => ?_)
  by_cases h : (idx (ix2 e (0 : Fin 1))).toInt = (r.val : Int)
  · -- the index of row `e` is `r`: of the entries `(e, f')` exactly `(e, f)` lands on `(r, f)`
    rw [if_pos h, Finset.sum_eq_single f]
    · rw [if_pos (rowScatter_lands_of_eq wf idx e f r h)]
    · intro b _ hb
      rw [if_neg]
      intro hl
      have := (rowScatter_lands wf idx (ix2 e b) (ix2 r f) hl).2
      exact hb (Fin.ext this)
    · intro hf; exact absurd (Finset.mem_univ f) hf
  · -- otherwise no entry of row `e` lands in row `r`
    rw [if_neg h]
    refine Finset.sum_eq_zero (fun b _ => ?_)
    rw [if_neg]
    intro hl
    exact h (rowScatter_lands wf idx (ix2 e b) (ix2 r f) hl).1

/-! ## Two vectors laid end to end -/

section Cat
variable {α : Type}

/-- A vector of `n` entries followed by one of `m` entries, read at a position `e < n`: the first vector at `e`. -/
theorem cat1_left {n m T : Nat}
    (h : Shape.Concatenates [(⟨1, ![n]⟩ : Shape), ⟨1, ![m]⟩] ⟨1, ![T]⟩ 0)
    (a : (⟨1, ![n]⟩ : Shape).Idx → α) (b : (⟨1, ![m]⟩ : Shape).Idx → α) (e : Fin n) (he : e.val < T) :
    concatenate ⟨1, ![T]⟩ 0 [⟨⟨1, ![n]⟩, a⟩, ⟨⟨1, ![m]⟩, b⟩] h (ix1 (⟨e.val, he⟩ : Fin T)) = a (ix1 e) :=
  concatenate_pair_apply_left 0 a b h _ rfl (ix1 e) (fun c => by match c with | ⟨0, _⟩ => rfl)

/-- … and read at a position `n + r` with `r < m`: the second vector at `r`. -/
theorem cat1_right {n m T : Nat}
    (h : Shape.Concatenates [(⟨1, ![n]⟩ : Shape), ⟨1, ![m]⟩] ⟨1, ![T]⟩ 0)
    (a : (⟨1, ![n]⟩ : Shape).Idx → α) (b : (⟨1, ![m]⟩ : Shape).Idx → α) (r : Fin m) (hr : n + r.val < T) :
    concatenate ⟨1, ![T]⟩ 0 [⟨⟨1, ![n]⟩, a⟩, ⟨⟨1, ![m]⟩, b⟩] h (ix1 (⟨n + r.val, hr⟩ : Fin T)) = b (ix1 r) :=
  concatenate_pair_apply_right 0 a b h _ rfl rfl (ix1 r)
    (fun c hc => absurd (Subsingleton.elim _ _) hc)
    (by show r.val + n = n + r.val; omega)

end Cat

/-- A sum over `n + m` positions is the sum over the first `n` plus the sum over the last `m`. -/
theorem sum_fin_split {M : Type*} [AddCommMonoid M] {n m T : Nat} (hT : T = n + m) (g : Fin T → M) :
    ∑ x : Fin T, g x
      = ∑ e : Fin n, g ⟨e.val, by have := e.isLt; omega⟩ + ∑ r : Fin m, g ⟨n + r.val, by have := r.isLt; omega⟩ := by
  subst hT
  rw [Fin.sum_univ_add]
  rfl

/-! ## Node numbers as signed words -/

/-- The 32-bit word that holds a natural number below `2 ^ 31` reads, signed, as that number. -/
theorem toInt_ofNat_of_lt {n : Nat} (h : n < 2 ^ 31) : (BitVec.ofNat 32 n).toInt = (n : Int) := by
  have h1 : (BitVec.ofNat 32 n).toNat = n := by
    rw [BitVec.toNat_ofNat]; exact Nat.mod_eq_of_lt (by omega)
  rw [BitVec.toInt_eq_toNat_of_lt (by rw [h1]; omega), h1]

/-- "Add `k` if negative" leaves a word that reads non-negative as it is. -/
theorem wrap_of_nonneg (x k : BitVec 32) (h : 0 ≤ x.toInt) :
    Scalar.select (IntOp.cmpi .slt x 0#32) (IntOp.addi x k) x = x := by
  have hs : x.slt 0#32 = false := by
    rw [BitVec.slt]
    exact decide_eq_false (by rw [BitVec.toInt_zero]; omega)
  show Scalar.select (BitVec.ofBool (x.slt 0#32)) (IntOp.addi x k) x = x
  rw [hs]
  exact select_zero _ _

/-! ## Gather rows, weight them, accumulate them -/

/-- The row a gather reads for a start index `x`: `x` read signed, negatives to `0`, at most `N - 1`. -/
abbrev clampRow {N w : Nat} (hN : 0 < N) (x : BitVec w) : Fin N := ⟨min x.toInt.toNat (N - 1), by omega⟩

/-- Rows of `H : [N, C]` picked by the column `srcc : [E, 1]`, each multiplied by its weight `wc : [E, 1]` spread along the
    lanes, accumulated into `X : [N, C]` at the rows named by `dstc : [E, 1]`, read at `(r, f)`: the entry `X (r, f)` plus
    the sum over the `e` whose target is `r` of `H (source row of e, f) · weight e`. -/
theorem gatherScaleScatter_apply {N E C w w' : Nat} (hN : 0 < N)
    (wfG : GatherDims.WF ⟨2, ![N, C]⟩ ⟨2, ![E, 1]⟩ ⟨2, ![E, C]⟩ [1] [0] [] [0] [] 1 ![1, C])
    (wfS : ScatterDims.WF ⟨2, ![N, C]⟩ ⟨2, ![E, 1]⟩ ⟨2, ![E, C]⟩ [1] [0] [0] 1)
    (hl : (⟨2, ![E, 1]⟩ : Shape).BroadcastsInDim ⟨2, ![E, C]⟩ (![0, 1] : Fin 2 → Fin 2))
    (X H : (⟨2, ![N, C]⟩ : Shape).Idx → EReal) (dstc : IVec ⟨2, ![E, 1]⟩ w) (srcc : IVec ⟨2, ![E, 1]⟩ w')
    (wc : (⟨2, ![E, 1]⟩ : Shape).Idx → EReal) (r : Fin N) (f : Fin C) :
    Ideal.hostScatterAdd (rowScatterDims N E C wfS) X dstc
        (fun j => Host.gather (rowGatherDims N E C wfG) H srcc j * broadcastInDim ⟨2, ![E, C]⟩ ![0, 1] hl wc j) (ix2 r f)
      = X (ix2 r f) + ∑ e : Fin E, if (dstc (ix2 e (0 : Fin 1))).toInt = (r.val : Int)
          then H (ix2 (clampRow hN (srcc (ix2 e (0 : Fin 1)))) f) * wc (ix2 e (0 : Fin 1)) else 0 := by
  rw [rowScatterAdd_apply]
  refine congrArg (X (ix2 r f) + ·) (Finset.sum_congr rfl (fun e _ => ?_))
  rw [rowGather_apply hN, bcastLanes_apply]
  rfl

/-- A vector made a one-column array, read at `(e, 0)`: the vector's entry `e`. -/
theorem bcastCol_ix2 {α : Type} {N : Nat} (h : (⟨1, ![N]⟩ : Shape).BroadcastsInDim ⟨2, ![N, 1]⟩ (![0] : Fin 1 → Fin 2))
    (x : (⟨1, ![N]⟩ : Shape).Idx → α) (e : Fin N) :
    broadcastInDim ⟨2, ![N, 1]⟩ ![0] h x (ix2 e (0 : Fin 1)) = x (ix1 e) :=
  bcastCol_apply h x _

/-! ## An edge list followed by the self-loops -/

/-- THE SELF-LOOPS FOLDED INTO THE EDGE LIST. Let `T = E + N` positions carry targets `dA`, sources `sA` and weights `wA`:
    the first `E` those of the edges (`d`, `s`, `w`), position `E + r'` the loop at node `r'` (target and source the word
    holding `r'`, weight `sw r'`). Then the sum over all positions whose target is `r` is the sum over the edges whose target
    is `r` plus the single loop term `H (r, f) · sw r`: the word holding `r'` reads as `r'`, so the loop at `r'` has target
    `r` only for `r' = r`, and its source row is `r` itself (`0 ≤ r ≤ N - 1`, so nothing is clamped). -/
theorem sum_edges_then_loops {N E T C : Nat} (hT : T = E + N) (hN : 0 < N) (hN31 : N < 2 ^ 31)
    (H : (⟨2, ![N, C]⟩ : Shape).Idx → EReal)
    (dA sA : Fin T → BitVec 32) (wA : Fin T → EReal)
    (d s : Fin E → BitVec 32) (w : Fin E → EReal) (sw : Fin N → EReal)
    (hdL : ∀ e : Fin E, dA ⟨e.val, by have := e.isLt; omega⟩ = d e)
    (hdR : ∀ r : Fin N, dA ⟨E + r.val, by have := r.isLt; omega⟩ = BitVec.ofNat 32 r.val)
    (hsL : ∀ e : Fin E, sA ⟨e.val, by have := e.isLt; omega⟩ = s e)
    (hsR : ∀ r : Fin N, sA ⟨E + r.val, by have := r.isLt; omega⟩ = BitVec.ofNat 32 r.val)
    (hwL : ∀ e : Fin E, wA ⟨e.val, by have := e.isLt; omega⟩ = w e)
    (hwR : ∀ r : Fin N, wA ⟨E + r.val, by have := r.isLt; omega⟩ = sw r) (r : Fin N) (f : Fin C) :
    (∑ t : Fin T, if (dA t).toInt = (r.val : Int) then H (ix2 (clampRow hN (sA t)) f) * wA t else 0)
      = (∑ e : Fin E, if (d e).toInt = (r.val : Int) then H (ix2 (clampRow hN (s e)) f) * w e else 0)
        + H (ix2 r f) * sw r := by
  rw [sum_fin_split hT]
  congr 1
  · refine Finset.sum_congr rfl (fun e _ => ?_)
    rw [hdL, hsL, hwL]
  · have hr31 : ∀ r' : Fin N, r'.val < 2 ^ 31 := fun r' => by have := r'.isLt; omega
    rw [Finset.sum_eq_single r]
    · rw [hdR, hsR, hwR, toInt_ofNat_of_lt (hr31 r), if_pos rfl]
      have : clampRow hN (BitVec.ofNat 32 r.val) = r := by
        refine Fin.ext ?_
        show min (BitVec.ofNat 32 r.val).toInt.toNat (N - 1) = r.val
        rw [toInt_ofNat_of_lt (hr31 r), Int.toNat_natCast]
        have := r.isLt; omega
      rw [this]
    · intro b _ hb
      rw [hdR, toInt_ofNat_of_lt (hr31 b), if_neg]
      intro h
      exact hb (Fin.ext (by exact_mod_cast h))
    · intro h; exact absurd (Finset.mem_univ r) h

end Cert.Lib
-- ==== Proof.AggExtents.lean ====
import proofs.«152042_j21002390077477_2_alg».proof.Proof.Spec
import proofs.«152042_j21002390077477_2_alg».proof.Proof.LibScatterSum

/-!
# A layer's aggregation as gather, weight, accumulate: over any extents

Gathering the source rows of `H : [N, C]`, multiplying each by its edge's weight and accumulating the products into the
target rows gives at `(r, f)` the sum, over the edges whose target is `r`, of `H (source, f) · weight`. Adding
`H (r, f) · selfw r` afterwards, or appending to the edge list one loop `(r', r')` of weight `selfw r'` per node (of which
exactly the loop at `r` has target `r`), gives the aggregation `agg` either way.
-/

noncomputable section

namespace Cert.Gcn

open Idealize.ShloMosaic Idealize.ShloMosaic.ValueIdx Cert.Lib

/-! ## Over any extents -/

section Extents
variable {N E C : Nat}

/-- Accumulating the weighted source rows over the `E` edges and then adding each row times its self-loop weight is `agg`. -/
theorem refAgg_apply (hN : 0 < N)
    (wfG : GatherDims.WF ⟨2, ![N, C]⟩ ⟨2, ![E, 1]⟩ ⟨2, ![E, C]⟩ [1] [0] [] [0] [] 1 ![1, C])
    (wfS : ScatterDims.WF ⟨2, ![N, C]⟩ ⟨2, ![E, 1]⟩ ⟨2, ![E, C]⟩ [1] [0] [0] 1)
    (hz : (⟨0, ![]⟩ : Shape).BroadcastsInDim ⟨2, ![N, C]⟩ (![] : Fin 0 → Fin 2))
    (hcE : (⟨1, ![E]⟩ : Shape).BroadcastsInDim ⟨2, ![E, 1]⟩ (![0] : Fin 1 → Fin 2))
    (hlE : (⟨2, ![E, 1]⟩ : Shape).BroadcastsInDim ⟨2, ![E, C]⟩ (![0, 1] : Fin 2 → Fin 2))
    (hcN : (⟨1, ![N]⟩ : Shape).BroadcastsInDim ⟨2, ![N, 1]⟩ (![0] : Fin 1 → Fin 2))
    (hlN : (⟨2, ![N, 1]⟩ : Shape).BroadcastsInDim ⟨2, ![N, C]⟩ (![0, 1] : Fin 2 → Fin 2))
    (z : (⟨0, ![]⟩ : Shape).Idx → EReal) (hz0 : z ix0 = 0)
    (H : Mat N C) (dst srcw : IVec ⟨1, ![E]⟩ 32) (coef : (⟨1, ![E]⟩ : Shape).Idx → EReal)
    (selfw : (⟨1, ![N]⟩ : Shape).Idx → EReal) (r : Fin N) (f : Fin C) :
    Ideal.hostScatterAdd (rowScatterDims N E C wfS) (broadcastInDim ⟨2, ![N, C]⟩ ![] hz z)
        (broadcastInDim ⟨2, ![E, 1]⟩ ![0] hcE dst)
        (fun j => Host.gather (rowGatherDims N E C wfG) H (broadcastInDim ⟨2, ![E, 1]⟩ ![0] hcE srcw) j
          * broadcastInDim ⟨2, ![E, C]⟩ ![0, 1] hlE (broadcastInDim ⟨2, ![E, 1]⟩ ![0] hcE coef) j) (ix2 r f)
      + H (ix2 r f) * broadcastInDim ⟨2, ![N, C]⟩ ![0, 1] hlN (broadcastInDim ⟨2, ![N, 1]⟩ ![0] hcN selfw) (ix2 r f)
    = agg (fun e => (dst (ix1 e)).toInt) (fun e => clampRow hN (srcw (ix1 e))) (fun e => coef (ix1 e))
        (fun r' => selfw (ix1 r')) H (ix2 r f) := by
  rw [gatherScaleScatter_apply hN, bcastScalar_apply, hz0, zero_add, bcastLanes_apply, bcastCol_apply]
  unfold agg
  refine congrArg₂ (· + ·) (Finset.sum_congr rfl (fun e _ => ?_)) rfl
  rw [bcastCol_ix2, bcastCol_ix2, bcastCol_ix2]
  rfl

/-- Accumulating the weighted source rows over `T = E + N` positions, the `E` edges followed by one loop per node, is `agg`
    over the edges with the loops' weights as self-loop weights. -/
theorem augAgg_apply {T : Nat} (hT : T = E + N) (hN : 0 < N) (hN31 : N < 2 ^ 31)
    (wfG : GatherDims.WF ⟨2, ![N, C]⟩ ⟨2, ![T, 1]⟩ ⟨2, ![T, C]⟩ [1] [0] [] [0] [] 1 ![1, C])
    (wfS : ScatterDims.WF ⟨2, ![N, C]⟩ ⟨2, ![T, 1]⟩ ⟨2, ![T, C]⟩ [1] [0] [0] 1)
    (hz : (⟨0, ![]⟩ : Shape).BroadcastsInDim ⟨2, ![N, C]⟩ (![] : Fin 0 → Fin 2))
    (hcT : (⟨1, ![T]⟩ : Shape).BroadcastsInDim ⟨2, ![T, 1]⟩ (![0] : Fin 1 → Fin 2))
    (hlT : (⟨2, ![T, 1]⟩ : Shape).BroadcastsInDim ⟨2, ![T, C]⟩ (![0, 1] : Fin 2 → Fin 2))
    (z : (⟨0, ![]⟩ : Shape).Idx → EReal) (hz0 : z ix0 = 0)
    (H : Mat N C) (dA sA : IVec ⟨1, ![T]⟩ 32) (wA : (⟨1, ![T]⟩ : Shape).Idx → EReal)
    (d s : IVec ⟨1, ![E]⟩ 32) (w : (⟨1, ![E]⟩ : Shape).Idx → EReal) (sw : (⟨1, ![N]⟩ : Shape).Idx → EReal)
    (hdL : ∀ e : Fin E, dA (ix1 (⟨e.val, by have := e.isLt; omega⟩ : Fin T)) = d (ix1 e))
    (hdR : ∀ r : Fin N, dA (ix1 (⟨E + r.val, by have := r.isLt; omega⟩ : Fin T)) = BitVec.ofNat 32 r.val)
    (hsL : ∀ e : Fin E, sA (ix1 (⟨e.val, by have := e.isLt; omega⟩ : Fin T)) = s (ix1 e))
    (hsR : ∀ r : Fin N, sA (ix1 (⟨E + r.val, by have := r.isLt; omega⟩ : Fin T)) = BitVec.ofNat 32 r.val)
    (hwL : ∀ e : Fin E, wA (ix1 (⟨e.val, by have := e.isLt; omega⟩ : Fin T)) = w (ix1 e))
    (hwR : ∀ r : Fin N, wA (ix1 (⟨E + r.val, by have := r.isLt; omega⟩ : Fin T)) = sw (ix1 r))
    (r : Fin N) (f : Fin C) :
    Ideal.hostScatterAdd (rowScatterDims N T C wfS) (broadcastInDim ⟨2, ![N, C]⟩ ![] hz z)
        (broadcastInDim ⟨2, ![T, 1]⟩ ![0] hcT dA)
        (fun j => Host.gather (rowGatherDims N T C wfG) H (broadcastInDim ⟨2, ![T, 1]⟩ ![0] hcT sA) j
          * broadcastInDim ⟨2, ![T, C]⟩ ![0, 1] hlT (broadcastInDim ⟨2, ![T, 1]⟩ ![0] hcT wA) j) (ix2 r f)
    = agg (fun e => (d (ix1 e)).toInt) (fun e => clampRow hN (s (ix1 e))) (fun e => w (ix1 e))
        (fun r' => sw (ix1 r')) H (ix2 r f) := by
  rw [gatherScaleScatter_apply hN, bcastScalar_apply, hz0, zero_add]
  unfold agg
  refine Eq.trans (Finset.sum_congr rfl (fun t _ => ?_))
    (sum_edges_then_loops hT hN hN31 H (fun t => dA (ix1 t)) (fun t => sA (ix1 t)) (fun t => wA (ix1 t))
      (fun e => d (ix1 e)) (fun e => s (ix1 e)) (fun e => w (ix1 e)) (fun r' => sw (ix1 r'))
      hdL hdR hsL hsR hwL hwR r f)
  rw [bcastCol_ix2, bcastCol_ix2, bcastCol_ix2]

/-! ### The same two facts with the operations spelt as the programs spell them -/

/-- `refAgg_apply` with the accumulation, the product and the final sum spelt as array operations. -/
theorem refAgg_read (hN : 0 < N)
    (wfG : GatherDims.WF ⟨2, ![N, C]⟩ ⟨2, ![E, 1]⟩ ⟨2, ![E, C]⟩ [1] [0] [] [0] [] 1 ![1, C])
    (wfS : ScatterDims.WF ⟨2, ![N, C]⟩ ⟨2, ![E, 1]⟩ ⟨2, ![E, C]⟩ [1] [0] [0] 1)
    (hz : (⟨0, ![]⟩ : Shape).BroadcastsInDim ⟨2, ![N, C]⟩ (![] : Fin 0 → Fin 2))
    (hcE : (⟨1, ![E]⟩ : Shape).BroadcastsInDim ⟨2, ![E, 1]⟩ (![0] : Fin 1 → Fin 2))
    (hlE : (⟨2, ![E, 1]⟩ : Shape).BroadcastsInDim ⟨2, ![E, C]⟩ (![0, 1] : Fin 2 → Fin 2))
    (hcN : (⟨1, ![N]⟩ : Shape).BroadcastsInDim ⟨2, ![N, 1]⟩ (![0] : Fin 1 → Fin 2))
    (hlN : (⟨2, ![N, 1]⟩ : Shape).BroadcastsInDim ⟨2, ![N, C]⟩ (![0, 1] : Fin 2 → Fin 2))
    (z : FVec Ideal ⟨0, ![]⟩ .f32) (hz0 : z ix0 = 0)
    (H : FVec Ideal ⟨2, ![N, C]⟩ .f32) (dst srcw : IVec ⟨1, ![E]⟩ 32) (coef : FVec Ideal ⟨1, ![E]⟩ .f32)
    (selfw : FVec Ideal ⟨1, ![N]⟩ .f32) (r : Fin N) (f : Fin C) :
    addf
      (Host.scatterAdd (F := Ideal) (rowScatterDims N E C wfS) (broadcastInDim ⟨2, ![N, C]⟩ ![] hz z)
        (broadcastInDim ⟨2, ![E, 1]⟩ ![0] hcE dst)
        (mulf (Host.gather (rowGatherDims N E C wfG) H (broadcastInDim ⟨2, ![E, 1]⟩ ![0] hcE srcw))
          (broadcastInDim ⟨2, ![E, C]⟩ ![0, 1] hlE (broadcastInDim ⟨2, ![E, 1]⟩ ![0] hcE coef))))
      (mulf H (broadcastInDim ⟨2, ![N, C]⟩ ![0, 1] hlN (broadcastInDim ⟨2, ![N, 1]⟩ ![0] hcN selfw))) (ix2 r f)
    = agg (fun e => (dst (ix1 e)).toInt) (fun e => clampRow hN (srcw (ix1 e))) (fun e => coef (ix1 e))
        (fun r' => selfw (ix1 r')) H (ix2 r f) :=
  refAgg_apply hN wfG wfS hz hcE hlE hcN hlN z hz0 H dst srcw coef selfw r f

/-- `augAgg_apply` with the accumulation and the product spelt as array operations, the rows being gathered through a copy
    of `H` in a narrower format and widened again (on extended reals both conversions are the identity). -/
theorem augAgg_read {T : Nat} (hT : T = E + N) (hN : 0 < N) (hN31 : N < 2 ^ 31)
    (wfG : GatherDims.WF ⟨2, ![N, C]⟩ ⟨2, ![T, 1]⟩ ⟨2, ![T, C]⟩ [1] [0] [] [0] [] 1 ![1, C])
    (wfS : ScatterDims.WF ⟨2, ![N, C]⟩ ⟨2, ![T, 1]⟩ ⟨2, ![T, C]⟩ [1] [0] [0] 1)
    (hz : (⟨0, ![]⟩ : Shape).BroadcastsInDim ⟨2, ![N, C]⟩ (![] : Fin 0 → Fin 2))
    (hcT : (⟨1, ![T]⟩ : Shape).BroadcastsInDim ⟨2, ![T, 1]⟩ (![0] : Fin 1 → Fin 2))
    (hlT : (⟨2, ![T, 1]⟩ : Shape).BroadcastsInDim ⟨2, ![T, C]⟩ (![0, 1] : Fin 2 → Fin 2))
    (hb : (FTy.bf16).bits < (FTy.f32).bits)
    (z : FVec Ideal ⟨0, ![]⟩ .f32) (hz0 : z ix0 = 0)
    (H : FVec Ideal ⟨2, ![N, C]⟩ .f32) (dA sA : IVec ⟨1, ![T]⟩ 32) (wA : FVec Ideal ⟨1, ![T]⟩ .f32)
    (d s : IVec ⟨1, ![E]⟩ 32) (w : FVec Ideal ⟨1, ![E]⟩ .f32) (sw : FVec Ideal ⟨1, ![N]⟩ .f32)
    (hdL : ∀ e : Fin E, dA (ix1 (⟨e.val, by have := e.isLt; omega⟩ : Fin T)) = d (ix1 e))
    (hdR : ∀ r : Fin N, dA (ix1 (⟨E + r.val, by have := r.isLt; omega⟩ : Fin T)) = BitVec.ofNat 32 r.val)
    (hsL : ∀ e : Fin E, sA (ix1 (⟨e.val, by have := e.isLt; omega⟩ : Fin T)) = s (ix1 e))
    (hsR : ∀ r : Fin N, sA (ix1 (⟨E + r.val, by have := r.isLt; omega⟩ : Fin T)) = BitVec.ofNat 32 r.val)
    (hwL : ∀ e : Fin E, wA (ix1 (⟨e.val, by have := e.isLt; omega⟩ : Fin T)) = w (ix1 e))
    (hwR : ∀ r : Fin N, wA (ix1 (⟨E + r.val, by have := r.isLt; omega⟩ : Fin T)) = sw (ix1 r))
    (r : Fin N) (f : Fin C) :
    Host.scatterAdd (F := Ideal) (rowScatterDims N T C wfS) (broadcastInDim ⟨2, ![N, C]⟩ ![] hz z)
        (broadcastInDim ⟨2, ![T, 1]⟩ ![0] hcT dA)
        (mulf
          (extf .f32 (Host.gather (rowGatherDims N T C wfG) (truncf .bf16 H hb)
            (broadcastInDim ⟨2, ![T, 1]⟩ ![0] hcT sA)) hb)
          (broadcastInDim ⟨2, ![T, C]⟩ ![0, 1] hlT (broadcastInDim ⟨2, ![T, 1]⟩ ![0] hcT wA))) (ix2 r f)
    = agg (fun e => (d (ix1 e)).toInt) (fun e => clampRow hN (s (ix1 e))) (fun e => w (ix1 e))
        (fun r' => sw (ix1 r')) H (ix2 r f) :=
  augAgg_apply hT hN hN31 wfG wfS hz hcT hlT z hz0 H dA sA wA d s w sw hdL hdR hsL hsR hwL hwR r f

end Extents

end Cert.Gcn

end
-- ==== Proof.AggRead.lean ====
import proofs.«152042_j21002390077477_2_alg».proof.Proof.Layers
import proofs.«152042_j21002390077477_2_alg».proof.Proof.AggExtents

/-!
# The two programs' aggregations are the aggregation `agg`

The reference accumulates the weighted source rows over the edges and adds each row times its self-loop weight; the kernel
accumulates over the edges followed by one loop per node. Both are instances, at `N = 100000` nodes and `E = 1600000`
edges, of the facts proved over any extents; what is left here is to read the programs' index vectors entry by entry: the
kernel's lists are the edges' entries followed by the node numbers (targets and sources) and the self-loop weights.
-/

noncomputable section

namespace Cert.Gcn

open Idealize.ShloMosaic Idealize.ShloMosaic.ValueIdx Cert.Lib

variable [Cert.KernelIdeal.Facts] [Cert.ReferenceIdeal.Facts]

/-! ## The index views are the programs' vectors read entry by entry -/

theorem tgt_eq (ei : IVec Cert.KernelIdeal.S2x1600000 32) :
    (fun e : Fin 1600000 => (dstR ei (ix1 e)).toInt) = tgt ei := rfl
theorem srcN_eq (ei : IVec Cert.KernelIdeal.S2x1600000 32) (hN : 0 < 100000) :
    (fun e : Fin 1600000 => clampRow (N := 100000) hN (wrapR (srcR ei) (ix1 e))) = srcN ei := rfl
theorem coefV_eq (ei : IVec Cert.KernelIdeal.S2x1600000 32) :
    (fun e : Fin 1600000 => coefR ei (ix1 e)) = coefV ei := rfl
theorem selfV_eq (ei : IVec Cert.KernelIdeal.S2x1600000 32) :
    (fun r : Fin 100000 => selfR ei (ix1 r)) = selfV ei := rfl

/-! ## The reference -/

/-- The reference's aggregation over the edges plus its self-loop term is the aggregation `agg` (64 lanes). -/
theorem aggR64_eq (ei : IVec Cert.KernelIdeal.S2x1600000 32) (H : FVec Ideal Cert.ReferenceIdeal.S100000x64 .f32) :
    aggR64 ei H = agg (tgt ei) (srcN ei) (coefV ei) (selfV ei) H := by
  funext i
  obtain ⟨r, f, rfl⟩ : ∃ (r : Fin 100000) (f : Fin 64), i = ix2 r f := ⟨i 0, i 1, eq_ix2 i⟩
  have hN : 0 < 100000 := by norm_num
  have h := refAgg_read (N := 100000) (E := 1600000) (C := 64) hN
    Cert.ReferenceIdeal.Facts₀.gather_S100000x64_S1600000x1_S1600000x64_1_0_n_n_0_1_164_wf
    Cert.ReferenceIdeal.Facts₀.scatter_S100000x64_S1600000x1_S1600000x64_1_0_0_1_wf
    Cert.ReferenceIdeal.Facts₀.bcast_S_S100000x64 Cert.ReferenceIdeal.Facts₀.bcast_S1600000_S1600000x1_0 Cert.ReferenceIdeal.Facts₀.bcast_S1600000x1_S1600000x64_0_1
    Cert.ReferenceIdeal.Facts₀.bcast_S100000_S100000x1_0 Cert.ReferenceIdeal.Facts₀.bcast_S100000x1_S100000x64_0_1
    (constant (F := Ideal) Cert.ReferenceIdeal.S_ .f32 0x00000000#32) Ideal.ofBits_zero_f32
    H (dstR ei) (wrapR (srcR ei)) (coefR ei) (selfR ei) r f
  rw [tgt_eq, srcN_eq, coefV_eq, selfV_eq] at h
  unfold aggR64
  exact h

/-- … and over 128 lanes. -/
theorem aggR128_eq (ei : IVec Cert.KernelIdeal.S2x1600000 32) (H : FVec Ideal Cert.ReferenceIdeal.S100000x128 .f32) :
    aggR128 ei H = agg (tgt ei) (srcN ei) (coefV ei) (selfV ei) H := by
  funext i
  obtain ⟨r, f, rfl⟩ : ∃ (r : Fin 100000) (f : Fin 128), i = ix2 r f := ⟨i 0, i 1, eq_ix2 i⟩
  have hN : 0 < 100000 := by norm_num
  have h := refAgg_read (N := 100000) (E := 1600000) (C := 128) hN
    Cert.ReferenceIdeal.Facts₀.gather_S100000x128_S1600000x1_S1600000x128_1_0_n_n_0_1_1128_wf
    Cert.ReferenceIdeal.Facts₀.scatter_S100000x128_S1600000x1_S1600000x128_1_0_0_1_wf
    Cert.ReferenceIdeal.Facts₀.bcast_S_S100000x128 Cert.ReferenceIdeal.Facts₀.bcast_S1600000_S1600000x1_0 Cert.ReferenceIdeal.Facts₀.bcast_S1600000x1_S1600000x128_0_1
    Cert.ReferenceIdeal.Facts₀.bcast_S100000_S100000x1_0 Cert.ReferenceIdeal.Facts₀.bcast_S100000x1_S100000x128_0_1
    (constant (F := Ideal) Cert.ReferenceIdeal.S_ .f32 0x00000000#32) Ideal.ofBits_zero_f32
    H (dstR ei) (wrapR (srcR ei)) (coefR ei) (selfR ei) r f
  rw [tgt_eq, srcN_eq, coefV_eq, selfV_eq] at h
  unfold aggR128
  exact h

/-! ## The kernel -/

/-- The edges' entries followed by the nodes' entries, read at an edge's position. -/
theorem catI_left (a : IVec Cert.KernelIdeal.S1600000 32) (b : IVec Cert.KernelIdeal.S100000 32) (e : Fin 1600000) :
    catI a b (ix1 (⟨e.val, by have := e.isLt; omega⟩ : Fin 1700000)) = a (ix1 e) :=
  cat1_left _ a b e _
/-- … and at the position of node `r`'s loop. -/
theorem catI_right (a : IVec Cert.KernelIdeal.S1600000 32) (b : IVec Cert.KernelIdeal.S100000 32) (r : Fin 100000) :
    catI a b (ix1 (⟨1600000 + r.val, by have := r.isLt; omega⟩ : Fin 1700000)) = b (ix1 r) :=
  cat1_right _ a b r _
/-- The same for the weights. -/
theorem catF_left (a : FVec Ideal Cert.KernelIdeal.S1600000 .f32) (b : FVec Ideal Cert.KernelIdeal.S100000 .f32)
    (e : Fin 1600000) : catF a b (ix1 (⟨e.val, by have := e.isLt; omega⟩ : Fin 1700000)) = a (ix1 e) :=
  cat1_left _ a b e _
theorem catF_right (a : FVec Ideal Cert.KernelIdeal.S1600000 .f32) (b : FVec Ideal Cert.KernelIdeal.S100000 .f32)
    (r : Fin 100000) : catF a b (ix1 (⟨1600000 + r.val, by have := r.isLt; omega⟩ : Fin 1700000)) = b (ix1 r) :=
  cat1_right _ a b r _

/-- Entry `r` of the node numbers is the word holding `r`. -/
theorem iotaK_apply (r : Fin 100000) : iotaK (ix1 r) = BitVec.ofNat 32 r.val := rfl

/-- Wrapping, entry by entry: `v + N` where `v` reads negative, else `v`. -/
theorem wrapK_apply (v : IVec Cert.KernelIdeal.S1600000 32) (i : Cert.KernelIdeal.S1600000.Idx) :
    wrapK v i = Scalar.select (IntOp.cmpi .slt (v i) 0#32) (IntOp.addi (v i) 100000#32) (v i) := rfl
theorem wrapAugK_apply (v : IVec Cert.KernelIdeal.S1700000 32) (i : Cert.KernelIdeal.S1700000.Idx) :
    wrapAugK v i = Scalar.select (IntOp.cmpi .slt (v i) 0#32) (IntOp.addi (v i) 100000#32) (v i) := rfl

theorem tgtK_eq (ei : IVec Cert.KernelIdeal.S2x1600000 32) :
    (fun e : Fin 1600000 => (dstK ei (ix1 e)).toInt) = tgt ei := rfl
theorem srcNK_eq (ei : IVec Cert.KernelIdeal.S2x1600000 32) (hN : 0 < 100000) :
    (fun e : Fin 1600000 => clampRow (N := 100000) hN (wrapK (srcK ei) (ix1 e))) = srcN ei := rfl
theorem coefVK_eq (ei : IVec Cert.KernelIdeal.S2x1600000 32) :
    (fun e : Fin 1600000 => coefK ei (ix1 e)) = coefV ei := rfl
theorem selfVK_eq (ei : IVec Cert.KernelIdeal.S2x1600000 32) :
    (fun r : Fin 100000 => selfK ei (ix1 r)) = selfV ei := rfl

/-- The kernel's aggregation over the edges followed by the self-loops is the aggregation `agg`. -/
theorem aggK_eq (ei : IVec Cert.KernelIdeal.S2x1600000 32) (H : FVec Ideal Cert.KernelIdeal.S100000x64 .f32) :
    aggK ei H = agg (tgt ei) (srcN ei) (coefV ei) (selfV ei) H := by
  funext i
  obtain ⟨r, f, rfl⟩ : ∃ (r : Fin 100000) (f : Fin 64), i = ix2 r f := ⟨i 0, i 1, eq_ix2 i⟩
  have hN : 0 < 100000 := by norm_num
  have h := augAgg_read (N := 100000) (E := 1600000) (C := 64) (T := 1700000) (by norm_num) hN (by norm_num)
    Cert.KernelIdeal.Facts₀.gather_S100000x64_S1700000x1_S1700000x64_1_0_n_n_0_1_164_wf
    Cert.KernelIdeal.Facts₀.scatter_S100000x64_S1700000x1_S1700000x64_1_0_0_1_wf
    Cert.KernelIdeal.Facts₀.bcast_S_S100000x64 Cert.KernelIdeal.Facts₀.bcast_S1700000_S1700000x1_0 Cert.KernelIdeal.Facts₀.bcast_S1700000x1_S1700000x64_0_1
    Cert.KernelIdeal.Facts₀.bitsLt_bf16_f32
    (constant (F := Ideal) Cert.KernelIdeal.S_ .f32 0x00000000#32) Ideal.ofBits_zero_f32
    H (catI (dstK ei) iotaK) (wrapAugK (catI (srcK ei) iotaK)) (catF (coefK ei) (selfK ei))
    (dstK ei) (wrapK (srcK ei)) (coefK ei) (selfK ei)
    (fun e => catI_left _ _ e)
    (fun r' => (catI_right _ _ r').trans (iotaK_apply r'))
    (fun e => by rw [wrapAugK_apply, catI_left, wrapK_apply])
    (fun r' => by
      -- the loop's source is the word holding `r'`, which reads non-negative, so wrapping leaves it
      rw [wrapAugK_apply, catI_right, iotaK_apply]
      exact wrap_of_nonneg _ _ (by rw [toInt_ofNat_of_lt (by have := r'.isLt; omega)]; omega))
    (fun e => catF_left _ _ e)
    (fun r' => catF_right _ _ r')
    r f
  rw [tgtK_eq, srcNK_eq, coefVK_eq, selfVK_eq] at h
  unfold aggK
  exact h

end Cert.Gcn

end
-- ==== Proof.KernelValue.lean ====
import proofs.«152042_j21002390077477_2_alg».proof.Proof.KernelWalk
import proofs.«152042_j21002390077477_2_alg».proof.Proof.Region0
import proofs.«152042_j21002390077477_2_alg».proof.Proof.Region1
import proofs.«152042_j21002390077477_2_alg».proof.Proof.Region2
import proofs.«152042_j21002390077477_2_alg».proof.Proof.Region3
import proofs.«152042_j21002390077477_2_alg».proof.Proof.Region4
import proofs.«152042_j21002390077477_2_alg».proof.Proof.Model
import proofs.«152042_j21002390077477_2_alg».proof.Proof.AggRead
import proofs.«152042_j21002390077477_2_alg».proof.Proof.Gen.ReferenceIdeal
import Idealize.ShloMosaic.Lib.ValueLayout

/-!
# The kernel program's result

Following the run from the launch to the return: the first call leaves `x · W1`; a host stretch aggregates it over
the augmented edge list; the second call adds the bias and rectifies (the first layer's output `y1`); a stretch
aggregates `y1`; the third call multiplies by `W2`, adds the bias and rectifies (`y2`); the fourth call leaves
`y2 · W3`; a stretch aggregates it; the last call adds the bias. Each call's output array is the whole-array function
its blocks add up to; each stretch's buffers are its operations' terms of the contents it starts from; the arguments
and the augmented lists are carried unchanged to where they are read. Reading the aggregation over the augmented
list as the aggregation `agg`, the result is `gcnKer` of the arguments.
-/

set_option maxRecDepth 16384

noncomputable section

namespace Cert.KernelIdeal.Walk

open Idealize.ShloMosaic Idealize.ShloMosaic.TcCoe Idealize.SL.Sem Idealize.ShloMosaic.StableHlo
open Cert.KernelIdeal Cert.Gcn Cert.KernelIdeal.HostValue
open Cert.KernelIdeal.Facts₀ Cert.KernelIdeal.Facts

/-! ## The eight boundaries, bottom up -/

section Chain
open Cert.KernelIdeal.RegionValue

variable (m : (ℓ : Loc nD τ sig) → Buf (Elt Ideal) ℓ) (ρ : Dev nD → PrngReg) (c : Dev nD)

/-- A bias vector of 64 entries as the kernel program reshapes it, a row `[1, 64]`. -/
def row64 (b : FVec Ideal S64 .f32) : FVec Ideal S1x64 .f32 := shapeCast S1x64 b shapeCasts_S64_S1x64
/-- A bias vector of 128 entries as a row `[1, 128]`. -/
def row128 (b : FVec Ideal S128 .f32) : FVec Ideal S1x128 .f32 := shapeCast S1x128 b shapeCasts_S128_S1x128

/-- The first call leaves `x · W1`. -/
theorem feat1 : Gen.W2 m ρ c (Proc.devRef .tc main_v36)
    = mm (m ((c : Thread nD τ).loc main_arg0)) (m ((c : Thread nD τ).loc main_arg2)) := by
  refine (Gen.W2_arr m ρ c 2).trans ?_
  rw [region0 (Gen.V1 m ρ) c]
  show mm (Gen.W1 m ρ c (Proc.devRef .tc main_arg0)) (Gen.W1 m ρ c (Proc.devRef .tc main_arg2)) = _
  rw [W1_arg0, W1_arg2]

/-- The second stretch aggregates it. -/
theorem agg1 : Gen.W3 m ρ c (Proc.devRef .tc main_v51)
    = aggK (m ((c : Thread nD τ).loc main_arg1)) (mm (m ((c : Thread nD τ).loc main_arg0)) (m ((c : Thread nD τ).loc main_arg2))) := by
  show StableHlo.after (Gen.hostOps1 (F := Ideal)) (Gen.W2 m ρ c) (Proc.devRef .tc main_v51) = _
  rw [host1_v51, feat1, W2_v33, W2_v34, W2_v35, ← aggK_eq_aggTerm]

theorem bias1 : Gen.W3 m ρ c (Proc.devRef .tc main_v52) = row64 (m ((c : Thread nD τ).loc main_arg3)) := by
  show StableHlo.after (Gen.hostOps1 (F := Ideal)) (Gen.W2 m ρ c) (Proc.devRef .tc main_v52) = _
  rw [host1_v52, W2_arg3]; rfl

/-- The second call leaves the first layer's output. -/
theorem out1 : Gen.W4 m ρ c (Proc.devRef .tc main_v53)
    = relu (addBias (aggK (m ((c : Thread nD τ).loc main_arg1)) (mm (m ((c : Thread nD τ).loc main_arg0)) (m ((c : Thread nD τ).loc main_arg2))))
        (row64 (m ((c : Thread nD τ).loc main_arg3)))) := by
  refine (Gen.W4_arr m ρ c 2).trans ?_
  rw [region1 (Gen.V3 m ρ) c]
  show relu (addBias (Gen.W3 m ρ c (Proc.devRef .tc main_v51)) (Gen.W3 m ρ c (Proc.devRef .tc main_v52))) = _
  rw [agg1, bias1]

/-- The first layer's output, as the kernel program has it. -/
def y1 : FVec Ideal S100000x64 .f32 :=
  relu (addBias (aggK (m ((c : Thread nD τ).loc main_arg1)) (mm (m ((c : Thread nD τ).loc main_arg0)) (m ((c : Thread nD τ).loc main_arg2))))
    (row64 (m ((c : Thread nD τ).loc main_arg3))))

theorem out1' : Gen.W4 m ρ c (Proc.devRef .tc main_v53) = y1 m c := out1 m ρ c

/-- The third stretch aggregates it. -/
theorem agg2 : Gen.W5 m ρ c (Proc.devRef .tc main_v68) = aggK (m ((c : Thread nD τ).loc main_arg1)) (y1 m c) := by
  show StableHlo.after (Gen.hostOps2 (F := Ideal)) (Gen.W4 m ρ c) (Proc.devRef .tc main_v68) = _
  rw [host2_v68, out1', W4_v33, W4_v34, W4_v35, ← aggK_eq_aggTerm]

theorem bias2 : Gen.W5 m ρ c (Proc.devRef .tc main_v69) = row128 (m ((c : Thread nD τ).loc main_arg5)) := by
  show StableHlo.after (Gen.hostOps2 (F := Ideal)) (Gen.W4 m ρ c) (Proc.devRef .tc main_v69) = _
  rw [host2_v69, W4_arg5]; rfl

/-- The second layer's output, as the kernel program has it: aggregate, multiply, add the bias, rectify. -/
def y2 : FVec Ideal S100000x128 .f32 :=
  relu (addBias (mm (aggK (m ((c : Thread nD τ).loc main_arg1)) (y1 m c)) (m ((c : Thread nD τ).loc main_arg4)))
    (row128 (m ((c : Thread nD τ).loc main_arg5))))

/-- The third call leaves the second layer's output. -/
theorem out2 : Gen.W6 m ρ c (Proc.devRef .tc main_v70) = y2 m c := by
  refine (Gen.W6_arr m ρ c 3).trans ?_
  rw [region2 (Gen.V5 m ρ) c]
  show relu (addBias (mm (Gen.W5 m ρ c (Proc.devRef .tc main_v68)) (Gen.W5 m ρ c (Proc.devRef .tc main_arg4)))
    (Gen.W5 m ρ c (Proc.devRef .tc main_v69))) = _
  rw [agg2, bias2, W5_arg4]; rfl

/-- The fourth call leaves `y2 · W3`. -/
theorem feat3 : Gen.W7 m ρ c (Proc.devRef .tc main_v71) = mm (y2 m c) (m ((c : Thread nD τ).loc main_arg6)) := by
  refine (Gen.W7_arr m ρ c 2).trans ?_
  rw [region3 (Gen.V6 m ρ) c]
  show mm (Gen.W6 m ρ c (Proc.devRef .tc main_v70)) (Gen.W6 m ρ c (Proc.devRef .tc main_arg6)) = _
  rw [out2, W6_arg6]

/-- The last stretch aggregates it. -/
theorem agg3 : Gen.W8 m ρ c (Proc.devRef .tc main_v86)
    = aggK (m ((c : Thread nD τ).loc main_arg1)) (mm (y2 m c) (m ((c : Thread nD τ).loc main_arg6))) := by
  show StableHlo.after (Gen.hostOps4 (F := Ideal)) (Gen.W7 m ρ c) (Proc.devRef .tc main_v86) = _
  rw [host4_v86, feat3, W7_v33, W7_v34, W7_v35, ← aggK_eq_aggTerm]

theorem bias3 : Gen.W8 m ρ c (Proc.devRef .tc main_v87) = row64 (m ((c : Thread nD τ).loc main_arg7)) := by
  show StableHlo.after (Gen.hostOps4 (F := Ideal)) (Gen.W7 m ρ c) (Proc.devRef .tc main_v87) = _
  rw [host4_v87, W7_arg7]; rfl

/-- THE RESULT: the last call leaves the third layer's output, no rectifier. -/
theorem result_kernel : Gen.W9 m ρ c (Proc.devRef .tc main_v88)
    = addBias (aggK (m ((c : Thread nD τ).loc main_arg1)) (mm (y2 m c) (m ((c : Thread nD τ).loc main_arg6))))
        (row64 (m ((c : Thread nD τ).loc main_arg7))) := by
  refine (Gen.W9_arr m ρ c 2).trans ?_
  rw [region4 (Gen.V8 m ρ) c]
  show addBias (Gen.W8 m ρ c (Proc.devRef .tc main_v86)) (Gen.W8 m ρ c (Proc.devRef .tc main_v87)) = _
  rw [agg3, bias3]

/-! ## The result in the kernel's order of operations -/

/-- Adding the reshaped bias row is adding the bias vector's entry of the column. -/
theorem addBias_row64 {N : Nat} (A : Mat N 64) (b : FVec Ideal S64 .f32) : addBias A (row64 b) = addBias A (rowVec b) := by
  funext i
  show A i + shapeCast S1x64 b shapeCasts_S64_S1x64 (ValueIdx.ix2 (0 : Fin 1) (col i)) = A i + b (ValueIdx.ix1 (col i))
  rw [ValueIdx.shapeCast_a_1a_apply]

theorem addBias_row128 {N : Nat} (A : Mat N 128) (b : FVec Ideal S128 .f32) : addBias A (row128 b) = addBias A (rowVec b) := by
  funext i
  show A i + shapeCast S1x128 b shapeCasts_S128_S1x128 (ValueIdx.ix2 (0 : Fin 1) (col i)) = A i + b (ValueIdx.ix1 (col i))
  rw [ValueIdx.shapeCast_a_1a_apply]

/-- THE KERNEL PROGRAM'S RESULT is `gcnKer` of the launch contents of its arguments. -/
theorem result_eq_of
    (hK : ∀ (ei : IVec S2x1600000 32) (H : FVec Ideal S100000x64 .f32), aggK ei H = agg (tgt ei) (srcN ei) (coefV ei) (selfV ei) H) :
    Gen.W9 m ρ c (Proc.devRef .tc main_v88)
      = gcnKer (tgt (m ((c : Thread nD τ).loc main_arg1))) (srcN (m ((c : Thread nD τ).loc main_arg1)))
          (coefV (m ((c : Thread nD τ).loc main_arg1))) (selfV (m ((c : Thread nD τ).loc main_arg1)))
          (m ((c : Thread nD τ).loc main_arg0)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) := by
  rw [result_kernel]
  unfold y2 y1 gcnKer layer1
  rw [hK, hK, hK, addBias_row64, addBias_row64, addBias_row128]

/-- The same with the aggregation read by its own lemma. -/
theorem result_eq :
    Gen.W9 m ρ c (Proc.devRef .tc main_v88)
      = gcnKer (tgt (m ((c : Thread nD τ).loc main_arg1))) (srcN (m ((c : Thread nD τ).loc main_arg1)))
          (coefV (m ((c : Thread nD τ).loc main_arg1))) (selfV (m ((c : Thread nD τ).loc main_arg1)))
          (m ((c : Thread nD τ).loc main_arg0)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) :=
  result_eq_of m ρ c (fun ei H => aggK_eq ei H)

end Chain

end Cert.KernelIdeal.Walk

end
-- ==== Proof.WeightsReal.lean ====
import proofs.«152042_j21002390077477_2_alg».proof.Proof.Layers
import proofs.«152042_j21002390077477_2_alg».proof.Proof.AggAlgebra
import proofs.«152042_j21002390077477_2_alg».proof.Proof.LibERealScale
import proofs.«152042_j21002390077477_2_alg».proof.Proof.LibBroadcastRead
import Idealize.ShloMosaic.PureOps.Ideal.Laws

/-!
# The edge weights and the self-loop weights are real numbers

The degree of a node is a count: a scatter that adds a `1` for every edge landing on the node into an array of zeros,
plus `1`. Its inverse square root is therefore the real `(√(n + 1))⁻¹` for a natural number `n`. An edge's weight is
the product of two entries of that array (whichever entries the gather reads), a node's self-loop weight the square of
one entry; products of reals are real.
-/

noncomputable section

namespace Cert.Gcn

open Idealize.ShloMosaic

/-- The word `0x00000000` spread over any shape is `0` everywhere. -/
theorem bcast_zero_apply {t : Shape} (h : (⟨0, ![]⟩ : Shape).BroadcastsInDim t (![] : Fin 0 → Fin t.rank)) (j : t.Idx) :
    broadcastInDim t ![] h (constant (F := Ideal) ⟨0, ![]⟩ .f32 0x00000000#32) j = (0 : EReal) := by
  rw [Cert.Lib.bcastScalar_apply]
  simp only [constant, Ideal.ofBits_def, Ideal.ofBits_zero_f32]

/-- The word `0x3F800000` spread over any shape is `1` everywhere. -/
theorem bcast_one_apply {t : Shape} (h : (⟨0, ![]⟩ : Shape).BroadcastsInDim t (![] : Fin 0 → Fin t.rank)) (j : t.Idx) :
    broadcastInDim t ![] h (constant (F := Ideal) ⟨0, ![]⟩ .f32 0x3F800000#32) j = (1 : EReal) := by
  rw [Cert.Lib.bcastScalar_apply]
  simp only [constant, Ideal.ofBits_def, Cert.Lib.ofBits_one_f32, EReal.coe_one]

/-- The inverse square root of (ones scattered into zeros, plus one) is real at every index, for any scatter. -/
theorem rsqrt_degree_isReal {s si su : Shape} (d : ScatterDims s si su) {w : Nat} (idx : IVec si w)
    (hz : (⟨0, ![]⟩ : Shape).BroadcastsInDim s (![] : Fin 0 → Fin s.rank))
    (hu : (⟨0, ![]⟩ : Shape).BroadcastsInDim su (![] : Fin 0 → Fin su.rank)) :
    IsReal (Host.rsqrt (F := Ideal) (φ := .f32)
      (addf (Host.scatterAdd (F := Ideal) d
          (broadcastInDim s ![] hz (constant (F := Ideal) ⟨0, ![]⟩ .f32 0x00000000#32)) idx
          (broadcastInDim su ![] hu (constant (F := Ideal) ⟨0, ![]⟩ .f32 0x3F800000#32)))
        (broadcastInDim s ![] hz (constant (F := Ideal) ⟨0, ![]⟩ .f32 0x3F800000#32)))) := by
  intro i
  obtain ⟨r, _, hr⟩ := rsqrt_count_real d
    (broadcastInDim s ![] hz (constant (F := Ideal) ⟨0, ![]⟩ .f32 0x00000000#32)) idx
    (broadcastInDim su ![] hu (constant (F := Ideal) ⟨0, ![]⟩ .f32 0x3F800000#32))
    (bcast_zero_apply hz) (bcast_one_apply hu) i
  refine ⟨r, ?_⟩
  simp only [Host.rsqrt, addf, Host.scatterAdd, Ideal.hostUnary_rsqrt_def, Ideal.addf_def, Ideal.hostScatterAdd_def]
  rw [bcast_one_apply hz i]
  exact hr

/-- Every entry of a gather is some entry of its operand, so a gather of a real array is real. -/
theorem isReal_gather {s si t : Shape} {w : Nat} (g : GatherDims s si t) {D : s.Idx → EReal} (hD : IsReal D)
    (idx : IVec si w) : IsReal (Host.gather g D idx) :=
  fun j => hD (g.operandIdx j idx)

/-- The entrywise product of two real arrays is real. -/
theorem isReal_mulf {s : Shape} {A B : s.Idx → EReal} (hA : IsReal A) (hB : IsReal B) :
    IsReal (mulf (F := Ideal) (φ := .f32) A B) := by
  intro j
  obtain ⟨a, ha⟩ := hA j
  obtain ⟨b, hb⟩ := hB j
  refine ⟨a * b, ?_⟩
  simp only [mulf, Ideal.mulf_def]
  rw [ha, hb, EReal.coe_mul]

open Cert.KernelIdeal
variable [Cert.KernelIdeal.Facts]
open Cert.KernelIdeal.Facts₀ Cert.KernelIdeal.Facts

/-- Every entry of the inverse square root of the degrees is a real number. -/
theorem dinvK_isReal (ei : IVec S2x1600000 32) : IsReal (dinvK ei) := by
  unfold dinvK degK
  exact rsqrt_degree_isReal _ _ _ _

/-- An edge's weight is the product of two entries of the inverse square roots. -/
theorem coefK_isReal (ei : IVec S2x1600000 32) : IsReal (coefK ei) := by
  unfold coefK
  exact isReal_mulf (isReal_gather _ (dinvK_isReal ei) _) (isReal_gather _ (dinvK_isReal ei) _)

/-- A node's self-loop weight is the square of its entry. -/
theorem selfK_isReal (ei : IVec S2x1600000 32) : IsReal (selfK ei) := by
  unfold selfK
  exact isReal_mulf (dinvK_isReal ei) (dinvK_isReal ei)

theorem coefV_isReal (ei : IVec Cert.KernelIdeal.S2x1600000 32) : IsReal (coefV ei) :=
  fun e => coefK_isReal ei (ValueIdx.ix1 e)

theorem selfV_isReal (ei : IVec Cert.KernelIdeal.S2x1600000 32) : IsReal (selfV ei) :=
  fun r => selfK_isReal ei (ValueIdx.ix1 r)

end Cert.Gcn

end
-- ==== Proof.RefModel.lean ====
import proofs.«152042_j21002390077477_2_alg».proof.Proof.Gen.ReferenceIdeal.Read
import proofs.«152042_j21002390077477_2_alg».proof.Proof.Layers
import proofs.«152042_j21002390077477_2_alg».proof.Proof.Model
import proofs.«152042_j21002390077477_2_alg».proof.Proof.LibMatProduct
import proofs.«152042_j21002390077477_2_alg».proof.Proof.LibBroadcastRead

/-!
# The reference program computes the three layers in the order "multiply, then aggregate"

The reference's operations, read as whole arrays: a `dot_general` contracting axis 1 with axis 0 is the matrix product, a
maximum with the zero word spread over the array is the rectifier, adding a vector spread along the rows is the bias, and
the scatter / gather / multiply stages of each layer are one normalised aggregation over the edges. Chained in program
order they give `gcnRef`.
-/

noncomputable section

namespace Cert.Gcn

open Idealize.ShloMosaic Cert.ReferenceIdeal
open Idealize.ShloMosaic.ValueIdx

/-! ## Three whole-array facts, over any extents -/

/-- The host's `dot_general` with the matrix product's dimension numbers is the matrix product. -/
theorem dotGeneral_matDims_eq_mm {N K C : Nat}
    (wf : DotDims.WF ⟨2, ![N, K]⟩ ⟨2, ![K, C]⟩ ⟨2, ![N, C]⟩ [1] [0] [0] [1] [] [])
    (X : FVec Ideal ⟨2, ![N, K]⟩ .f32) (W : FVec Ideal ⟨2, ![K, C]⟩ .f32) :
    Host.dotGeneral (F := Ideal) (Cert.Lib.matDims N K C wf) none X W = mm X W := by
  funext i
  rw [Cert.Lib.dotGeneral_matDims_apply]
  rfl

/-- The maximum with the zero word spread over the array is the rectifier. -/
theorem maximumf_zero_eq_relu {N C : Nat}
    (h : (⟨0, ![]⟩ : Shape).BroadcastsInDim ⟨2, ![N, C]⟩ (![] : Fin 0 → Fin (⟨2, ![N, C]⟩ : Shape).rank))
    (A : FVec Ideal ⟨2, ![N, C]⟩ .f32) :
    maximumf (F := Ideal) (φ := .f32) A
      (broadcastInDim ⟨2, ![N, C]⟩ ![] h (constant (F := Ideal) ⟨0, ![]⟩ .f32 0x00000000#32)) = relu A := by
  funext i
  simp only [maximumf, Ideal.maximumf_def, relu]
  rw [Cert.Lib.bcastScalar_apply]
  simp only [constant, Ideal.ofBits_def, Ideal.ofBits_zero_f32]

/-- Entrywise addition of a second array whose entry at `(r, f)` is `b f` is the bias `b` added to every row. -/
theorem addf_eq_addBias {N C : Nat} (A B : FVec Ideal ⟨2, ![N, C]⟩ .f32) (b : (⟨1, ![C]⟩ : Shape).Idx → EReal)
    (hB : ∀ i, B i = b (ix1 (col i))) : addf (F := Ideal) (φ := .f32) A B = addBias A (rowVec b) := by
  funext i
  simp only [addf, Ideal.addf_def, addBias, rowVec]
  rw [hB i]
  rfl

/-! ## The stages of the reference program -/

variable [Cert.KernelIdeal.Facts] [Cert.ReferenceIdeal.Facts]

section Stages
variable (x : FVec Ideal S100000x128 .f32) (ei : IVec S2x1600000 32) (W1 : FVec Ideal S128x64 .f32)
  (b1 : FVec Ideal S64 .f32) (W2 : FVec Ideal S64x128 .f32) (b2 : FVec Ideal S128 .f32)
  (W3 : FVec Ideal S128x64 .f32) (b3 : FVec Ideal S64 .f32)

set_option maxRecDepth 8192 in
/-- Layer 1's scatter, gather and multiply stages are the aggregation of the product `x · W1`. -/
theorem stage49 : Read.val_main_v49 (F := Ideal) x ei W1 = aggR64 ei (Read.val_main_v4 (F := Ideal) x W1) := rfl

set_option maxRecDepth 8192 in
/-- Layer 2's are the aggregation of the 128-wide product. -/
theorem stage99 : Read.val_main_v99 (F := Ideal) x ei W1 b1 W2
    = aggR128 ei (Read.val_main_v54 (F := Ideal) x ei W1 b1 W2) := rfl

set_option maxRecDepth 8192 in
/-- Layer 3's are the aggregation of the 64-wide product. -/
theorem stage149 : Read.val_main_v149 (F := Ideal) x ei W1 b1 W2 b2 W3
    = aggR64 ei (Read.val_main_v104 (F := Ideal) x ei W1 b1 W2 b2 W3) := rfl

/-- The first bias, spread over the rows, holds `b f` at `(r, f)`. -/
theorem bias51 (b : FVec Ideal S64 .f32) (i : S100000x64.Idx) :
    Read.val_main_v51 (F := Ideal) b i = b (ix1 (col i)) := by
  rw [Read.val_main_v51_apply, Read.val_main_v50_apply]
  exact congrArg b (funext fun a => match a with | ⟨0, _⟩ => rfl)

/-- The second bias likewise. -/
theorem bias101 (b : FVec Ideal S128 .f32) (i : S100000x128.Idx) :
    Read.val_main_v101 (F := Ideal) b i = b (ix1 (col i)) := by
  rw [Read.val_main_v101_apply, Read.val_main_v100_apply]
  exact congrArg b (funext fun a => match a with | ⟨0, _⟩ => rfl)

/-- The third bias likewise. -/
theorem bias151 (b : FVec Ideal S64 .f32) (i : S100000x64.Idx) :
    Read.val_main_v151 (F := Ideal) b i = b (ix1 (col i)) := by
  rw [Read.val_main_v151_apply, Read.val_main_v150_apply]
  exact congrArg b (funext fun a => match a with | ⟨0, _⟩ => rfl)

end Stages

/-- THE REFERENCE'S RESULT: three layers, each "multiply by the layer's matrix, aggregate over the edges, add the bias",
    the first two followed by the rectifier. The two hypotheses say that the reference's scatter / gather / multiply
    stages are one aggregation with the edge weights and self-loop weights read at indices. -/
theorem refValue
    (h64 : ∀ (ei : IVec Cert.KernelIdeal.S2x1600000 32) (H : FVec Ideal Cert.ReferenceIdeal.S100000x64 .f32),
      aggR64 ei H = agg (tgt ei) (srcN ei) (coefV ei) (selfV ei) H)
    (h128 : ∀ (ei : IVec Cert.KernelIdeal.S2x1600000 32) (H : FVec Ideal Cert.ReferenceIdeal.S100000x128 .f32),
      aggR128 ei H = agg (tgt ei) (srcN ei) (coefV ei) (selfV ei) H)
    (x : FVec Ideal S100000x128 .f32) (ei : IVec S2x1600000 32) (W1 : FVec Ideal S128x64 .f32) (b1 : FVec Ideal S64 .f32)
    (W2 : FVec Ideal S64x128 .f32) (b2 : FVec Ideal S128 .f32) (W3 : FVec Ideal S128x64 .f32) (b3 : FVec Ideal S64 .f32) :
    Cert.ReferenceIdeal.Read.val_main_v152 (F := Ideal) x ei W1 b1 W2 b2 W3 b3
      = gcnRef (tgt ei) (srcN ei) (coefV ei) (selfV ei) x W1 b1 W2 b2 W3 b3 := by
  -- layer 1: product, aggregation, bias, rectifier
  have e4 : Read.val_main_v4 (F := Ideal) x W1 = mm x W1 := by
    unfold Read.val_main_v4
    exact dotGeneral_matDims_eq_mm _ x W1
  have e49 : Read.val_main_v49 (F := Ideal) x ei W1 = agg (tgt ei) (srcN ei) (coefV ei) (selfV ei) (mm x W1) := by
    rw [stage49, e4, h64]
  have e53 : Read.val_main_v53 (F := Ideal) x ei W1 b1
      = layer1 (tgt ei) (srcN ei) (coefV ei) (selfV ei) x W1 b1 := by
    unfold Read.val_main_v53 Read.val_main_call0_v0 Read.val_main_call0_cst Read.val_main_v52 layer1
    rw [e49, addf_eq_addBias _ _ b1 (bias51 b1)]
    exact maximumf_zero_eq_relu _ _
  -- layer 2
  have e54 : Read.val_main_v54 (F := Ideal) x ei W1 b1 W2
      = mm (layer1 (tgt ei) (srcN ei) (coefV ei) (selfV ei) x W1 b1) W2 := by
    unfold Read.val_main_v54
    rw [e53]
    exact dotGeneral_matDims_eq_mm _ _ W2
  have e99 : Read.val_main_v99 (F := Ideal) x ei W1 b1 W2
      = agg (tgt ei) (srcN ei) (coefV ei) (selfV ei)
          (mm (layer1 (tgt ei) (srcN ei) (coefV ei) (selfV ei) x W1 b1) W2) := by
    rw [stage99, e54, h128]
  have e103 : Read.val_main_v103 (F := Ideal) x ei W1 b1 W2 b2
      = relu (addBias (agg (tgt ei) (srcN ei) (coefV ei) (selfV ei)
          (mm (layer1 (tgt ei) (srcN ei) (coefV ei) (selfV ei) x W1 b1) W2)) (rowVec b2)) := by
    unfold Read.val_main_v103 Read.val_main_call1_v0 Read.val_main_call1_cst Read.val_main_v102
    rw [e99, addf_eq_addBias _ _ b2 (bias101 b2)]
    exact maximumf_zero_eq_relu _ _
  -- layer 3
  have e104 : Read.val_main_v104 (F := Ideal) x ei W1 b1 W2 b2 W3
      = mm (relu (addBias (agg (tgt ei) (srcN ei) (coefV ei) (selfV ei)
          (mm (layer1 (tgt ei) (srcN ei) (coefV ei) (selfV ei) x W1 b1) W2)) (rowVec b2))) W3 := by
    unfold Read.val_main_v104
    rw [e103]
    exact dotGeneral_matDims_eq_mm _ _ W3
  have e149 : Read.val_main_v149 (F := Ideal) x ei W1 b1 W2 b2 W3
      = agg (tgt ei) (srcN ei) (coefV ei) (selfV ei)
          (mm (relu (addBias (agg (tgt ei) (srcN ei) (coefV ei) (selfV ei)
            (mm (layer1 (tgt ei) (srcN ei) (coefV ei) (selfV ei) x W1 b1) W2)) (rowVec b2))) W3) := by
    rw [stage149, e104, h64]
  unfold Read.val_main_v152 gcnRef
  rw [e149, addf_eq_addBias _ _ b3 (bias151 b3)]

end Cert.Gcn

end
-- ==== Proof.lean ====
/-
  Three layers of a graph convolution over 100000 nodes, two programs, one result.

  Each layer multiplies the node features by a weight matrix, aggregates over the edges with the symmetric
  normalisation (row `r` of the aggregate is the weighted sum of the source rows of the edges into `r`, plus row `r`
  itself with its self-loop weight), adds a bias row, and, in the first two layers, applies the rectifier. The
  reference multiplies before it aggregates in every layer; the kernel, in the second layer, aggregates first (over
  64 columns instead of 128) and multiplies afterwards. Aggregation is a linear combination of rows, with weights
  that both programs compute from the edge list alone and that are real numbers; on real inputs the first layer's
  output is real, a real linear combination of rows passes through a matrix product with real entries, and so the
  two orders give the same array. That is the last conjunct; the others say that each program runs and leaves its
  arguments as launched.
-/
import proofs.«152042_j21002390077477_2_alg».proof.Defs
import proofs.«152042_j21002390077477_2_alg».proof.Proof.Gen.Kernel
import proofs.«152042_j21002390077477_2_alg».proof.Proof.Gen.Kernel.Skeleton
import proofs.«152042_j21002390077477_2_alg».proof.Proof.Gen.Kernel.Launch
import proofs.«152042_j21002390077477_2_alg».proof.Proof.Gen.Kernel.Points
import proofs.«152042_j21002390077477_2_alg».proof.Proof.Gen.Kernel.Frame
import proofs.«152042_j21002390077477_2_alg».proof.Proof.Gen.KernelIdeal
import proofs.«152042_j21002390077477_2_alg».proof.Proof.Gen.KernelIdeal.Skeleton
import proofs.«152042_j21002390077477_2_alg».proof.Proof.Gen.KernelIdeal.Launch
import proofs.«152042_j21002390077477_2_alg».proof.Proof.Gen.KernelIdeal.Points
import proofs.«152042_j21002390077477_2_alg».proof.Proof.Gen.KernelIdeal.Frame
import proofs.«152042_j21002390077477_2_alg».proof.Proof.Gen.ReferenceIdeal
import proofs.«152042_j21002390077477_2_alg».proof.Proof.Gen.Pre_finite_inputs
import proofs.«152042_j21002390077477_2_alg».proof.Proof.Gen.ReferenceIdeal.Run
import proofs.«152042_j21002390077477_2_alg».proof.Proof.Gen.ReferenceIdeal.Read
import proofs.«152042_j21002390077477_2_alg».proof.Proof.Model
import proofs.«152042_j21002390077477_2_alg».proof.Proof.Layers
import proofs.«152042_j21002390077477_2_alg».proof.Proof.FiniteInputs
import proofs.«152042_j21002390077477_2_alg».proof.Proof.FrameResult
import proofs.«152042_j21002390077477_2_alg».proof.Proof.KernelValue
import proofs.«152042_j21002390077477_2_alg».proof.Proof.AggRead
import proofs.«152042_j21002390077477_2_alg».proof.Proof.WeightsReal
import proofs.«152042_j21002390077477_2_alg».proof.Proof.RefModel
import Idealize.ShloMosaic.Adequacy
import Idealize.ShloMosaic.Init

noncomputable section

namespace Cert.Proof

open Idealize.ShloMosaic Idealize.SL.Sem

/-- The word-level program runs and leaves its arguments as launched. -/
theorem frame_kernel : Cert.frame_Kernel := fun m ρ _ => Cert.Kernel.Gen.frame m ρ

/-- So does the program read over the extended reals. -/
theorem frame_kernelIdeal : Cert.frame_KernelIdeal := fun m ρ _ => Cert.KernelIdeal.Gen.frame m ρ

/-- The reference runs and leaves its arguments as launched: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals, from real inputs, the two programs end with the same `[100000, 64]` array. The kernel's
    result is the three layers with the second layer's product taken after its aggregation; the reference's is the
    three layers with every product taken before its aggregation; the edge weights and the self-loop weights both
    programs compute from the edge list are real, so the aggregation is a real linear combination of rows and passes
    through the product with `W2`. -/
theorem algebraic : Cert.algebraic_KernelIdeal_ReferenceIdeal := by
  intro m ρ m' ρ' hpre hagree
  refine ⟨fun c => Cert.Gcn.gcnKer (Cert.Gcn.tgt (m ((c.tc : Thread Cert.KernelIdeal.nD Cert.KernelIdeal.τ).loc Cert.KernelIdeal.main_arg1))) (Cert.Gcn.srcN (m ((c.tc : Thread Cert.KernelIdeal.nD Cert.KernelIdeal.τ).loc Cert.KernelIdeal.main_arg1))) (Cert.Gcn.coefV (m ((c.tc : Thread Cert.KernelIdeal.nD Cert.KernelIdeal.τ).loc Cert.KernelIdeal.main_arg1))) (Cert.Gcn.selfV (m ((c.tc : Thread Cert.KernelIdeal.nD Cert.KernelIdeal.τ).loc Cert.KernelIdeal.main_arg1)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Walk.result_eq m ρ c), (h c).2⟩)
      (Cert.KernelIdeal.GenP.frame_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v152_eq]
    obtain ⟨a0, a1, a2, a3, a4, a5, a6, a7⟩ := hagree c
    rw [a0, a1, a2, a3, a4, a5, a6, a7]
    obtain ⟨hx, hW1, hb1, hW2, -, -, -⟩ := Cert.Gcn.isReal_of_pre _ _ _ _ _ _ _ _ (hpre c)
    exact (Cert.Gcn.refValue Cert.Gcn.aggR64_eq Cert.Gcn.aggR128_eq _ _ _ _ _ _ _ _).trans
      (Cert.Gcn.gcnKer_eq_gcnRef _ _ _ _ _ _ _ _ _ _ _ hx hW1 hb1 hW2 (Cert.Gcn.coefV_isReal _) (Cert.Gcn.selfV_isReal _)).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
